-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x768 : Shape := ⟨3, ![8, 2048, 768]⟩
abbrev S768x768 : Shape := ⟨2, ![768, 768]⟩
abbrev S_ : Shape := ⟨0, ![]⟩

class Facts : Prop where
  bcast_S_S8x2048x768 : S_.BroadcastsInDim S8x2048x768 (![] : Fin 0 → Fin S8x2048x768.rank)
  reducesTo_S8x2048x768_S_d0_1_2 : S8x2048x768.ReducesTo [0, 1, 2] S_
  h_S_ : 0 < S_.numel
  bcast_S_S768x768 : S_.BroadcastsInDim S768x768 (![] : Fin 0 → Fin S768x768.rank)
  reducesTo_S768x768_S_d0_1 : S768x768.ReducesTo [0, 1] S_

variable [Facts]

def fn_part1 {F : FTy → Type} [FloatOps F] (main_v13 : IVec S_ 1) (main_v16 : IVec S768x768 1) : IVec S_ 1 :=
  let main_c_5 : IVec S_ 1 := constantI S_ 1 1#1
  let main_v17 : IVec S_ 1 := (fun x v => Host.reduce IntOp.andi x v reducesTo_S768x768_S_d0_1 h_S_) main_v16 main_c_5
  let main_v18 : IVec S_ 1 := andi main_v13 main_v17
  main_v18

def fn {F : FTy → Type} [FloatOps F] (main_arg0 : FVec F S8x2048x768 .f32) (main_arg1 : FVec F S768x768 .f32) (main_arg2 : FVec F S768x768 .f32) (main_arg3 : FVec F S768x768 .f32) : IVec S_ 1 :=
  let main_v0 : FVec F S8x2048x768 .f32 := Host.absf main_arg0
  let main_cst : FVec F S_ .f32 := constant S_ .f32 0x7F800000#32
  let main_v1 : FVec F S8x2048x768 .f32 := broadcastInDim S8x2048x768 ![] bcast_S_S8x2048x768 main_cst
  let main_v2 : IVec S8x2048x768 1 := cmpf .olt main_v0 main_v1
  let main_c : IVec S_ 1 := constantI S_ 1 1#1
  let main_v3 : IVec S_ 1 := (fun x v => Host.reduce IntOp.andi x v reducesTo_S8x2048x768_S_d0_1_2 h_S_) main_v2 main_c
  let main_v4 : FVec F S768x768 .f32 := Host.absf main_arg1
  let main_cst_0 : FVec F S_ .f32 := constant S_ .f32 0x7F800000#32
  let main_v5 : FVec F S768x768 .f32 := broadcastInDim S768x768 ![] bcast_S_S768x768 main_cst_0
  let main_v6 : IVec S768x768 1 := cmpf .olt main_v4 main_v5
  let main_c_1 : IVec S_ 1 := constantI S_ 1 1#1
  let main_v7 : IVec S_ 1 := (fun x v => Host.reduce IntOp.andi x v reducesTo_S768x768_S_d0_1 h_S_) main_v6 main_c_1
  let main_v8 : IVec S_ 1 := andi main_v3 main_v7
  let main_v9 : FVec F S768x768 .f32 := Host.absf main_arg2
  let main_cst_2 : FVec F S_ .f32 := constant S_ .f32 0x7F800000#32
  let main_v10 : FVec F S768x768 .f32 := broadcastInDim S768x768 ![] bcast_S_S768x768 main_cst_2
  let main_v11 : IVec S768x768 1 := cmpf .olt main_v9 main_v10
  let main_c_3 : IVec S_ 1 := constantI S_ 1 1#1
  let main_v12 : IVec S_ 1 := (fun x v => Host.reduce IntOp.andi x v reducesTo_S768x768_S_d0_1 h_S_) main_v11 main_c_3
  let main_v13 : IVec S_ 1 := andi main_v8 main_v12
  let main_v14 : FVec F S768x768 .f32 := Host.absf main_arg3
  let main_cst_4 : FVec F S_ .f32 := constant S_ .f32 0x7F800000#32
  let main_v15 : FVec F S768x768 .f32 := broadcastInDim S768x768 ![] bcast_S_S768x768 main_cst_4
  let main_v16 : IVec S768x768 1 := cmpf .olt main_v14 main_v15
  fn_part1 (F := F) main_v13 main_v16
-- ==== Kernel.lean ====
abbrev S8x2048x768 : Shape := ⟨3, ![8, 2048, 768]⟩
abbrev S768x768 : Shape := ⟨2, ![768, 768]⟩
abbrev S16384x768 : Shape := ⟨2, ![16384, 768]⟩
abbrev S_ : Shape := ⟨0, ![]⟩
abbrev S768x2304 : Shape := ⟨2, ![768, 2304]⟩
abbrev S16384x2304 : Shape := ⟨2, ![16384, 2304]⟩
abbrev S1024x768 : Shape := ⟨2, ![1024, 768]⟩
abbrev S1024x2304 : Shape := ⟨2, ![1024, 2304]⟩
abbrev S1x1024x768 : Shape := ⟨3, ![1, 1024, 768]⟩
abbrev S1024x1 : Shape := ⟨2, ![1024, 1]⟩
abbrev S768x1024 : Shape := ⟨2, ![768, 1024]⟩
abbrev S1024x1024 : Shape := ⟨2, ![1024, 1024]⟩
abbrev S1024 : Shape := ⟨1, ![1024]⟩

abbrev nBuf : Space → Nat
  | .hbm => 23
  | .vmem => 16
  | .smem => 0
  | _ => 0

abbrev bufTy : (tb : Table) → Fin (tcTables nBuf tb) → BufTy
  | .hbm, ⟨0, _⟩ => ⟨S8x2048x768, .f32⟩
  | .hbm, ⟨1, _⟩ => ⟨S768x768, .f32⟩
  | .hbm, ⟨2, _⟩ => ⟨S768x768, .f32⟩
  | .hbm, ⟨3, _⟩ => ⟨S768x768, .f32⟩
  | .hbm, ⟨4, _⟩ => ⟨S16384x768, .f32⟩
  | .hbm, ⟨5, _⟩ => ⟨S768x768, .f32⟩
  | .hbm, ⟨6, _⟩ => ⟨S_, .f32⟩
  | .hbm, ⟨7, _⟩ => ⟨S768x768, .f32⟩
  | .hbm, ⟨8, _⟩ => ⟨S768x768, .f32⟩
  | .hbm, ⟨9, _⟩ => ⟨S768x768, .bf16⟩
  | .hbm, ⟨10, _⟩ => ⟨S768x768, .f32⟩
  | .hbm, ⟨11, _⟩ => ⟨S768x768, .bf16⟩
  | .hbm, ⟨12, _⟩ => ⟨S768x768, .f32⟩
  | .hbm, ⟨13, _⟩ => ⟨S768x768, .bf16⟩
  | .hbm, ⟨14, _⟩ => ⟨S768x2304, .bf16⟩
  | .hbm, ⟨15, _⟩ => ⟨S16384x2304, .bf16⟩
  | .hbm, ⟨16, _⟩ => ⟨S16384x768, .bf16⟩
  | .hbm, ⟨17, _⟩ => ⟨S8x2048x768, .bf16⟩
  | .hbm, ⟨18, _⟩ => ⟨S16384x768, .bf16⟩
  | .hbm, ⟨19, _⟩ => ⟨S8x2048x768, .bf16⟩
  | .hbm, ⟨20, _⟩ => ⟨S16384x768, .bf16⟩
  | .hbm, ⟨21, _⟩ => ⟨S8x2048x768, .bf16⟩
  | .hbm, ⟨22, _⟩ => ⟨S8x2048x768, .f32⟩
  | .local _ .vmem, ⟨0, _⟩ => ⟨S1024x768, .f32⟩
  | .local _ .vmem, ⟨1, _⟩ => ⟨S1024x768, .f32⟩
  | .local _ .vmem, ⟨2, _⟩ => ⟨S768x2304, .bf16⟩
  | .local _ .vmem, ⟨3, _⟩ => ⟨S1024x2304, .bf16⟩
  | .local _ .vmem, ⟨4, _⟩ => ⟨S1024x2304, .bf16⟩
  | .local _ .vmem, ⟨5, _⟩ => ⟨S1x1024x768, .bf16⟩
  | .local _ .vmem, ⟨6, _⟩ => ⟨S1x1024x768, .bf16⟩
  | .local _ .vmem, ⟨7, _⟩ => ⟨S1x1024x768, .bf16⟩
  | .local _ .vmem, ⟨8, _⟩ => ⟨S1x1024x768, .bf16⟩
  | .local _ .vmem, ⟨9, _⟩ => ⟨S1x1024x768, .bf16⟩
  | .local _ .vmem, ⟨10, _⟩ => ⟨S1x1024x768, .bf16⟩
  | .local _ .vmem, ⟨11, _⟩ => ⟨S1x1024x768, .f32⟩
  | .local _ .vmem, ⟨12, _⟩ => ⟨S1x1024x768, .f32⟩
  | .local _ .vmem, ⟨13, _⟩ => ⟨S1024x1, .f32⟩
  | .local _ .vmem, ⟨14, _⟩ => ⟨S1024x1, .f32⟩
  | .local _ .vmem, ⟨15, _⟩ => ⟨S1024x768, .f32⟩
  | _, _ => ⟨S8x2048x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc1_scratch0 : Ref sig .tc := ⟨.vmem, 13, rfl⟩
abbrev cc1_scratch1 : Ref sig .tc := ⟨.vmem, 14, rfl⟩
abbrev cc1_scratch2 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S768x2304 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x2304 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨3, ![8, 2, 2], ![false, false, false]⟩

def k1_cond2 (i : grid1.Coords) : BitVec 1 :=
  let arg2 : BitVec 32 := BitVec.ofNat 32 (i 2).val
  let c1_i32 : BitVec 32 := 1#32
  let v41 : BitVec 1 := Scalar.cmpi .eq arg2 c1_i32
  let v42 : BitVec 32 := Scalar.extui v41
  let c0_i32_26 : BitVec 32 := 0#32
  let v43 : BitVec 1 := Scalar.cmpi .ne v42 c0_i32_26
  v43

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc1_transform_3 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage1_0 : Fin 2 → Memref sig .tc .vmem S1x1024x768 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, false]

abbrev stage1_1 : Fin 2 → Memref sig .tc .vmem S1x1024x768 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false, true]

abbrev stage1_2 : Fin 2 → Memref sig .tc .vmem S1x1024x768 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false, true]

abbrev stage1_3 : Fin 2 → Memref sig .tc .vmem S1x1024x768 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

class Facts₀ : Prop where
  shapeCasts_S8x2048x768_S16384x768 : S8x2048x768.ShapeCasts S16384x768
  transposes_S768x768_S768x768_1_0 : S768x768.Transposes [1, 0] S768x768
  bcast_S_S768x768 : S_.BroadcastsInDim S768x768 (![] : Fin 0 → Fin S768x768.rank)
  bitsLt_bf16_f32 : FTy.bits .bf16 < FTy.bits .f32
  concatenates_S768x768_S768x768_S768x768_S768x2304_d1 : Shape.Concatenates [S768x768, S768x768, S768x768] S768x2304 1
  inb_S1024x768_S1024x768_0_0 : ∀ a, (![0, 0] : Fin 2 → Nat) a + S1024x768.size a ≤ S1024x768.size a
  h_S1024x768 : 0 < S1024x768.numel
  shapeCasts_S1024x768_S1024x768 : S1024x768.ShapeCasts S1024x768
  inb_S768x2304_S768x2304_0_0 : ∀ a, (![0, 0] : Fin 2 → Nat) a + S768x2304.size a ≤ S768x2304.size a
  h_S768x2304 : 0 < S768x2304.numel
  shapeCasts_S768x2304_S768x2304 : S768x2304.ShapeCasts S768x2304
  inb_S1024x2304_S1024x2304_0_0 : ∀ a, (![0, 0] : Fin 2 → Nat) a + S1024x2304.size a ≤ S1024x2304.size a
  h_S1024x2304 : 0 < S1024x2304.numel
  packedbf16_S1024x2304_S1024x2304_0_0 : (Rect.unit (s := S1024x2304) ![0, 0] S1024x2304.size inb_S1024x2304_S1024x2304_0_0).PackedRows (EltTy.packing .bf16)
  slices_S16384x2304_S16384x768_0_0 : S16384x2304.Slices ![0, 0] S16384x768
  shapeCasts_S16384x768_S8x2048x768 : S16384x768.ShapeCasts S8x2048x768
  slices_S16384x2304_S16384x768_0_768 : S16384x2304.Slices ![0, 768] S16384x768
  slices_S16384x2304_S16384x768_0_1536 : S16384x2304.Slices ![0, 1536] S16384x768
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1x1024x768_S1x1024x768_0_0_0 : ∀ a, (![0, 0, 0] : Fin 3 → Nat) a + S1x1024x768.size a ≤ S1x1024x768.size a
  h_S1x1024x768 : 0 < S1x1024x768.numel
  shapeCasts_S1x1024x768_S1024x768 : S1x1024x768.ShapeCasts S1024x768
  transposes_S1024x768_p1_0_S768x1024 : S1024x768.Transposes [1, 0] S768x1024
  reduces_S1024x1024_S1024 : S1024x1024.Reduces [1] S1024
  shapeCasts_S1024_S1024x1 : S1024.ShapeCasts S1024x1
  broadcasts_S1024x1_S1024x1024 : S1024x1.Broadcasts S1024x1024
  broadcasts_S1024x1_S1024x768 : S1024x1.Broadcasts S1024x768
  shapeCasts_S1024x768_S1x1024x768 : S1024x768.ShapeCasts S1x1024x768
  dot_S1024x768_S768x2304_S1024x2304_1_0_0_1_n_n_wf : DotDims.WF S1024x768 S768x2304 S1024x2304 [1] [0] [0] [1] [] []
  dot_S1024x768_S768x1024_S1024x1024_1_0_0_1_n_n_wf : DotDims.WF S1024x768 S768x1024 S1024x1024 [1] [0] [0] [1] [] []
  dot_S1024x1024_S1024x768_S1024x768_1_0_0_1_n_n_wf : DotDims.WF S1024x1024 S1024x768 S1024x768 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x768.size a ≤ S16384x768.size a
  hwx0_0 : ∀ i : grid0.Coords, EltTy.bits .f32 = 32 ∨ (Rect.block (s := S16384x768) S1024x768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S768x2304.size a ≤ S768x2304.size a
  hwx0_1 : ∀ i : grid0.Coords, EltTy.bits .bf16 = 32 ∨ (Rect.block (s := S768x2304) S768x2304.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x2304.size a ≤ S16384x2304.size a
  hwx0_2 : ∀ i : grid0.Coords, EltTy.bits .bf16 = 32 ∨ (Rect.block (s := S16384x2304) S1024x2304.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1024x768.size a ≤ S8x2048x768.size a
  hwx1_0 : ∀ i : grid1.Coords, EltTy.bits .bf16 = 32 ∨ (Rect.block (s := S8x2048x768) S1x1024x768.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1024x768.size a ≤ S8x2048x768.size a
  hwx1_1 : ∀ i : grid1.Coords, EltTy.bits .bf16 = 32 ∨ (Rect.block (s := S8x2048x768) S1x1024x768.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1024x768.size a ≤ S8x2048x768.size a
  hwx1_2 : ∀ i : grid1.Coords, EltTy.bits .bf16 = 32 ∨ (Rect.block (s := S8x2048x768) S1x1024x768.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1024x768.size a ≤ S8x2048x768.size a
  hwx1_3 : ∀ i : grid1.Coords, EltTy.bits .f32 = 32 ∨ (Rect.block (s := S8x2048x768) S1x1024x768.size (cc1_transform_3 i) (hinb1_3 i)).WholeWords (EltTy.packing .f32)

variable [Facts₀]

def dot_S1024x768_S768x2304_S1024x2304_1_0_0_1_n_n : DotDims S1024x768 S768x2304 S1024x2304 where
  lhsContracting := [1]
  rhsContracting := [0]
  lhsNonContracting := [0]
  rhsNonContracting := [1]
  lhsBatch := []
  rhsBatch := []
  wf := dot_S1024x768_S768x2304_S1024x2304_1_0_0_1_n_n_wf
def dot_S1024x768_S768x1024_S1024x1024_1_0_0_1_n_n : DotDims S1024x768 S768x1024 S1024x1024 where
  lhsContracting := [1]
  rhsContracting := [0]
  lhsNonContracting := [0]
  rhsNonContracting := [1]
  lhsBatch := []
  rhsBatch := []
  wf := dot_S1024x768_S768x1024_S1024x1024_1_0_0_1_n_n_wf
def dot_S1024x1024_S1024x768_S1024x768_1_0_0_1_n_n : DotDims S1024x1024 S1024x768 S1024x768 where
  lhsContracting := [1]
  rhsContracting := [0]
  lhsNonContracting := [0]
  rhsNonContracting := [1]
  lhsBatch := []
  rhsBatch := []
  wf := dot_S1024x1024_S1024x768_S1024x768_1_0_0_1_n_n_wf

abbrev win0_0 : Pipeline.Window sig grid0 :=
  Pipeline.Window.ofSpec (Memref.whole main_v0) S1024x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S768x2304.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v10) S1024x2304.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v12) S1x1024x768.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S1x1024x768.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v16) S1x1024x768.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v17) S1x1024x768.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== ReferenceIdeal.lean ====
abbrev S8x2048x768 : Shape := ⟨3, ![8, 2048, 768]⟩
abbrev S768x768 : Shape := ⟨2, ![768, 768]⟩
abbrev S8x2048x2048 : Shape := ⟨3, ![8, 2048, 2048]⟩
abbrev S_ : Shape := ⟨0, ![]⟩
abbrev S8x2048 : Shape := ⟨2, ![8, 2048]⟩
abbrev S8x2048x1 : Shape := ⟨3, ![8, 2048, 1]⟩

abbrev nBuf : Space → Nat
  | .hbm => 26
  | .vmem => 0
  | .smem => 0
  | _ => 0

abbrev bufTy : (tb : Table) → Fin (tcTables nBuf tb) → BufTy
  | .hbm, ⟨0, _⟩ => ⟨S8x2048x768, .f32⟩
  | .hbm, ⟨1, _⟩ => ⟨S768x768, .f32⟩
  | .hbm, ⟨2, _⟩ => ⟨S768x768, .f32⟩
  | .hbm, ⟨3, _⟩ => ⟨S768x768, .f32⟩
  | .hbm, ⟨4, _⟩ => ⟨S8x2048x768, .f32⟩
  | .hbm, ⟨5, _⟩ => ⟨S8x2048x768, .f32⟩
  | .hbm, ⟨6, _⟩ => ⟨S8x2048x768, .f32⟩
  | .hbm, ⟨7, _⟩ => ⟨S8x2048x2048, .f32⟩
  | .hbm, ⟨8, _⟩ => ⟨S_, .f32⟩
  | .hbm, ⟨9, _⟩ => ⟨S8x2048x2048, .f32⟩
  | .hbm, ⟨10, _⟩ => ⟨S8x2048x2048, .f32⟩
  | .hbm, ⟨11, _⟩ => ⟨S_, .f32⟩
  | .hbm, ⟨12, _⟩ => ⟨S8x2048, .f32⟩
  | .hbm, ⟨13, _⟩ => ⟨S_, .f32⟩
  | .hbm, ⟨14, _⟩ => ⟨S8x2048, .f32⟩
  | .hbm, ⟨15, _⟩ => ⟨S8x2048, .f32⟩
  | .hbm, ⟨16, _⟩ => ⟨S8x2048x1, .f32⟩
  | .hbm, ⟨17, _⟩ => ⟨S8x2048x2048, .f32⟩
  | .hbm, ⟨18, _⟩ => ⟨S8x2048x2048, .f32⟩
  | .hbm, ⟨19, _⟩ => ⟨S8x2048x2048, .f32⟩
  | .hbm, ⟨20, _⟩ => ⟨S_, .f32⟩
  | .hbm, ⟨21, _⟩ => ⟨S8x2048, .f32⟩
  | .hbm, ⟨22, _⟩ => ⟨S8x2048x1, .f32⟩
  | .hbm, ⟨23, _⟩ => ⟨S8x2048x2048, .f32⟩
  | .hbm, ⟨24, _⟩ => ⟨S8x2048x2048, .f32⟩
  | .hbm, ⟨25, _⟩ => ⟨S8x2048x768, .f32⟩
  | _, _ => ⟨S8x2048x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩

abbrev nD : Nat := 1
abbrev τ : Topo := Topo.v7x

variable {F : FTy → Type} [FloatOps F]

class Facts₀ : Prop where
  bcast_S_S8x2048x2048 : S_.BroadcastsInDim S8x2048x2048 (![] : Fin 0 → Fin S8x2048x2048.rank)
  reducesTo_S8x2048x2048_S8x2048_d2 : S8x2048x2048.ReducesTo [2] S8x2048
  h_S_ : 0 < S_.numel
  bcast_S_S8x2048 : S_.BroadcastsInDim S8x2048 (![] : Fin 0 → Fin S8x2048.rank)
  bcast_S8x2048_S8x2048x1_0_1 : S8x2048.BroadcastsInDim S8x2048x1 (![0, 1] : Fin 2 → Fin S8x2048x1.rank)
  bcast_S8x2048x1_S8x2048x2048_0_1_2 : S8x2048x1.BroadcastsInDim S8x2048x2048 (![0, 1, 2] : Fin 3 → Fin S8x2048x2048.rank)
  dot_S8x2048x768_S768x768_S8x2048x768_2_1_01_0_n_n_wf : DotDims.WF S8x2048x768 S768x768 S8x2048x768 [2] [1] [0, 1] [0] [] []
  dot_S8x2048x768_S8x2048x768_S8x2048x2048_2_2_1_1_0_0_wf : DotDims.WF S8x2048x768 S8x2048x768 S8x2048x2048 [2] [2] [1] [1] [0] [0]
  dot_S8x2048x2048_S8x2048x768_S8x2048x768_2_1_1_2_0_0_wf : DotDims.WF S8x2048x2048 S8x2048x768 S8x2048x768 [2] [1] [1] [2] [0] [0]

variable [Facts₀]

def dot_S8x2048x768_S768x768_S8x2048x768_2_1_01_0_n_n : DotDims S8x2048x768 S768x768 S8x2048x768 where
  lhsContracting := [2]
  rhsContracting := [1]
  lhsNonContracting := [0, 1]
  rhsNonContracting := [0]
  lhsBatch := []
  rhsBatch := []
  wf := dot_S8x2048x768_S768x768_S8x2048x768_2_1_01_0_n_n_wf
def dot_S8x2048x768_S8x2048x768_S8x2048x2048_2_2_1_1_0_0 : DotDims S8x2048x768 S8x2048x768 S8x2048x2048 where
  lhsContracting := [2]
  rhsContracting := [2]
  lhsNonContracting := [1]
  rhsNonContracting := [1]
  lhsBatch := [0]
  rhsBatch := [0]
  wf := dot_S8x2048x768_S8x2048x768_S8x2048x2048_2_2_1_1_0_0_wf
def dot_S8x2048x2048_S8x2048x768_S8x2048x768_2_1_1_2_0_0 : DotDims S8x2048x2048 S8x2048x768 S8x2048x768 where
  lhsContracting := [2]
  rhsContracting := [1]
  lhsNonContracting := [1]
  rhsNonContracting := [2]
  lhsBatch := [0]
  rhsBatch := [0]
  wf := dot_S8x2048x2048_S8x2048x768_S8x2048x768_2_1_1_2_0_0_wf

class Facts : Prop extends Facts₀ where

variable [Facts]
-- ==== Proof.K.Region0.lean ====
/- REGION 0 of @main: custom_call 0, `cc0__qkv_kernel` (pipeline 0), stated at a PARAMETER `V` —
   the TensorCore's buffer contents when the region is entered. Each window's block at a point, what the body
   leaves in the output window's buffer, the body's triple, the pipeline's proof data and the body obligation.
   Generic in the float interpretation `F`. -/
import proofs.«178805_j14894946583181_2_alg».proof.Proof.Gen.Kernel.Launch
import proofs.«178805_j14894946583181_2_alg».proof.Proof.Gen.Kernel.Skeleton
import proofs.«178805_j14894946583181_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- the rectangles here have thousands of coordinates on their long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
-- the TensorCore's buffer contents when the region is entered: the parameter the region's half is stated at
variable (V : (c : Dev nD) → (b : Ref sig .tc) → Buf (Elt F) ((c : Thread nD τ).loc b))

/-! # REGION 0 of @main: custom_call 0, `cc0__qkv_kernel` (pipeline 0), at the entry contents `V` -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): unfetched, the index has
    not moved; the window is uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1 is the whole second operand, its block index constant over the grid: it is fetched at the first
    point only, and at every later point the buffer still holds that block, which is the block of that point too. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev r0_0 : Rect S1024x768 := Rect.unit (s := S1024x768) ![0, 0] S1024x768.size inb_S1024x768_S1024x768_0_0
abbrev r0_1 : Rect S768x2304 := Rect.unit (s := S768x2304) ![0, 0] S768x2304.size inb_S768x2304_S768x2304_0_0
abbrev r0_2 : Rect S1024x2304 := Rect.unit (s := S1024x2304) ![0, 0] S1024x2304.size inb_S1024x2304_S1024x2304_0_0

/-! ## What the body leaves in the output window's buffer -/

/-- Window 2's staging buffer after the body, from the input windows' blocks: its one store as a piece (the payload
    is the skeleton's). -/
def out0_2 (x0 : Vec F S1024x768 .f32) (x1 : Vec F S768x2304 .bf16) : Vec F S1024x2304 .bf16 :=
  View.canon [⟨r0_2, k0_pay1 (View.ld x0 r0_0) (View.ld x1 r0_1)⟩]

/-- The store is of the whole buffer, so it covers it. -/
theorem cover0_2 (p0 : Vec F S1024x2304 .bf16) (y : S1024x2304.Idx) :
    ∃ pc ∈ ([⟨r0_2, p0⟩] : List (View.Piece (Elt F) S1024x2304 .bf16)), y ∈ pc.1.set :=
  View.cover_of_tiled [⟨r0_2, p0⟩] S1024x2304.size (by rfl) y

/-! ## The body's triple -/

set_option maxHeartbeats 1000000 in
/-- The kernel body on whole staging memrefs, the inputs' at read contents `x0`, `x1` and the output's at anything,
    runs to the continuation holding the inputs' as they were and the output's at `out0_2` of the inputs': the printed
    function is its skeleton, run operation by operation (the load of the output buffer reads a value nothing uses). -/
theorem sound_kernel0 (c : Dev nD) (E : Set ℕ) (i : grid0.Coords) (arg1 : Memref sig .tc .vmem S1024x768 .f32) (harg1 : arg1.IsWhole) (arg2 : Memref sig .tc .vmem S768x2304 .bf16) (harg2 : arg2.IsWhole) (arg3 : Memref sig .tc .vmem S1024x2304 .bf16) (harg3 : arg3.IsWhole)
    (x0 : Vec F S1024x768 .f32) (x1 : Vec F S768x2304 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__qkv_kernel i arg1 harg1 arg2 harg2 arg3 harg3) K := by
  simp only [cc0__qkv_kernel_eq_skeleton]; unfold cc0__qkv_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of pipeline 0 on core `c`: the arrays as the region finds them (`V`); after the body at
    point `t` each input's buffer at its block and the output's at `out0_2` of the input blocks; the invariant the
    scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t` (the body obligation's precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks (`before0_0`, `before0_1`), so `sound_kernel0`
    applies; the invariant and the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.Kernel.Hand

end
-- ==== Proof.K.Region1Runs.lean ====
/- REGION 1 (the attention kernel, pipeline 1): what its two case runs share — the windows' blocks at the region's
   entry contents `V`, the two branch conditions of the body in closed form over the grid (the third grid coordinate
   is the point's parity), where the output window is idle, the staging and scratch memrefs, and the region invariant
   with the scratch operands as memrefs. -/
import proofs.«178805_j14894946583181_2_alg».proof.Proof.Gen.Kernel.Launch
import proofs.«178805_j14894946583181_2_alg».proof.Proof.Gen.Kernel.Skeleton
import proofs.«178805_j14894946583181_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- the rectangles here have thousands of coordinates on their long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions -/

/-- The condition of the body's first `scf.if` ("the kv coordinate is 0": reset the running maximum, the running sum
    and the accumulator), from the grid coordinates. -/
abbrev cond1_0 (i : grid1.Coords) : Prop := (Scalar.cmpi .ne (Scalar.extui (Scalar.cmpi .eq (BitVec.ofNat 32 (i 2).val) 0#32)) 0#32) = 1#1
/-- It holds at the even points: the kv coordinate is the last of a row-major grid of extent 2. -/
theorem hcond1_0 : ∀ t : Fin cfg1.N, cond1_0 (grid1.coords t) ↔ t.val % 2 = 0 :=
  (by decide +kernel : ∀ t : Fin grid1.N, cond1_0 (grid1.coords t) ↔ t.val % 2 = 0)

/-- The condition of the body's last `scf.if` ("the kv coordinate is 1": normalize and store the output). -/
abbrev cond1_1 (i : grid1.Coords) : Prop := k1_cond2 i = 1#1
/-- It holds at the odd points. -/
theorem hcond1_1 : ∀ t : Fin cfg1.N, cond1_1 (grid1.coords t) ↔ t.val % 2 = 1 :=
  (by decide +kernel : ∀ t : Fin grid1.N, cond1_1 (grid1.coords t) ↔ t.val % 2 = 1)

/-! ## Where the windows are idle -/

/-- The input windows are never idle. -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- At the even points the output window is idle: the body stores nothing into it, -/
theorem idleAt1_3_A : ∀ t : Fin cfg1.N, cond1_0 (grid1.coords t) → ¬cond1_1 (grid1.coords t) → cfg1.idle 3 (grid1.coords t) = true := by decide +kernel
/-- and the pipeline does not write its block back. -/
theorem noFlush1_3_A : ∀ t : Fin cfg1.N, cond1_0 (grid1.coords t) → ¬cond1_1 (grid1.coords t) → (cfg1.win 3).flush t = false := by decide +kernel
/-- At the odd points the output window is live: the body stores into it. -/
theorem liveAt1_3_B : ∀ t : Fin cfg1.N, ¬cond1_0 (grid1.coords t) → cond1_1 (grid1.coords t) → cfg1.idle 3 (grid1.coords t) = false := by decide +kernel

/-! ## The staging and scratch memrefs -/

/-- One staging buffer of the output window, through which its contents are stated (the choice does not matter). -/
abbrev VO1_3 : View sig .tc .vmem S1x1024x768 .f32 := (Memref.whole cc1_stg3_0 : Memref sig .tc .vmem S1x1024x768 .f32).view
/-- Each window's current staging memref at point `t`, spelled as the pipeline passes it, and its wholeness. -/
abbrev ms1_0 (t : Fin cfg1.N) : Memref sig .tc .vmem S1x1024x768 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x1024x768 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1024x768 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x1024x768 .f32 := win1_3.stage (cfg1.slots t 3)
abbrev hs1_3 (t : Fin cfg1.N) : (ms1_3 t).IsWhole := hstage1_3 ((cfg1.slots t 3).cast nbuf1_3)
/-- The scratch operands (running maximum, running sum, accumulator): whole scoped buffers of the kernel's own. -/
abbrev scM1_0 : Memref sig .tc .vmem S1024x1 .f32 := Memref.whole cc1_scratch0
abbrev scM1_1 : Memref sig .tc .vmem S1024x1 .f32 := Memref.whole cc1_scratch1
abbrev scM1_2 : Memref sig .tc .vmem S1024x768 .f32 := Memref.whole cc1_scratch2
/-- The same as views: what they hold is stated through them. -/
abbrev VS1_0 : View sig .tc .vmem S1024x1 .f32 := scM1_0.view
abbrev VS1_1 : View sig .tc .vmem S1024x1 .f32 := scM1_1.view
abbrev VS1_2 : View sig .tc .vmem S1024x768 .f32 := scM1_2.view

/-- A scoped buffer whole at some contents. -/
abbrev anyAt (c : Dev nD) (b : Ref sig .tc) : sProp 𝕄 :=
  iprop(∃ f : Buf (Elt F) ((c : Thread nD τ).loc b), ((c : Thread nD τ).loc b) ↦{fullShare} f)

/-- The region invariant of the class with the scratch operands as memrefs owned at some contents: the other
    pipeline's staging buffers at anything, the three scratch operands at anything, the generator register at some state. -/
theorem PhiA1_eq (c : Dev nD) :
    (Pipeline.ΦA spec1 c : sProp 𝕄)
      = iprop(iprop(anyAt (F := F) c cc0_stg0_0 ∗ anyAt (F := F) c cc0_stg0_1 ∗ anyAt (F := F) c cc0_stg1_0 ∗ anyAt (F := F) c cc0_stg2_0 ∗ anyAt (F := F) c cc0_stg2_1
          ∗ (∃ d, owns (c : Thread nD τ) scM1_0 fullShare d) ∗ (∃ d, owns (c : Thread nD τ) scM1_1 fullShare d) ∗ (∃ d, owns (c : Thread nD τ) scM1_2 fullShare d)) ∗ (∃ r, prngReg c r)) := by
  unfold Pipeline.ΦA; rw [scopedRest1_eq]; simp only [scM1_0, scM1_1, scM1_2, owns_whole]; try rfl

section Blocks
-- the TensorCore's buffer contents when the region is entered: the parameter the region's half is stated at
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof
    data whose array is `V`'s (`hA`) and whose body leaves the block in place (`hafter`): unfetched, the block
    index has not moved; the window is uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for any proof
    data whose array is `V`'s (`hA`) and whose body leaves the block in place (`hafter`): unfetched, the block
    index has not moved; the window is uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for any proof
    data whose array is `V`'s (`hA`) and whose body leaves the block in place (`hafter`): unfetched, the block
    index has not moved; the window is uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

end Blocks

end Cert.Kernel.Hand

end
-- ==== Proof.K.Region1RunA.lean ====
/- REGION 1, the body's run at an EVEN point (the kv coordinate 0): the three scratch operands are reset, then updated
   from the point's blocks; the output window is not stored into. The pieces each scratch buffer ends with are found by the run. -/
import proofs.«178805_j14894946583181_2_alg».proof.Proof.K.Region1Runs

-- the rectangles here have thousands of coordinates on their long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run passes through every operation of the body)
set_option maxHeartbeats 4000000 in
/-- What the body's stores leave in the output's staging memref and in the three scratch operands, as pieces (last
    first), at a point where the first conditional is taken and the last is not, WITH the proof that on whole memrefs —
    the three inputs' at their contents, the output's at contents `xi3` handed back untouched, the scratch operands at
    anything — the body runs to the continuation holding the inputs' and the output's as they were and each scratch
    operand with its pieces written. -/
noncomputable def kernelRun1_A (c : Dev nD) (i : grid1.Coords) (arg3 : Memref sig .tc .vmem S1x1024x768 .bf16) (harg3 : arg3.IsWhole) (arg4 : Memref sig .tc .vmem S1x1024x768 .bf16) (harg4 : arg4.IsWhole) (arg5 : Memref sig .tc .vmem S1x1024x768 .bf16) (harg5 : arg5.IsWhole) (arg6 : Memref sig .tc .vmem S1x1024x768 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x768 .f32) (harg9 : arg9.IsWhole) (hc0 : cond1_0 i) (hc1 : ¬cond1_1 i)
    (x0 : Vec F S1x1024x768 .bf16) (x1 : Vec F S1x1024x768 .bf16) (x2 : Vec F S1x1024x768 .bf16) :
    Σ' (L3 : List (View.Piece (Elt F) S1x1024x768 .f32)) (LS0 : List (View.Piece (Elt F) S1024x1 .f32)) (LS1 : List (View.Piece (Elt F) S1024x1 .f32)), { LS2 : List (View.Piece (Elt F) S1024x768 .f32) //
      ∀ (xi3 : Vec F S1x1024x768 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3
            ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3
                ∗ (∃ f, arg7.view.loc (c : Thread nD τ) ↦[arg7.view.set]{fullShare} arg7.view.writes (Elt F) f LS0)
                ∗ (∃ f, arg8.view.loc (c : Thread nD τ) ↦[arg8.view.set]{fullShare} arg8.view.writes (Elt F) f LS1)
                ∗ (∃ f, arg9.view.loc (c : Thread nD τ) ↦[arg9.view.set]{fullShare} arg9.view.writes (Elt F) f LS2)) -∗ K ⟨⟩))
          ⊢ wp frame (wpE (defs₀ (F := F)) Variants.none c none) E (cc1__attn_kernel i arg3 harg3 arg4 harg4 arg5 harg5 arg6 harg6 arg7 harg7 arg8 harg8 arg9 harg9) K } := by
  refine ⟨[], ?_, ?_, ?_, fun xi3 E K => ?run⟩
  case run =>
    haveI : Fact (cond1_0 i) := ⟨hc0⟩
    haveI : Fact (¬cond1_1 i) := ⟨hc1⟩
    simp only [cc1__attn_kernel_eq_skeleton]; unfold cc1__attn_kernel_skel
    simp only [k1_part1_eq_skeleton]
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, ⟨%ds2, %fs2, -, HS2⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HS0]; · iexists _; iexact HS0
    isplitl [HS1]; · iexists _; iexact HS1
    iexists _; iexact HS2

end Cert.Kernel.Hand

end
-- ==== Proof.K.Region1RunB.lean ====
/- REGION 1, the body's run at an ODD point (the kv coordinate 1): no reset; the three scratch operands, holding what
   the point before left, are updated from the point's blocks, and the normalized accumulator is stored into the output
   window. The pieces each buffer ends with are found by the run. -/
import proofs.«178805_j14894946583181_2_alg».proof.Proof.K.Region1RunA

-- the rectangles here have thousands of coordinates on their long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run passes through every operation of the body)
set_option maxHeartbeats 4000000 in
/-- What the body's stores leave in the output's staging memref and in the three scratch operands, as pieces (last
    first), at a point where the first conditional is not taken and the last is, WITH the proof that on whole memrefs —
    the three inputs' at their contents, the output's at anything, the scratch operands at the contents `xs·` the point
    before left — the body runs to the continuation holding the inputs' as they were and the output's buffer and each
    scratch operand with its pieces written. -/
noncomputable def kernelRun1_B (c : Dev nD) (i : grid1.Coords) (arg3 : Memref sig .tc .vmem S1x1024x768 .bf16) (harg3 : arg3.IsWhole) (arg4 : Memref sig .tc .vmem S1x1024x768 .bf16) (harg4 : arg4.IsWhole) (arg5 : Memref sig .tc .vmem S1x1024x768 .bf16) (harg5 : arg5.IsWhole) (arg6 : Memref sig .tc .vmem S1x1024x768 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x768 .f32) (harg9 : arg9.IsWhole) (hc0 : ¬cond1_0 i) (hc1 : cond1_1 i)
    (x0 : Vec F S1x1024x768 .bf16) (x1 : Vec F S1x1024x768 .bf16) (x2 : Vec F S1x1024x768 .bf16)
    (xs0 : Vec F S1024x1 .f32) (xs1 : Vec F S1024x1 .f32) (xs2 : Vec F S1024x768 .f32) :
    Σ' (L3 : List (View.Piece (Elt F) S1x1024x768 .f32)) (LS0 : List (View.Piece (Elt F) S1024x1 .f32)) (LS1 : List (View.Piece (Elt F) S1024x1 .f32)), { LS2 : List (View.Piece (Elt F) S1024x768 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d)
            ∗ owns (c : Thread nD τ) arg7 fullShare xs0 ∗ owns (c : Thread nD τ) arg8 fullShare xs1 ∗ owns (c : Thread nD τ) arg9 fullShare xs2
            ∗ (iprop(owns (c : Thread nD τ) arg3 fullShare x0 ∗ owns (c : Thread nD τ) arg4 fullShare x1 ∗ owns (c : Thread nD τ) arg5 fullShare x2
                ∗ (∃ f, arg6.view.loc (c : Thread nD τ) ↦[arg6.view.set]{fullShare} arg6.view.writes (Elt F) f L3)
                ∗ (∃ f, arg7.view.loc (c : Thread nD τ) ↦[arg7.view.set]{fullShare} arg7.view.writes (Elt F) f LS0)
                ∗ (∃ f, arg8.view.loc (c : Thread nD τ) ↦[arg8.view.set]{fullShare} arg8.view.writes (Elt F) f LS1)
                ∗ (∃ f, arg9.view.loc (c : Thread nD τ) ↦[arg9.view.set]{fullShare} arg9.view.writes (Elt F) f LS2)) -∗ K ⟨⟩))
          ⊢ wp frame (wpE (defs₀ (F := F)) Variants.none c none) E (cc1__attn_kernel i arg3 harg3 arg4 harg4 arg5 harg5 arg6 harg6 arg7 harg7 arg8 harg8 arg9 harg9) K } := by
  refine ⟨?_, ?_, ?_, ?_, fun E K => ?run⟩
  case run =>
    haveI : Fact (¬cond1_0 i) := ⟨hc0⟩
    haveI : Fact (cond1_1 i) := ⟨hc1⟩
    simp only [cc1__attn_kernel_eq_skeleton]; unfold cc1__attn_kernel_skel
    simp only [k1_part1_eq_skeleton]
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2
    obtain rfl := harg7.eq_unread hfs0; obtain rfl := harg8.eq_unread hfs1; obtain rfl := harg9.eq_unread hfs2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    isplitl [HS0]; · iexists _; iexact HS0
    isplitl [HS1]; · iexists _; iexact HS1
    iexists _; iexact HS2

end Cert.Kernel.Hand

end
-- ==== Proof.K.Region1.lean ====
/- REGION 1 of @main: the attention kernel (pipeline 1) at the region's entry contents `V`. The kernel branches on
   the kv grid coordinate (the point's parity): at an even point it resets the running maximum, the running sum and the
   accumulator (three scratch operands) and updates them from the point's blocks, leaving the output window idle; at an
   odd point it updates them over what the point before left and stores the normalized accumulator into the output
   window. Here: what each buffer holds after each point (`outsAt1`), the region invariant carrying the scratch operands
   (`PhiS1`), the proof data (`dat1`), the body obligation, and the invariant's two ends. -/
import proofs.«178805_j14894946583181_2_alg».proof.Proof.K.Region1RunB

-- the rectangles here have thousands of coordinates on their long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
-- the TensorCore's buffer contents when the region is entered
variable (V : (c : Dev nD) → (b : Ref sig .tc) → Buf (Elt F) ((c : Thread nD τ).loc b))

/-! ## What each case leaves in the output window and in the scratch operands -/

/-- At an even point the body stores nothing into the output window (idle there and not written back): no pieces — a
    placeholder that nothing consults. -/
def out1_A_3 (c : Dev nD) (i : grid1.Coords) (arg3 : Memref sig .tc .vmem S1x1024x768 .bf16) (harg3 : arg3.IsWhole) (arg4 : Memref sig .tc .vmem S1x1024x768 .bf16) (harg4 : arg4.IsWhole) (arg5 : Memref sig .tc .vmem S1x1024x768 .bf16) (harg5 : arg5.IsWhole) (arg6 : Memref sig .tc .vmem S1x1024x768 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x768 .f32) (harg9 : arg9.IsWhole) (hc0 : cond1_0 i) (hc1 : ¬cond1_1 i)
    (x0 : Vec F S1x1024x768 .bf16) (x1 : Vec F S1x1024x768 .bf16) (x2 : Vec F S1x1024x768 .bf16) : Vec F S1x1024x768 .f32 :=
  VO1_3.read (Elt F) (VO1_3.writes (Elt F) VO1_3.junk (kernelRun1_A c i arg3 harg3 arg4 harg4 arg5 harg5 arg6 harg6 arg7 harg7 arg8 harg8 arg9 harg9 hc0 hc1 x0 x1 x2).1)

/-- At an even point the body's pieces for the running maximum (scratch operand 0) cover it: whole stores. -/
theorem scover1_A_0 (c : Dev nD) (i : grid1.Coords) (arg3 : Memref sig .tc .vmem S1x1024x768 .bf16) (harg3 : arg3.IsWhole) (arg4 : Memref sig .tc .vmem S1x1024x768 .bf16) (harg4 : arg4.IsWhole) (arg5 : Memref sig .tc .vmem S1x1024x768 .bf16) (harg5 : arg5.IsWhole) (arg6 : Memref sig .tc .vmem S1x1024x768 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x768 .f32) (harg9 : arg9.IsWhole) (hc0 : cond1_0 i) (hc1 : ¬cond1_1 i)
    (x0 : Vec F S1x1024x768 .bf16) (x1 : Vec F S1x1024x768 .bf16) (x2 : Vec F S1x1024x768 .bf16) (y : S1024x1.Idx) :
    ∃ pc ∈ (kernelRun1_A c i arg3 harg3 arg4 harg4 arg5 harg5 arg6 harg6 arg7 harg7 arg8 harg8 arg9 harg9 hc0 hc1 x0 x1 x2).2.1, y ∈ pc.1.set :=
  View.cover_of_tiledL (kernelRun1_A c i arg3 harg3 arg4 harg4 arg5 harg5 arg6 harg6 arg7 harg7 arg8 harg8 arg9 harg9 hc0 hc1 x0 x1 x2).2.1 S1024x1.size (by sl_kernel_rfl) y

/-- What the body leaves in the running maximum at an even point: its pieces read back over junk. -/
def sout1_A_0 (c : Dev nD) (i : grid1.Coords) (arg3 : Memref sig .tc .vmem S1x1024x768 .bf16) (harg3 : arg3.IsWhole) (arg4 : Memref sig .tc .vmem S1x1024x768 .bf16) (harg4 : arg4.IsWhole) (arg5 : Memref sig .tc .vmem S1x1024x768 .bf16) (harg5 : arg5.IsWhole) (arg6 : Memref sig .tc .vmem S1x1024x768 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x768 .f32) (harg9 : arg9.IsWhole) (hc0 : cond1_0 i) (hc1 : ¬cond1_1 i)
    (x0 : Vec F S1x1024x768 .bf16) (x1 : Vec F S1x1024x768 .bf16) (x2 : Vec F S1x1024x768 .bf16) : Vec F S1024x1 .f32 :=
  VS1_0.read (Elt F) (VS1_0.writes (Elt F) VS1_0.junk (kernelRun1_A c i arg3 harg3 arg4 harg4 arg5 harg5 arg6 harg6 arg7 harg7 arg8 harg8 arg9 harg9 hc0 hc1 x0 x1 x2).2.1)

/-- At an even point the body's pieces for the running sum (scratch operand 1) cover it: whole stores. -/
theorem scover1_A_1 (c : Dev nD) (i : grid1.Coords) (arg3 : Memref sig .tc .vmem S1x1024x768 .bf16) (harg3 : arg3.IsWhole) (arg4 : Memref sig .tc .vmem S1x1024x768 .bf16) (harg4 : arg4.IsWhole) (arg5 : Memref sig .tc .vmem S1x1024x768 .bf16) (harg5 : arg5.IsWhole) (arg6 : Memref sig .tc .vmem S1x1024x768 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x768 .f32) (harg9 : arg9.IsWhole) (hc0 : cond1_0 i) (hc1 : ¬cond1_1 i)
    (x0 : Vec F S1x1024x768 .bf16) (x1 : Vec F S1x1024x768 .bf16) (x2 : Vec F S1x1024x768 .bf16) (y : S1024x1.Idx) :
    ∃ pc ∈ (kernelRun1_A c i arg3 harg3 arg4 harg4 arg5 harg5 arg6 harg6 arg7 harg7 arg8 harg8 arg9 harg9 hc0 hc1 x0 x1 x2).2.2.1, y ∈ pc.1.set :=
  View.cover_of_tiledL (kernelRun1_A c i arg3 harg3 arg4 harg4 arg5 harg5 arg6 harg6 arg7 harg7 arg8 harg8 arg9 harg9 hc0 hc1 x0 x1 x2).2.2.1 S1024x1.size (by sl_kernel_rfl) y

/-- What the body leaves in the running sum at an even point: its pieces read back over junk. -/
def sout1_A_1 (c : Dev nD) (i : grid1.Coords) (arg3 : Memref sig .tc .vmem S1x1024x768 .bf16) (harg3 : arg3.IsWhole) (arg4 : Memref sig .tc .vmem S1x1024x768 .bf16) (harg4 : arg4.IsWhole) (arg5 : Memref sig .tc .vmem S1x1024x768 .bf16) (harg5 : arg5.IsWhole) (arg6 : Memref sig .tc .vmem S1x1024x768 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x768 .f32) (harg9 : arg9.IsWhole) (hc0 : cond1_0 i) (hc1 : ¬cond1_1 i)
    (x0 : Vec F S1x1024x768 .bf16) (x1 : Vec F S1x1024x768 .bf16) (x2 : Vec F S1x1024x768 .bf16) : Vec F S1024x1 .f32 :=
  VS1_1.read (Elt F) (VS1_1.writes (Elt F) VS1_1.junk (kernelRun1_A c i arg3 harg3 arg4 harg4 arg5 harg5 arg6 harg6 arg7 harg7 arg8 harg8 arg9 harg9 hc0 hc1 x0 x1 x2).2.2.1)

/-- At an even point the body's pieces for the accumulator (scratch operand 2) cover it: whole stores. -/
theorem scover1_A_2 (c : Dev nD) (i : grid1.Coords) (arg3 : Memref sig .tc .vmem S1x1024x768 .bf16) (harg3 : arg3.IsWhole) (arg4 : Memref sig .tc .vmem S1x1024x768 .bf16) (harg4 : arg4.IsWhole) (arg5 : Memref sig .tc .vmem S1x1024x768 .bf16) (harg5 : arg5.IsWhole) (arg6 : Memref sig .tc .vmem S1x1024x768 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x768 .f32) (harg9 : arg9.IsWhole) (hc0 : cond1_0 i) (hc1 : ¬cond1_1 i)
    (x0 : Vec F S1x1024x768 .bf16) (x1 : Vec F S1x1024x768 .bf16) (x2 : Vec F S1x1024x768 .bf16) (y : S1024x768.Idx) :
    ∃ pc ∈ (kernelRun1_A c i arg3 harg3 arg4 harg4 arg5 harg5 arg6 harg6 arg7 harg7 arg8 harg8 arg9 harg9 hc0 hc1 x0 x1 x2).2.2.2.1, y ∈ pc.1.set :=
  View.cover_of_tiledL (kernelRun1_A c i arg3 harg3 arg4 harg4 arg5 harg5 arg6 harg6 arg7 harg7 arg8 harg8 arg9 harg9 hc0 hc1 x0 x1 x2).2.2.2.1 S1024x768.size (by sl_kernel_rfl) y

/-- What the body leaves in the accumulator at an even point: its pieces read back over junk. -/
def sout1_A_2 (c : Dev nD) (i : grid1.Coords) (arg3 : Memref sig .tc .vmem S1x1024x768 .bf16) (harg3 : arg3.IsWhole) (arg4 : Memref sig .tc .vmem S1x1024x768 .bf16) (harg4 : arg4.IsWhole) (arg5 : Memref sig .tc .vmem S1x1024x768 .bf16) (harg5 : arg5.IsWhole) (arg6 : Memref sig .tc .vmem S1x1024x768 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x768 .f32) (harg9 : arg9.IsWhole) (hc0 : cond1_0 i) (hc1 : ¬cond1_1 i)
    (x0 : Vec F S1x1024x768 .bf16) (x1 : Vec F S1x1024x768 .bf16) (x2 : Vec F S1x1024x768 .bf16) : Vec F S1024x768 .f32 :=
  VS1_2.read (Elt F) (VS1_2.writes (Elt F) VS1_2.junk (kernelRun1_A c i arg3 harg3 arg4 harg4 arg5 harg5 arg6 harg6 arg7 harg7 arg8 harg8 arg9 harg9 hc0 hc1 x0 x1 x2).2.2.2.1)

/-- At an odd point the body's pieces for the output window tile its block (one whole store), so they cover it. -/
theorem cover1_B_3 (c : Dev nD) (i : grid1.Coords) (arg3 : Memref sig .tc .vmem S1x1024x768 .bf16) (harg3 : arg3.IsWhole) (arg4 : Memref sig .tc .vmem S1x1024x768 .bf16) (harg4 : arg4.IsWhole) (arg5 : Memref sig .tc .vmem S1x1024x768 .bf16) (harg5 : arg5.IsWhole) (arg6 : Memref sig .tc .vmem S1x1024x768 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x768 .f32) (harg9 : arg9.IsWhole) (hc0 : ¬cond1_0 i) (hc1 : cond1_1 i)
    (x0 : Vec F S1x1024x768 .bf16) (x1 : Vec F S1x1024x768 .bf16) (x2 : Vec F S1x1024x768 .bf16) (xs0 : Vec F S1024x1 .f32) (xs1 : Vec F S1024x1 .f32) (xs2 : Vec F S1024x768 .f32) (y : S1x1024x768.Idx) :
    ∃ pc ∈ (kernelRun1_B c i arg3 harg3 arg4 harg4 arg5 harg5 arg6 harg6 arg7 harg7 arg8 harg8 arg9 harg9 hc0 hc1 x0 x1 x2 xs0 xs1 xs2).1, y ∈ pc.1.set :=
  View.cover_of_tiledL (kernelRun1_B c i arg3 harg3 arg4 harg4 arg5 harg5 arg6 harg6 arg7 harg7 arg8 harg8 arg9 harg9 hc0 hc1 x0 x1 x2 xs0 xs1 xs2).1 S1x1024x768.size (by sl_kernel_rfl) y

/-- What the body leaves in the output window's staging buffer at an odd point: its pieces read back over junk. -/
def out1_B_3 (c : Dev nD) (i : grid1.Coords) (arg3 : Memref sig .tc .vmem S1x1024x768 .bf16) (harg3 : arg3.IsWhole) (arg4 : Memref sig .tc .vmem S1x1024x768 .bf16) (harg4 : arg4.IsWhole) (arg5 : Memref sig .tc .vmem S1x1024x768 .bf16) (harg5 : arg5.IsWhole) (arg6 : Memref sig .tc .vmem S1x1024x768 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x768 .f32) (harg9 : arg9.IsWhole) (hc0 : ¬cond1_0 i) (hc1 : cond1_1 i)
    (x0 : Vec F S1x1024x768 .bf16) (x1 : Vec F S1x1024x768 .bf16) (x2 : Vec F S1x1024x768 .bf16) (xs0 : Vec F S1024x1 .f32) (xs1 : Vec F S1024x1 .f32) (xs2 : Vec F S1024x768 .f32) : Vec F S1x1024x768 .f32 :=
  VO1_3.read (Elt F) (VO1_3.writes (Elt F) VO1_3.junk (kernelRun1_B c i arg3 harg3 arg4 harg4 arg5 harg5 arg6 harg6 arg7 harg7 arg8 harg8 arg9 harg9 hc0 hc1 x0 x1 x2 xs0 xs1 xs2).1)

/-- At an odd point the body's pieces for the running maximum (scratch operand 0) cover it: whole stores. -/
theorem scover1_B_0 (c : Dev nD) (i : grid1.Coords) (arg3 : Memref sig .tc .vmem S1x1024x768 .bf16) (harg3 : arg3.IsWhole) (arg4 : Memref sig .tc .vmem S1x1024x768 .bf16) (harg4 : arg4.IsWhole) (arg5 : Memref sig .tc .vmem S1x1024x768 .bf16) (harg5 : arg5.IsWhole) (arg6 : Memref sig .tc .vmem S1x1024x768 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x768 .f32) (harg9 : arg9.IsWhole) (hc0 : ¬cond1_0 i) (hc1 : cond1_1 i)
    (x0 : Vec F S1x1024x768 .bf16) (x1 : Vec F S1x1024x768 .bf16) (x2 : Vec F S1x1024x768 .bf16) (xs0 : Vec F S1024x1 .f32) (xs1 : Vec F S1024x1 .f32) (xs2 : Vec F S1024x768 .f32) (y : S1024x1.Idx) :
    ∃ pc ∈ (kernelRun1_B c i arg3 harg3 arg4 harg4 arg5 harg5 arg6 harg6 arg7 harg7 arg8 harg8 arg9 harg9 hc0 hc1 x0 x1 x2 xs0 xs1 xs2).2.1, y ∈ pc.1.set :=
  View.cover_of_tiledL (kernelRun1_B c i arg3 harg3 arg4 harg4 arg5 harg5 arg6 harg6 arg7 harg7 arg8 harg8 arg9 harg9 hc0 hc1 x0 x1 x2 xs0 xs1 xs2).2.1 S1024x1.size (by sl_kernel_rfl) y

/-- What the body leaves in the running maximum at an odd point: its pieces read back over junk. -/
def sout1_B_0 (c : Dev nD) (i : grid1.Coords) (arg3 : Memref sig .tc .vmem S1x1024x768 .bf16) (harg3 : arg3.IsWhole) (arg4 : Memref sig .tc .vmem S1x1024x768 .bf16) (harg4 : arg4.IsWhole) (arg5 : Memref sig .tc .vmem S1x1024x768 .bf16) (harg5 : arg5.IsWhole) (arg6 : Memref sig .tc .vmem S1x1024x768 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x768 .f32) (harg9 : arg9.IsWhole) (hc0 : ¬cond1_0 i) (hc1 : cond1_1 i)
    (x0 : Vec F S1x1024x768 .bf16) (x1 : Vec F S1x1024x768 .bf16) (x2 : Vec F S1x1024x768 .bf16) (xs0 : Vec F S1024x1 .f32) (xs1 : Vec F S1024x1 .f32) (xs2 : Vec F S1024x768 .f32) : Vec F S1024x1 .f32 :=
  VS1_0.read (Elt F) (VS1_0.writes (Elt F) VS1_0.junk (kernelRun1_B c i arg3 harg3 arg4 harg4 arg5 harg5 arg6 harg6 arg7 harg7 arg8 harg8 arg9 harg9 hc0 hc1 x0 x1 x2 xs0 xs1 xs2).2.1)

/-- At an odd point the body's pieces for the running sum (scratch operand 1) cover it: whole stores. -/
theorem scover1_B_1 (c : Dev nD) (i : grid1.Coords) (arg3 : Memref sig .tc .vmem S1x1024x768 .bf16) (harg3 : arg3.IsWhole) (arg4 : Memref sig .tc .vmem S1x1024x768 .bf16) (harg4 : arg4.IsWhole) (arg5 : Memref sig .tc .vmem S1x1024x768 .bf16) (harg5 : arg5.IsWhole) (arg6 : Memref sig .tc .vmem S1x1024x768 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x768 .f32) (harg9 : arg9.IsWhole) (hc0 : ¬cond1_0 i) (hc1 : cond1_1 i)
    (x0 : Vec F S1x1024x768 .bf16) (x1 : Vec F S1x1024x768 .bf16) (x2 : Vec F S1x1024x768 .bf16) (xs0 : Vec F S1024x1 .f32) (xs1 : Vec F S1024x1 .f32) (xs2 : Vec F S1024x768 .f32) (y : S1024x1.Idx) :
    ∃ pc ∈ (kernelRun1_B c i arg3 harg3 arg4 harg4 arg5 harg5 arg6 harg6 arg7 harg7 arg8 harg8 arg9 harg9 hc0 hc1 x0 x1 x2 xs0 xs1 xs2).2.2.1, y ∈ pc.1.set :=
  View.cover_of_tiledL (kernelRun1_B c i arg3 harg3 arg4 harg4 arg5 harg5 arg6 harg6 arg7 harg7 arg8 harg8 arg9 harg9 hc0 hc1 x0 x1 x2 xs0 xs1 xs2).2.2.1 S1024x1.size (by sl_kernel_rfl) y

/-- What the body leaves in the running sum at an odd point: its pieces read back over junk. -/
def sout1_B_1 (c : Dev nD) (i : grid1.Coords) (arg3 : Memref sig .tc .vmem S1x1024x768 .bf16) (harg3 : arg3.IsWhole) (arg4 : Memref sig .tc .vmem S1x1024x768 .bf16) (harg4 : arg4.IsWhole) (arg5 : Memref sig .tc .vmem S1x1024x768 .bf16) (harg5 : arg5.IsWhole) (arg6 : Memref sig .tc .vmem S1x1024x768 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x768 .f32) (harg9 : arg9.IsWhole) (hc0 : ¬cond1_0 i) (hc1 : cond1_1 i)
    (x0 : Vec F S1x1024x768 .bf16) (x1 : Vec F S1x1024x768 .bf16) (x2 : Vec F S1x1024x768 .bf16) (xs0 : Vec F S1024x1 .f32) (xs1 : Vec F S1024x1 .f32) (xs2 : Vec F S1024x768 .f32) : Vec F S1024x1 .f32 :=
  VS1_1.read (Elt F) (VS1_1.writes (Elt F) VS1_1.junk (kernelRun1_B c i arg3 harg3 arg4 harg4 arg5 harg5 arg6 harg6 arg7 harg7 arg8 harg8 arg9 harg9 hc0 hc1 x0 x1 x2 xs0 xs1 xs2).2.2.1)

/-- At an odd point the body's pieces for the accumulator (scratch operand 2) cover it: whole stores. -/
theorem scover1_B_2 (c : Dev nD) (i : grid1.Coords) (arg3 : Memref sig .tc .vmem S1x1024x768 .bf16) (harg3 : arg3.IsWhole) (arg4 : Memref sig .tc .vmem S1x1024x768 .bf16) (harg4 : arg4.IsWhole) (arg5 : Memref sig .tc .vmem S1x1024x768 .bf16) (harg5 : arg5.IsWhole) (arg6 : Memref sig .tc .vmem S1x1024x768 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x768 .f32) (harg9 : arg9.IsWhole) (hc0 : ¬cond1_0 i) (hc1 : cond1_1 i)
    (x0 : Vec F S1x1024x768 .bf16) (x1 : Vec F S1x1024x768 .bf16) (x2 : Vec F S1x1024x768 .bf16) (xs0 : Vec F S1024x1 .f32) (xs1 : Vec F S1024x1 .f32) (xs2 : Vec F S1024x768 .f32) (y : S1024x768.Idx) :
    ∃ pc ∈ (kernelRun1_B c i arg3 harg3 arg4 harg4 arg5 harg5 arg6 harg6 arg7 harg7 arg8 harg8 arg9 harg9 hc0 hc1 x0 x1 x2 xs0 xs1 xs2).2.2.2.1, y ∈ pc.1.set :=
  View.cover_of_tiledL (kernelRun1_B c i arg3 harg3 arg4 harg4 arg5 harg5 arg6 harg6 arg7 harg7 arg8 harg8 arg9 harg9 hc0 hc1 x0 x1 x2 xs0 xs1 xs2).2.2.2.1 S1024x768.size (by sl_kernel_rfl) y

/-- What the body leaves in the accumulator at an odd point: its pieces read back over junk. -/
def sout1_B_2 (c : Dev nD) (i : grid1.Coords) (arg3 : Memref sig .tc .vmem S1x1024x768 .bf16) (harg3 : arg3.IsWhole) (arg4 : Memref sig .tc .vmem S1x1024x768 .bf16) (harg4 : arg4.IsWhole) (arg5 : Memref sig .tc .vmem S1x1024x768 .bf16) (harg5 : arg5.IsWhole) (arg6 : Memref sig .tc .vmem S1x1024x768 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x768 .f32) (harg9 : arg9.IsWhole) (hc0 : ¬cond1_0 i) (hc1 : cond1_1 i)
    (x0 : Vec F S1x1024x768 .bf16) (x1 : Vec F S1x1024x768 .bf16) (x2 : Vec F S1x1024x768 .bf16) (xs0 : Vec F S1024x1 .f32) (xs1 : Vec F S1024x1 .f32) (xs2 : Vec F S1024x768 .f32) : Vec F S1024x768 .f32 :=
  VS1_2.read (Elt F) (VS1_2.writes (Elt F) VS1_2.junk (kernelRun1_B c i arg3 harg3 arg4 harg4 arg5 harg5 arg6 harg6 arg7 harg7 arg8 harg8 arg9 harg9 hc0 hc1 x0 x1 x2 xs0 xs1 xs2).2.2.2.1)

/-! ## What the buffers hold after each point -/

/-- The four buffers after the body at an even point `t`: the output window's staging buffer (a placeholder: idle),
    the running maximum, the running sum, the accumulator — the reset-and-update case run at the point's memrefs and
    input blocks. -/
def outsA (c : Dev nD) (t : Fin cfg1.N) (h0 : t.val % 2 = 0) :
    Vec F S1x1024x768 .f32 × Vec F S1024x1 .f32 × Vec F S1024x1 .f32 × Vec F S1024x768 .f32 :=
  (out1_A_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => absurd ((hcond1_1 t).mp h) (by omega)) (iblk1 V c 0 t) (iblk1 V c 1 t) (iblk1 V c 2 t),
   sout1_A_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => absurd ((hcond1_1 t).mp h) (by omega)) (iblk1 V c 0 t) (iblk1 V c 1 t) (iblk1 V c 2 t),
   sout1_A_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => absurd ((hcond1_1 t).mp h) (by omega)) (iblk1 V c 0 t) (iblk1 V c 1 t) (iblk1 V c 2 t),
   sout1_A_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => absurd ((hcond1_1 t).mp h) (by omega)) (iblk1 V c 0 t) (iblk1 V c 1 t) (iblk1 V c 2 t))

/-- The four buffers after the body at an odd point `t`, the scratch operands holding `xs·` before it: the
    update-and-store case run at the point's memrefs and input blocks. -/
def outsB (c : Dev nD) (t : Fin cfg1.N) (h1 : t.val % 2 = 1) (xs0 : Vec F S1024x1 .f32) (xs1 : Vec F S1024x1 .f32) (xs2 : Vec F S1024x768 .f32) :
    Vec F S1x1024x768 .f32 × Vec F S1024x1 .f32 × Vec F S1024x1 .f32 × Vec F S1024x768 .f32 :=
  (out1_B_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => absurd ((hcond1_0 t).mp h) (by omega)) ((hcond1_1 t).mpr h1) (iblk1 V c 0 t) (iblk1 V c 1 t) (iblk1 V c 2 t) xs0 xs1 xs2,
   sout1_B_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => absurd ((hcond1_0 t).mp h) (by omega)) ((hcond1_1 t).mpr h1) (iblk1 V c 0 t) (iblk1 V c 1 t) (iblk1 V c 2 t) xs0 xs1 xs2,
   sout1_B_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => absurd ((hcond1_0 t).mp h) (by omega)) ((hcond1_1 t).mpr h1) (iblk1 V c 0 t) (iblk1 V c 1 t) (iblk1 V c 2 t) xs0 xs1 xs2,
   sout1_B_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => absurd ((hcond1_0 t).mp h) (by omega)) ((hcond1_1 t).mpr h1) (iblk1 V c 0 t) (iblk1 V c 1 t) (iblk1 V c 2 t) xs0 xs1 xs2)

/-- THE ACCUMULATION. What the output window's staging buffer and the three scratch operands hold after the body at
    position `n` (output, running maximum, running sum, accumulator): at an even position the reset-and-update case,
    at an odd position the update-and-store case over what position `n - 1` left in the scratch operands. -/
def outsAt1 (c : Dev nD) : (n : ℕ) → n < cfg1.N → Vec F S1x1024x768 .f32 × Vec F S1024x1 .f32 × Vec F S1024x1 .f32 × Vec F S1024x768 .f32
  | 0, hn => outsA V c ⟨0, hn⟩ (Nat.zero_mod _)
  | n + 1, hn =>
    if h0 : (n + 1) % 2 = 0 then outsA V c ⟨n + 1, hn⟩ h0
    else outsB V c ⟨n + 1, hn⟩ (by show (n + 1) % 2 = 1; omega) (outsAt1 c n (Nat.lt_of_succ_lt hn)).2.1 (outsAt1 c n (Nat.lt_of_succ_lt hn)).2.2.1 (outsAt1 c n (Nat.lt_of_succ_lt hn)).2.2.2

/-- `outsAt1` at an even point. -/
theorem outsAt1_A (c : Dev nD) (t : Fin cfg1.N) (h0 : t.val % 2 = 0) : outsAt1 V c t.val t.isLt = outsA V c t h0 := by
  obtain ⟨n, hn⟩ := t
  cases n with
  | zero => exact rfl
  | succ n => exact (dif_pos h0).trans rfl

/-- `outsAt1` at an odd point: over what the point before left. -/
theorem outsAt1_B (c : Dev nD) (t : Fin cfg1.N) (h1 : t.val % 2 = 1) :
    outsAt1 V c t.val t.isLt = outsB V c t h1 (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2 := by
  obtain ⟨n, hn⟩ := t
  cases n with
  | zero => exact absurd h1 (show ¬((0 : ℕ) % 2 = 1) by decide)
  | succ n => exact (dif_neg (by (try dsimp only at h1); omega)).trans rfl

/-! ## The region invariant -/

/-- The region invariant before position `n`: before the first point the class's (every scratch operand at anything);
    afterwards the other pipeline's staging buffers at anything, the three scratch operands at what the point before
    left in them (`outsAt1`'s scratch components), and the generator register at some state. -/
def PhiS1 (c : Dev nD) : (n : ℕ) → n ≤ cfg1.N → sProp 𝕄
  | 0, _ => Pipeline.ΦA spec1 c
  | n + 1, hn => iprop(iprop(anyAt (F := F) c cc0_stg0_0 ∗ anyAt (F := F) c cc0_stg0_1 ∗ anyAt (F := F) c cc0_stg1_0 ∗ anyAt (F := F) c cc0_stg2_0 ∗ anyAt (F := F) c cc0_stg2_1
      ∗ owns (c : Thread nD τ) scM1_0 fullShare (outsAt1 V c n hn).2.1 ∗ owns (c : Thread nD τ) scM1_1 fullShare (outsAt1 V c n hn).2.2.1 ∗ owns (c : Thread nD τ) scM1_2 fullShare (outsAt1 V c n hn).2.2.2) ∗ (∃ r, prngReg c r))

theorem PhiS1_zero (c : Dev nD) (n : ℕ) (h : n ≤ cfg1.N) (hz : n = 0) : PhiS1 V c n h = Pipeline.ΦA spec1 c := by
  subst hz; rfl

/-- After point `n` (before point `n + 1`): the scratch operands at that point's contents. -/
theorem PhiS1_succ (c : Dev nD) (n : ℕ) (hn : n < cfg1.N) :
    PhiS1 V c (n + 1) hn = iprop(iprop(anyAt (F := F) c cc0_stg0_0 ∗ anyAt (F := F) c cc0_stg0_1 ∗ anyAt (F := F) c cc0_stg1_0 ∗ anyAt (F := F) c cc0_stg2_0 ∗ anyAt (F := F) c cc0_stg2_1
      ∗ owns (c : Thread nD τ) scM1_0 fullShare (outsAt1 V c n hn).2.1 ∗ owns (c : Thread nD τ) scM1_1 fullShare (outsAt1 V c n hn).2.2.1 ∗ owns (c : Thread nD τ) scM1_2 fullShare (outsAt1 V c n hn).2.2.2) ∗ (∃ r, prngReg c r)) := rfl

/-- Before a point that is not the first: the scratch operands at what the point before left. -/
theorem PhiS1_pos (c : Dev nD) (n : ℕ) (h : n ≤ cfg1.N) (hz : n ≠ 0) :
    PhiS1 V c n h = iprop(iprop(anyAt (F := F) c cc0_stg0_0 ∗ anyAt (F := F) c cc0_stg0_1 ∗ anyAt (F := F) c cc0_stg1_0 ∗ anyAt (F := F) c cc0_stg2_0 ∗ anyAt (F := F) c cc0_stg2_1
      ∗ owns (c : Thread nD τ) scM1_0 fullShare (outsAt1 V c (n - 1) (by omega)).2.1 ∗ owns (c : Thread nD τ) scM1_1 fullShare (outsAt1 V c (n - 1) (by omega)).2.2.1 ∗ owns (c : Thread nD τ) scM1_2 fullShare (outsAt1 V c (n - 1) (by omega)).2.2.2) ∗ (∃ r, prngReg c r)) := by
  cases n with
  | zero => exact absurd rfl hz
  | succ n => rfl

/-! ## The pipeline's proof data -/

/-- The proof data of pipeline 1 on core `c`: the arrays as the region finds them (`V`); after the body at point `t`
    each input's buffer at its block and the output's at `outsAt1`'s first component; the invariant `PhiS1`; nothing
    owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

/-- The proof data's arrays are the region-entry contents. -/
theorem A_eq1 (c : Dev nD) (w : Fin cfg1.W) : (dat1 V c).A w = V c (Pipeline.arrRef spec1 w) := by
  dsimp only [dat1]

/-- The invariant at a point's start, restated at `t.val`. -/
theorem PhiS1_castSucc (c : Dev nD) (t : Fin cfg1.N) :
    (dat1 V c).Φ t.castSucc = PhiS1 V c t.val (Nat.le_of_lt t.isLt) := by
  dsimp only [dat1]; simp only [Fin.coe_castSucc]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point: the inputs' memrefs hold their blocks; the point's parity says which case it is in, and the
    case's run applies; the invariant hands the body the scratch operands at what the point before left (at anything
    at the first point) and takes them back at this point's contents; at an even point the output window's buffer is
    handed back untouched; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  have hN : t.val < 32 := lt_of_lt_of_eq t.isLt (show cfg1.N = 32 from N_1)
  rw [show (dat1 V c).leavesExact 0 t = owns (c : Thread nD τ) (ms1_0 t) fullShare ((dat1 V c).after 0 t) from by
        unfold Dat.leavesExact; rw [liveAt1_0 t], after1_0]
  rw [show (dat1 V c).leavesExact 1 t = owns (c : Thread nD τ) (ms1_1 t) fullShare ((dat1 V c).after 1 t) from by
        unfold Dat.leavesExact; rw [liveAt1_1 t], after1_1]
  rw [show (dat1 V c).leavesExact 2 t = owns (c : Thread nD τ) (ms1_2 t) fullShare ((dat1 V c).after 2 t) from by
        unfold Dat.leavesExact; rw [liveAt1_2 t], after1_2]
  by_cases h0 : t.val % 2 = 0
  · have hc0 : cond1_0 (grid1.coords t) := (hcond1_0 t).mpr h0
    have hc1 : ¬cond1_1 (grid1.coords t) := fun h => absurd ((hcond1_1 t).mp h) (by omega)
    rw [Dat.leavesExact_idle (dat1 V c) 3 t (idleAt1_3_A t hc0 hc1) (noFlush1_3_A t hc0 hc1)]
    rw [outsAt1_A V c t h0]
    unfold outsA sout1_A_0 sout1_A_1 sout1_A_2; (try dsimp only)
    by_cases hz : t.val = 0
    · rw [PhiS1_castSucc V c t, PhiS1_zero V c _ _ hz, PhiA1_eq]
      iintro ⟨⟨⟨Ha0, Ha1, Ha2, Ha3, Ha4, HS0, HS1, HS2⟩, Hg⟩, Ho, ⟨%d0, H0⟩, ⟨%d1, H1⟩, ⟨%d2, H2⟩, ⟨%d3, H3⟩⟩
      iapply ((kernelRun1_A c (grid1.coords t) _ _ _ _ _ _ _ _ _ _ _ _ _ _ hc0 hc1 (iblk1 V c 0 t) (iblk1 V c 1 t) (iblk1 V c 2 t)).2.2.2.2 _ Set.univ _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      iintro ⟨H0, H1, H2, H3, ⟨%es0, HS0⟩, ⟨%es1, HS1⟩, ⟨%es2, HS2⟩⟩
      isplitl [Ha0 Ha1 Ha2 Ha3 Ha4 HS0 HS1 HS2 Hg]
      · isplitl [Ha0 Ha1 Ha2 Ha3 Ha4 HS0 HS1 HS2]
        · isplitl [Ha0]; · iexact Ha0
          isplitl [Ha1]; · iexact Ha1
          isplitl [Ha2]; · iexact Ha2
          isplitl [Ha3]; · iexact Ha3
          isplitl [Ha4]; · iexact Ha4
          isplitl [HS0]
          · unfold owns; iexists _; isplitr
            swap; · iexact HS0
            ipureintro; exact View.read_writes_of_cover _ _ _ _ _ (scover1_A_0 c _ _ _ _ _ _ _ _ _ _ _ _ _ _ _ _ _ _ _ _)
          isplitl [HS1]
          · unfold owns; iexists _; isplitr
            swap; · iexact HS1
            ipureintro; exact View.read_writes_of_cover _ _ _ _ _ (scover1_A_1 c _ _ _ _ _ _ _ _ _ _ _ _ _ _ _ _ _ _ _ _)
          unfold owns; iexists _; isplitr
          swap; · iexact HS2
          ipureintro; exact View.read_writes_of_cover _ _ _ _ _ (scover1_A_2 c _ _ _ _ _ _ _ _ _ _ _ _ _ _ _ _ _ _ _ _)
        iexact Hg
      isplitl [Ho]; · iexact Ho
      isplitl [H0]; · iexact H0
      isplitl [H1]; · iexact H1
      isplitl [H2]; · iexact H2
      iexists _; iexact H3
    · rw [PhiS1_castSucc V c t, PhiS1_pos V c _ _ hz]
      iintro ⟨⟨⟨Ha0, Ha1, Ha2, Ha3, Ha4, HS0, HS1, HS2⟩, Hg⟩, Ho, ⟨%d0, H0⟩, ⟨%d1, H1⟩, ⟨%d2, H2⟩, ⟨%d3, H3⟩⟩
      iapply ((kernelRun1_A c (grid1.coords t) _ _ _ _ _ _ _ _ _ _ _ _ _ _ hc0 hc1 (iblk1 V c 0 t) (iblk1 V c 1 t) (iblk1 V c 2 t)).2.2.2.2 _ Set.univ _)
      isplitl [H0]; · iexact H0
      isplitl [H1]; · iexact H1
      isplitl [H2]; · iexact H2
      isplitl [H3]; · iexact H3
      isplitl [HS0]; · iexists _; iexact HS0
      isplitl [HS1]; · iexists _; iexact HS1
      isplitl [HS2]; · iexists _; iexact HS2
      iintro ⟨H0, H1, H2, H3, ⟨%es0, HS0⟩, ⟨%es1, HS1⟩, ⟨%es2, HS2⟩⟩
      isplitl [Ha0 Ha1 Ha2 Ha3 Ha4 HS0 HS1 HS2 Hg]
      · isplitl [Ha0 Ha1 Ha2 Ha3 Ha4 HS0 HS1 HS2]
        · isplitl [Ha0]; · iexact Ha0
          isplitl [Ha1]; · iexact Ha1
          isplitl [Ha2]; · iexact Ha2
          isplitl [Ha3]; · iexact Ha3
          isplitl [Ha4]; · iexact Ha4
          isplitl [HS0]
          · unfold owns; iexists _; isplitr
            swap; · iexact HS0
            ipureintro; exact View.read_writes_of_cover _ _ _ _ _ (scover1_A_0 c _ _ _ _ _ _ _ _ _ _ _ _ _ _ _ _ _ _ _ _)
          isplitl [HS1]
          · unfold owns; iexists _; isplitr
            swap; · iexact HS1
            ipureintro; exact View.read_writes_of_cover _ _ _ _ _ (scover1_A_1 c _ _ _ _ _ _ _ _ _ _ _ _ _ _ _ _ _ _ _ _)
          unfold owns; iexists _; isplitr
          swap; · iexact HS2
          ipureintro; exact View.read_writes_of_cover _ _ _ _ _ (scover1_A_2 c _ _ _ _ _ _ _ _ _ _ _ _ _ _ _ _ _ _ _ _)
        iexact Hg
      isplitl [Ho]; · iexact Ho
      isplitl [H0]; · iexact H0
      isplitl [H1]; · iexact H1
      isplitl [H2]; · iexact H2
      iexists _; iexact H3
  · have h1 : t.val % 2 = 1 := by omega
    have hc0 : ¬cond1_0 (grid1.coords t) := fun h => h0 ((hcond1_0 t).mp h)
    have hc1 : cond1_1 (grid1.coords t) := (hcond1_1 t).mpr h1
    rw [show (dat1 V c).leavesExact 3 t = owns (c : Thread nD τ) (ms1_3 t) fullShare ((dat1 V c).after 3 t) from by
        unfold Dat.leavesExact; rw [liveAt1_3_B t hc0 hc1], after1_3]
    rw [outsAt1_B V c t h1]
    unfold outsB out1_B_3 sout1_B_0 sout1_B_1 sout1_B_2; (try dsimp only)
    have hz : t.val ≠ 0 := by omega
    rw [PhiS1_castSucc V c t, PhiS1_pos V c _ _ hz]
    iintro ⟨⟨⟨Ha0, Ha1, Ha2, Ha3, Ha4, HS0, HS1, HS2⟩, Hg⟩, Ho, ⟨%d0, H0⟩, ⟨%d1, H1⟩, ⟨%d2, H2⟩, ⟨%d3, H3⟩⟩
    iapply ((kernelRun1_B c (grid1.coords t) _ _ _ _ _ _ _ _ _ _ _ _ _ _ hc0 hc1 (iblk1 V c 0 t) (iblk1 V c 1 t) (iblk1 V c 2 t) _ _ _).2.2.2.2 Set.univ _)
    isplitl [H0]; · iexact H0
    isplitl [H1]; · iexact H1
    isplitl [H2]; · iexact H2
    isplitl [H3]; · iexists _; iexact H3
    isplitl [HS0]; · iexact HS0
    isplitl [HS1]; · iexact HS1
    isplitl [HS2]; · iexact HS2
    iintro ⟨H0, H1, H2, ⟨%e3, H3⟩, ⟨%es0, HS0⟩, ⟨%es1, HS1⟩, ⟨%es2, HS2⟩⟩
    isplitl [Ha0 Ha1 Ha2 Ha3 Ha4 HS0 HS1 HS2 Hg]
    · isplitl [Ha0 Ha1 Ha2 Ha3 Ha4 HS0 HS1 HS2]
      · isplitl [Ha0]; · iexact Ha0
        isplitl [Ha1]; · iexact Ha1
        isplitl [Ha2]; · iexact Ha2
        isplitl [Ha3]; · iexact Ha3
        isplitl [Ha4]; · iexact Ha4
        isplitl [HS0]
        · unfold owns; iexists _; isplitr
          swap; · iexact HS0
          ipureintro; exact View.read_writes_of_cover _ _ _ _ _ (scover1_B_0 c _ _ _ _ _ _ _ _ _ _ _ _ _ _ _ _ _ _ _ _ _ _ _)
        isplitl [HS1]
        · unfold owns; iexists _; isplitr
          swap; · iexact HS1
          ipureintro; exact View.read_writes_of_cover _ _ _ _ _ (scover1_B_1 c _ _ _ _ _ _ _ _ _ _ _ _ _ _ _ _ _ _ _ _ _ _ _)
        unfold owns; iexists _; isplitr
        swap; · iexact HS2
        ipureintro; exact View.read_writes_of_cover _ _ _ _ _ (scover1_B_2 c _ _ _ _ _ _ _ _ _ _ _ _ _ _ _ _ _ _ _ _ _ _ _)
      iexact Hg
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover1_B_3 c _ _ _ _ _ _ _ _ _ _ _ _ _ _ _ _ _ _ _ _ _ _ _)

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region (the class's invariant) is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the class's back: the scratch operands' named contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨Ha0, Ha1, Ha2, Ha3, Ha4, HS0, HS1, HS2⟩, Hg⟩
  isplitl [Ha0 Ha1 Ha2 Ha3 Ha4 HS0 HS1 HS2]
  · isplitl [Ha0]; · iexact Ha0
    isplitl [Ha1]; · iexact Ha1
    isplitl [Ha2]; · iexact Ha2
    isplitl [Ha3]; · iexact Ha3
    isplitl [Ha4]; · iexact Ha4
    isplitl [HS0]; · iexists _; iexact HS0
    isplitl [HS1]; · iexists _; iexact HS1
    iexists _; iexact HS2
  iexact Hg

/-- The same after the last point. -/
theorem hout1 (c : Dev nD) : (dat1 V c).Φ (Fin.last cfg1.N) ⊢ Pipeline.ΦA spec1 c :=
  Phi_out1 V c _ (by rw [Fin.val_last]; have : cfg1.N = 32 := N_1; omega)

end Region

end Cert.Kernel.Hand

end
-- ==== Proof.K.Run.lean ====
/-
  The whole-program run of the word-level kernel program, at any float instance: @main is a stretch of host
  operations, the projection region, a second stretch, the attention region. Each region's arrays are split out of the
  unscoped buffers at entry and put back at exit holding what the region's write-backs leave; every other buffer
  passes by. Read at the end: the result array holds what the attention region's write-backs leave, and the four
  argument arrays hold their launch contents (no host operation and no region writes one).
-/
import proofs.«178805_j14894946583181_2_alg».proof.Proof.K.Region0
import proofs.«178805_j14894946583181_2_alg».proof.Proof.K.Region1
import proofs.«178805_j14894946583181_2_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary between the four items -/

/-- A core's buffers at launch. -/
abbrev W0 : Dev nD → Valuation τ sig (Elt F) := fun c b => (s₀ m ρ).mem ((c : Dev nD), b)
/-- After the first stretch of host operations: what the projection region is entered from. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- After the projection region: its arrays at what its write-backs leave, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second stretch of host operations: what the attention region is entered from. -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- After the attention region: its arrays at what its write-backs leave, every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-! ### A buffer no item writes ends as launched -/

/-- A reference that neither stretch of host operations writes and that is no array of either region holds, at the
    end, its launch contents. -/
theorem W4_untouched (c : Dev nD) (r : Ref sig .tc) (h0 : r ∉ hostOps0_W) (h1 : r ∉ hostOps1_W)
    (hr0 : ∀ w, Pipeline.arrRef spec0 w ≠ r) (hr1 : ∀ w, Pipeline.arrRef spec1 w ≠ r) :
    W4 m ρ c (Proc.devRef .tc r) = m ((c : Thread nD τ).loc r) :=
  calc W4 m ρ c (Proc.devRef .tc r)
    _ = W3 m ρ c (Proc.devRef .tc r) := W4_of_ne m ρ c r hr1
    _ = W2 m ρ c (Proc.devRef .tc r) := StableHlo.after_of_writes_sub hostOps1 _ hostOps1_writes h1
    _ = W1 m ρ c (Proc.devRef .tc r) := W2_of_ne m ρ c r hr0
    _ = W0 m ρ c (Proc.devRef .tc r) := StableHlo.after_of_writes_sub hostOps0 _ hostOps0_writes h0
    _ = m ((c : Thread nD τ).loc r) := rfl

theorem W4_main_arg0 (c : Dev nD) : W4 m ρ c (Proc.devRef .tc main_arg0) = m ((c : Thread nD τ).loc main_arg0) :=
  W4_untouched m ρ c main_arg0 (by decide) (by decide) (by decide) (by decide)
theorem W4_main_arg1 (c : Dev nD) : W4 m ρ c (Proc.devRef .tc main_arg1) = m ((c : Thread nD τ).loc main_arg1) :=
  W4_untouched m ρ c main_arg1 (by decide) (by decide) (by decide) (by decide)
theorem W4_main_arg2 (c : Dev nD) : W4 m ρ c (Proc.devRef .tc main_arg2) = m ((c : Thread nD τ).loc main_arg2) :=
  W4_untouched m ρ c main_arg2 (by decide) (by decide) (by decide) (by decide)
theorem W4_main_arg3 (c : Dev nD) : W4 m ρ c (Proc.devRef .tc main_arg3) = m ((c : Thread nD τ).loc main_arg3) :=
  W4_untouched m ρ c main_arg3 (by decide) (by decide) (by decide) (by decide)

/-- The result array is the attention region's output window's array: at the end it holds what that region's
    write-backs leave. -/
theorem W4_main_v17 (c : Dev nD) : W4 m ρ c (Proc.devRef .tc main_v17) = (dat1 (V3 m ρ) c).arrAt 3 cfg1.N :=
  W4_arr m ρ c 3

/-! ## The proof data family and the thread state -/

abbrev adm : (p : Fin 2) → (pcfgs (F := F) p).Adm := fun p => (cfgs p).toPCfg_adm
/-- Each region's proof data at the contents the region is entered from. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
/-- The projection region: entered from every unscoped buffer at `W1`, left at `W2`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- What the launch hands the attention region — the generator register and the scoped buffers no window stages — is
    the class invariant, -/
theorem phiA1_of (c : Dev nD) :
    (iprop((∃ r, prngReg c r) ∗ Pipeline.prefHeld (pcfgs (F := F) 1).pre c (fun _ => fullShare) (adm (F := F) 1).1 ∗ Pipeline.scopedRest spec1 c) : sProp 𝕄)
      ⊢ Pipeline.ΦA spec1 c := by
  unfold Pipeline.ΦA
  iintro ⟨Hp, -, Hr⟩
  isplitl [Hr]; · iexact Hr
  iexact Hp
/-- and the class invariant gives them back. -/
theorem phiA1_to (c : Dev nD) :
    (Pipeline.ΦA spec1 c : sProp 𝕄) ⊢ iprop((∃ r, prngReg c r) ∗ BI.emp ∗ Pipeline.scopedRest spec1 c) := by
  unfold Pipeline.ΦA
  iintro ⟨Hr, Hp⟩
  isplitl [Hp]; · iexact Hp
  isplitr; · iempintro
  iexact Hr

set_option backward.isDefEq.respectTransparency.types false in
/-- The attention region: entered from every unscoped buffer at `W3`, left at `W4`. Its invariant names the three
    scratch buffers' contents between points; it is entered from, and gives back, the class invariant. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := (phiA1_of c).trans (hin1 (V3 m ρ) c)
  hout c := by
    rw [Pipeline.ownSems0_none]
    exact (hout1 (V3 m ρ) c).trans (phiA1_to c)
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
theorem main_run (c : Dev nD) : main (F := F) c = Pipeline.Seg.run (segs m ρ) := (main_chain c).trans (by chain_rfl)

set_option backward.isDefEq.respectTransparency.types false in
/-- THE RUN, at any float instance: from any memory with zero counters every weakly fair execution of @main
    terminates, nothing faulting; the result array ends at what the attention region's write-backs leave, and the
    four argument arrays end as launched. -/
theorem run_main : θ_run defs (onTc (τ := τ) (main (F := F))) ⟨m, fun _ => 0, ρ⟩ (fun r => ∀ c : Dev nD,
      r.2.mem ((c.tc : Thread nD τ).loc main_v17) = (dat1 (V3 m ρ) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨(h c _ (mem_uc main_v17 (by decide))).trans (W4_main_v17 m ρ c),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c)⟩)

/-- The frame: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => (h c).2) (run_main m ρ)

end Cert.Kernel.Hand

end
-- ==== Proof.I.Region0.lean ====
/- REGION 0 of @main: custom_call 0, `cc0__qkv_kernel` (pipeline 0), stated at a PARAMETER `V` —
   the TensorCore's buffer contents when the region is entered. Each window's block at a point, what the body
   leaves in the output window's buffer, the body's triple, the pipeline's proof data and the body obligation.
   Generic in the float interpretation `F`. -/
import proofs.«178805_j14894946583181_2_alg».proof.Proof.Gen.KernelIdeal.Launch
import proofs.«178805_j14894946583181_2_alg».proof.Proof.Gen.KernelIdeal.Skeleton
import proofs.«178805_j14894946583181_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- the rectangles here have thousands of coordinates on their long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
-- the TensorCore's buffer contents when the region is entered: the parameter the region's half is stated at
variable (V : (c : Dev nD) → (b : Ref sig .tc) → Buf (Elt F) ((c : Thread nD τ).loc b))

/-! # REGION 0 of @main: custom_call 0, `cc0__qkv_kernel` (pipeline 0), at the entry contents `V` -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): unfetched, the index has
    not moved; the window is uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1 is the whole second operand, its block index constant over the grid: it is fetched at the first
    point only, and at every later point the buffer still holds that block, which is the block of that point too. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev r0_0 : Rect S1024x768 := Rect.unit (s := S1024x768) ![0, 0] S1024x768.size inb_S1024x768_S1024x768_0_0
abbrev r0_1 : Rect S768x2304 := Rect.unit (s := S768x2304) ![0, 0] S768x2304.size inb_S768x2304_S768x2304_0_0
abbrev r0_2 : Rect S1024x2304 := Rect.unit (s := S1024x2304) ![0, 0] S1024x2304.size inb_S1024x2304_S1024x2304_0_0

/-! ## What the body leaves in the output window's buffer -/

/-- Window 2's staging buffer after the body, from the input windows' blocks: its one store as a piece (the payload
    is the skeleton's). -/
def out0_2 (x0 : Vec F S1024x768 .f32) (x1 : Vec F S768x2304 .bf16) : Vec F S1024x2304 .bf16 :=
  View.canon [⟨r0_2, k0_pay1 (View.ld x0 r0_0) (View.ld x1 r0_1)⟩]

/-- The store is of the whole buffer, so it covers it. -/
theorem cover0_2 (p0 : Vec F S1024x2304 .bf16) (y : S1024x2304.Idx) :
    ∃ pc ∈ ([⟨r0_2, p0⟩] : List (View.Piece (Elt F) S1024x2304 .bf16)), y ∈ pc.1.set :=
  View.cover_of_tiled [⟨r0_2, p0⟩] S1024x2304.size (by rfl) y

/-! ## The body's triple -/

set_option maxHeartbeats 1000000 in
/-- The kernel body on whole staging memrefs, the inputs' at read contents `x0`, `x1` and the output's at anything,
    runs to the continuation holding the inputs' as they were and the output's at `out0_2` of the inputs': the printed
    function is its skeleton, run operation by operation (the load of the output buffer reads a value nothing uses). -/
theorem sound_kernel0 (c : Dev nD) (E : Set ℕ) (i : grid0.Coords) (arg1 : Memref sig .tc .vmem S1024x768 .f32) (harg1 : arg1.IsWhole) (arg2 : Memref sig .tc .vmem S768x2304 .bf16) (harg2 : arg2.IsWhole) (arg3 : Memref sig .tc .vmem S1024x2304 .bf16) (harg3 : arg3.IsWhole)
    (x0 : Vec F S1024x768 .f32) (x1 : Vec F S768x2304 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__qkv_kernel i arg1 harg1 arg2 harg2 arg3 harg3) K := by
  simp only [cc0__qkv_kernel_eq_skeleton]; unfold cc0__qkv_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of pipeline 0 on core `c`: the arrays as the region finds them (`V`); after the body at
    point `t` each input's buffer at its block and the output's at `out0_2` of the input blocks; the invariant the
    scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t` (the body obligation's precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks (`before0_0`, `before0_1`), so `sound_kernel0`
    applies; the invariant and the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.KernelIdeal.Hand

end
-- ==== Proof.I.Region1Runs.lean ====
/- REGION 1 (the attention kernel, pipeline 1): what its two case runs share — the windows' blocks at the region's
   entry contents `V`, the two branch conditions of the body in closed form over the grid (the third grid coordinate
   is the point's parity), where the output window is idle, the staging and scratch memrefs, and the region invariant
   with the scratch operands as memrefs. -/
import proofs.«178805_j14894946583181_2_alg».proof.Proof.Gen.KernelIdeal.Launch
import proofs.«178805_j14894946583181_2_alg».proof.Proof.Gen.KernelIdeal.Skeleton
import proofs.«178805_j14894946583181_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- the rectangles here have thousands of coordinates on their long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions -/

/-- The condition of the body's first `scf.if` ("the kv coordinate is 0": reset the running maximum, the running sum
    and the accumulator), from the grid coordinates. -/
abbrev cond1_0 (i : grid1.Coords) : Prop := (Scalar.cmpi .ne (Scalar.extui (Scalar.cmpi .eq (BitVec.ofNat 32 (i 2).val) 0#32)) 0#32) = 1#1
/-- It holds at the even points: the kv coordinate is the last of a row-major grid of extent 2. -/
theorem hcond1_0 : ∀ t : Fin cfg1.N, cond1_0 (grid1.coords t) ↔ t.val % 2 = 0 :=
  (by decide +kernel : ∀ t : Fin grid1.N, cond1_0 (grid1.coords t) ↔ t.val % 2 = 0)

/-- The condition of the body's last `scf.if` ("the kv coordinate is 1": normalize and store the output). -/
abbrev cond1_1 (i : grid1.Coords) : Prop := k1_cond2 i = 1#1
/-- It holds at the odd points. -/
theorem hcond1_1 : ∀ t : Fin cfg1.N, cond1_1 (grid1.coords t) ↔ t.val % 2 = 1 :=
  (by decide +kernel : ∀ t : Fin grid1.N, cond1_1 (grid1.coords t) ↔ t.val % 2 = 1)

/-! ## Where the windows are idle -/

/-- The input windows are never idle. -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- At the even points the output window is idle: the body stores nothing into it, -/
theorem idleAt1_3_A : ∀ t : Fin cfg1.N, cond1_0 (grid1.coords t) → ¬cond1_1 (grid1.coords t) → cfg1.idle 3 (grid1.coords t) = true := by decide +kernel
/-- and the pipeline does not write its block back. -/
theorem noFlush1_3_A : ∀ t : Fin cfg1.N, cond1_0 (grid1.coords t) → ¬cond1_1 (grid1.coords t) → (cfg1.win 3).flush t = false := by decide +kernel
/-- At the odd points the output window is live: the body stores into it. -/
theorem liveAt1_3_B : ∀ t : Fin cfg1.N, ¬cond1_0 (grid1.coords t) → cond1_1 (grid1.coords t) → cfg1.idle 3 (grid1.coords t) = false := by decide +kernel

/-! ## The staging and scratch memrefs -/

/-- One staging buffer of the output window, through which its contents are stated (the choice does not matter). -/
abbrev VO1_3 : View sig .tc .vmem S1x1024x768 .f32 := (Memref.whole cc1_stg3_0 : Memref sig .tc .vmem S1x1024x768 .f32).view
/-- Each window's current staging memref at point `t`, spelled as the pipeline passes it, and its wholeness. -/
abbrev ms1_0 (t : Fin cfg1.N) : Memref sig .tc .vmem S1x1024x768 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x1024x768 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1024x768 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x1024x768 .f32 := win1_3.stage (cfg1.slots t 3)
abbrev hs1_3 (t : Fin cfg1.N) : (ms1_3 t).IsWhole := hstage1_3 ((cfg1.slots t 3).cast nbuf1_3)
/-- The scratch operands (running maximum, running sum, accumulator): whole scoped buffers of the kernel's own. -/
abbrev scM1_0 : Memref sig .tc .vmem S1024x1 .f32 := Memref.whole cc1_scratch0
abbrev scM1_1 : Memref sig .tc .vmem S1024x1 .f32 := Memref.whole cc1_scratch1
abbrev scM1_2 : Memref sig .tc .vmem S1024x768 .f32 := Memref.whole cc1_scratch2
/-- The same as views: what they hold is stated through them. -/
abbrev VS1_0 : View sig .tc .vmem S1024x1 .f32 := scM1_0.view
abbrev VS1_1 : View sig .tc .vmem S1024x1 .f32 := scM1_1.view
abbrev VS1_2 : View sig .tc .vmem S1024x768 .f32 := scM1_2.view

/-- A scoped buffer whole at some contents. -/
abbrev anyAt (c : Dev nD) (b : Ref sig .tc) : sProp 𝕄 :=
  iprop(∃ f : Buf (Elt F) ((c : Thread nD τ).loc b), ((c : Thread nD τ).loc b) ↦{fullShare} f)

/-- The region invariant of the class with the scratch operands as memrefs owned at some contents: the other
    pipeline's staging buffers at anything, the three scratch operands at anything, the generator register at some state. -/
theorem PhiA1_eq (c : Dev nD) :
    (Pipeline.ΦA spec1 c : sProp 𝕄)
      = iprop(iprop(anyAt (F := F) c cc0_stg0_0 ∗ anyAt (F := F) c cc0_stg0_1 ∗ anyAt (F := F) c cc0_stg1_0 ∗ anyAt (F := F) c cc0_stg2_0 ∗ anyAt (F := F) c cc0_stg2_1
          ∗ (∃ d, owns (c : Thread nD τ) scM1_0 fullShare d) ∗ (∃ d, owns (c : Thread nD τ) scM1_1 fullShare d) ∗ (∃ d, owns (c : Thread nD τ) scM1_2 fullShare d)) ∗ (∃ r, prngReg c r)) := by
  unfold Pipeline.ΦA; rw [scopedRest1_eq]; simp only [scM1_0, scM1_1, scM1_2, owns_whole]; try rfl

section Blocks
-- the TensorCore's buffer contents when the region is entered: the parameter the region's half is stated at
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof
    data whose array is `V`'s (`hA`) and whose body leaves the block in place (`hafter`): unfetched, the block
    index has not moved; the window is uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for any proof
    data whose array is `V`'s (`hA`) and whose body leaves the block in place (`hafter`): unfetched, the block
    index has not moved; the window is uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for any proof
    data whose array is `V`'s (`hA`) and whose body leaves the block in place (`hafter`): unfetched, the block
    index has not moved; the window is uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

end Blocks

end Cert.KernelIdeal.Hand

end
-- ==== Proof.I.Region1RunA.lean ====
/- REGION 1, the body's run at an EVEN point (the kv coordinate 0): the three scratch operands are reset, then updated
   from the point's blocks; the output window is not stored into. The pieces each scratch buffer ends with are found by the run. -/
import proofs.«178805_j14894946583181_2_alg».proof.Proof.I.Region1Runs

-- the rectangles here have thousands of coordinates on their long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run passes through every operation of the body)
set_option maxHeartbeats 4000000 in
/-- What the body's stores leave in the output's staging memref and in the three scratch operands, as pieces (last
    first), at a point where the first conditional is taken and the last is not, WITH the proof that on whole memrefs —
    the three inputs' at their contents, the output's at contents `xi3` handed back untouched, the scratch operands at
    anything — the body runs to the continuation holding the inputs' and the output's as they were and each scratch
    operand with its pieces written. -/
noncomputable def kernelRun1_A (c : Dev nD) (i : grid1.Coords) (arg3 : Memref sig .tc .vmem S1x1024x768 .bf16) (harg3 : arg3.IsWhole) (arg4 : Memref sig .tc .vmem S1x1024x768 .bf16) (harg4 : arg4.IsWhole) (arg5 : Memref sig .tc .vmem S1x1024x768 .bf16) (harg5 : arg5.IsWhole) (arg6 : Memref sig .tc .vmem S1x1024x768 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x768 .f32) (harg9 : arg9.IsWhole) (hc0 : cond1_0 i) (hc1 : ¬cond1_1 i)
    (x0 : Vec F S1x1024x768 .bf16) (x1 : Vec F S1x1024x768 .bf16) (x2 : Vec F S1x1024x768 .bf16) :
    Σ' (L3 : List (View.Piece (Elt F) S1x1024x768 .f32)) (LS0 : List (View.Piece (Elt F) S1024x1 .f32)) (LS1 : List (View.Piece (Elt F) S1024x1 .f32)), { LS2 : List (View.Piece (Elt F) S1024x768 .f32) //
      ∀ (xi3 : Vec F S1x1024x768 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3
            ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3
                ∗ (∃ f, arg7.view.loc (c : Thread nD τ) ↦[arg7.view.set]{fullShare} arg7.view.writes (Elt F) f LS0)
                ∗ (∃ f, arg8.view.loc (c : Thread nD τ) ↦[arg8.view.set]{fullShare} arg8.view.writes (Elt F) f LS1)
                ∗ (∃ f, arg9.view.loc (c : Thread nD τ) ↦[arg9.view.set]{fullShare} arg9.view.writes (Elt F) f LS2)) -∗ K ⟨⟩))
          ⊢ wp frame (wpE (defs₀ (F := F)) Variants.none c none) E (cc1__attn_kernel i arg3 harg3 arg4 harg4 arg5 harg5 arg6 harg6 arg7 harg7 arg8 harg8 arg9 harg9) K } := by
  refine ⟨[], ?_, ?_, ?_, fun xi3 E K => ?run⟩
  case run =>
    haveI : Fact (cond1_0 i) := ⟨hc0⟩
    haveI : Fact (¬cond1_1 i) := ⟨hc1⟩
    simp only [cc1__attn_kernel_eq_skeleton]; unfold cc1__attn_kernel_skel
    simp only [k1_part1_eq_skeleton]
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, ⟨%ds2, %fs2, -, HS2⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HS0]; · iexists _; iexact HS0
    isplitl [HS1]; · iexists _; iexact HS1
    iexists _; iexact HS2

end Cert.KernelIdeal.Hand

end
-- ==== Proof.I.Region1RunB.lean ====
/- REGION 1, the body's run at an ODD point (the kv coordinate 1): no reset; the three scratch operands, holding what
   the point before left, are updated from the point's blocks, and the normalized accumulator is stored into the output
   window. The pieces each buffer ends with are found by the run. -/
import proofs.«178805_j14894946583181_2_alg».proof.Proof.I.Region1RunA

-- the rectangles here have thousands of coordinates on their long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run passes through every operation of the body)
set_option maxHeartbeats 4000000 in
/-- What the body's stores leave in the output's staging memref and in the three scratch operands, as pieces (last
    first), at a point where the first conditional is not taken and the last is, WITH the proof that on whole memrefs —
    the three inputs' at their contents, the output's at anything, the scratch operands at the contents `xs·` the point
    before left — the body runs to the continuation holding the inputs' as they were and the output's buffer and each
    scratch operand with its pieces written. -/
noncomputable def kernelRun1_B (c : Dev nD) (i : grid1.Coords) (arg3 : Memref sig .tc .vmem S1x1024x768 .bf16) (harg3 : arg3.IsWhole) (arg4 : Memref sig .tc .vmem S1x1024x768 .bf16) (harg4 : arg4.IsWhole) (arg5 : Memref sig .tc .vmem S1x1024x768 .bf16) (harg5 : arg5.IsWhole) (arg6 : Memref sig .tc .vmem S1x1024x768 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x768 .f32) (harg9 : arg9.IsWhole) (hc0 : ¬cond1_0 i) (hc1 : cond1_1 i)
    (x0 : Vec F S1x1024x768 .bf16) (x1 : Vec F S1x1024x768 .bf16) (x2 : Vec F S1x1024x768 .bf16)
    (xs0 : Vec F S1024x1 .f32) (xs1 : Vec F S1024x1 .f32) (xs2 : Vec F S1024x768 .f32) :
    Σ' (L3 : List (View.Piece (Elt F) S1x1024x768 .f32)) (LS0 : List (View.Piece (Elt F) S1024x1 .f32)) (LS1 : List (View.Piece (Elt F) S1024x1 .f32)), { LS2 : List (View.Piece (Elt F) S1024x768 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d)
            ∗ owns (c : Thread nD τ) arg7 fullShare xs0 ∗ owns (c : Thread nD τ) arg8 fullShare xs1 ∗ owns (c : Thread nD τ) arg9 fullShare xs2
            ∗ (iprop(owns (c : Thread nD τ) arg3 fullShare x0 ∗ owns (c : Thread nD τ) arg4 fullShare x1 ∗ owns (c : Thread nD τ) arg5 fullShare x2
                ∗ (∃ f, arg6.view.loc (c : Thread nD τ) ↦[arg6.view.set]{fullShare} arg6.view.writes (Elt F) f L3)
                ∗ (∃ f, arg7.view.loc (c : Thread nD τ) ↦[arg7.view.set]{fullShare} arg7.view.writes (Elt F) f LS0)
                ∗ (∃ f, arg8.view.loc (c : Thread nD τ) ↦[arg8.view.set]{fullShare} arg8.view.writes (Elt F) f LS1)
                ∗ (∃ f, arg9.view.loc (c : Thread nD τ) ↦[arg9.view.set]{fullShare} arg9.view.writes (Elt F) f LS2)) -∗ K ⟨⟩))
          ⊢ wp frame (wpE (defs₀ (F := F)) Variants.none c none) E (cc1__attn_kernel i arg3 harg3 arg4 harg4 arg5 harg5 arg6 harg6 arg7 harg7 arg8 harg8 arg9 harg9) K } := by
  refine ⟨?_, ?_, ?_, ?_, fun E K => ?run⟩
  case run =>
    haveI : Fact (¬cond1_0 i) := ⟨hc0⟩
    haveI : Fact (cond1_1 i) := ⟨hc1⟩
    simp only [cc1__attn_kernel_eq_skeleton]; unfold cc1__attn_kernel_skel
    simp only [k1_part1_eq_skeleton]
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2
    obtain rfl := harg7.eq_unread hfs0; obtain rfl := harg8.eq_unread hfs1; obtain rfl := harg9.eq_unread hfs2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    isplitl [HS0]; · iexists _; iexact HS0
    isplitl [HS1]; · iexists _; iexact HS1
    iexists _; iexact HS2

end Cert.KernelIdeal.Hand

end
-- ==== Proof.I.Region1.lean ====
/- REGION 1 of @main: the attention kernel (pipeline 1) at the region's entry contents `V`. The kernel branches on
   the kv grid coordinate (the point's parity): at an even point it resets the running maximum, the running sum and the
   accumulator (three scratch operands) and updates them from the point's blocks, leaving the output window idle; at an
   odd point it updates them over what the point before left and stores the normalized accumulator into the output
   window. Here: what each buffer holds after each point (`outsAt1`), the region invariant carrying the scratch operands
   (`PhiS1`), the proof data (`dat1`), the body obligation, and the invariant's two ends. -/
import proofs.«178805_j14894946583181_2_alg».proof.Proof.I.Region1RunB

-- the rectangles here have thousands of coordinates on their long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
-- the TensorCore's buffer contents when the region is entered
variable (V : (c : Dev nD) → (b : Ref sig .tc) → Buf (Elt F) ((c : Thread nD τ).loc b))

/-! ## What each case leaves in the output window and in the scratch operands -/

/-- At an even point the body stores nothing into the output window (idle there and not written back): no pieces — a
    placeholder that nothing consults. -/
def out1_A_3 (c : Dev nD) (i : grid1.Coords) (arg3 : Memref sig .tc .vmem S1x1024x768 .bf16) (harg3 : arg3.IsWhole) (arg4 : Memref sig .tc .vmem S1x1024x768 .bf16) (harg4 : arg4.IsWhole) (arg5 : Memref sig .tc .vmem S1x1024x768 .bf16) (harg5 : arg5.IsWhole) (arg6 : Memref sig .tc .vmem S1x1024x768 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x768 .f32) (harg9 : arg9.IsWhole) (hc0 : cond1_0 i) (hc1 : ¬cond1_1 i)
    (x0 : Vec F S1x1024x768 .bf16) (x1 : Vec F S1x1024x768 .bf16) (x2 : Vec F S1x1024x768 .bf16) : Vec F S1x1024x768 .f32 :=
  VO1_3.read (Elt F) (VO1_3.writes (Elt F) VO1_3.junk (kernelRun1_A c i arg3 harg3 arg4 harg4 arg5 harg5 arg6 harg6 arg7 harg7 arg8 harg8 arg9 harg9 hc0 hc1 x0 x1 x2).1)

/-- At an even point the body's pieces for the running maximum (scratch operand 0) cover it: whole stores. -/
theorem scover1_A_0 (c : Dev nD) (i : grid1.Coords) (arg3 : Memref sig .tc .vmem S1x1024x768 .bf16) (harg3 : arg3.IsWhole) (arg4 : Memref sig .tc .vmem S1x1024x768 .bf16) (harg4 : arg4.IsWhole) (arg5 : Memref sig .tc .vmem S1x1024x768 .bf16) (harg5 : arg5.IsWhole) (arg6 : Memref sig .tc .vmem S1x1024x768 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x768 .f32) (harg9 : arg9.IsWhole) (hc0 : cond1_0 i) (hc1 : ¬cond1_1 i)
    (x0 : Vec F S1x1024x768 .bf16) (x1 : Vec F S1x1024x768 .bf16) (x2 : Vec F S1x1024x768 .bf16) (y : S1024x1.Idx) :
    ∃ pc ∈ (kernelRun1_A c i arg3 harg3 arg4 harg4 arg5 harg5 arg6 harg6 arg7 harg7 arg8 harg8 arg9 harg9 hc0 hc1 x0 x1 x2).2.1, y ∈ pc.1.set :=
  View.cover_of_tiledL (kernelRun1_A c i arg3 harg3 arg4 harg4 arg5 harg5 arg6 harg6 arg7 harg7 arg8 harg8 arg9 harg9 hc0 hc1 x0 x1 x2).2.1 S1024x1.size (by sl_kernel_rfl) y

/-- What the body leaves in the running maximum at an even point: its pieces read back over junk. -/
def sout1_A_0 (c : Dev nD) (i : grid1.Coords) (arg3 : Memref sig .tc .vmem S1x1024x768 .bf16) (harg3 : arg3.IsWhole) (arg4 : Memref sig .tc .vmem S1x1024x768 .bf16) (harg4 : arg4.IsWhole) (arg5 : Memref sig .tc .vmem S1x1024x768 .bf16) (harg5 : arg5.IsWhole) (arg6 : Memref sig .tc .vmem S1x1024x768 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x768 .f32) (harg9 : arg9.IsWhole) (hc0 : cond1_0 i) (hc1 : ¬cond1_1 i)
    (x0 : Vec F S1x1024x768 .bf16) (x1 : Vec F S1x1024x768 .bf16) (x2 : Vec F S1x1024x768 .bf16) : Vec F S1024x1 .f32 :=
  VS1_0.read (Elt F) (VS1_0.writes (Elt F) VS1_0.junk (kernelRun1_A c i arg3 harg3 arg4 harg4 arg5 harg5 arg6 harg6 arg7 harg7 arg8 harg8 arg9 harg9 hc0 hc1 x0 x1 x2).2.1)

/-- At an even point the body's pieces for the running sum (scratch operand 1) cover it: whole stores. -/
theorem scover1_A_1 (c : Dev nD) (i : grid1.Coords) (arg3 : Memref sig .tc .vmem S1x1024x768 .bf16) (harg3 : arg3.IsWhole) (arg4 : Memref sig .tc .vmem S1x1024x768 .bf16) (harg4 : arg4.IsWhole) (arg5 : Memref sig .tc .vmem S1x1024x768 .bf16) (harg5 : arg5.IsWhole) (arg6 : Memref sig .tc .vmem S1x1024x768 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x768 .f32) (harg9 : arg9.IsWhole) (hc0 : cond1_0 i) (hc1 : ¬cond1_1 i)
    (x0 : Vec F S1x1024x768 .bf16) (x1 : Vec F S1x1024x768 .bf16) (x2 : Vec F S1x1024x768 .bf16) (y : S1024x1.Idx) :
    ∃ pc ∈ (kernelRun1_A c i arg3 harg3 arg4 harg4 arg5 harg5 arg6 harg6 arg7 harg7 arg8 harg8 arg9 harg9 hc0 hc1 x0 x1 x2).2.2.1, y ∈ pc.1.set :=
  View.cover_of_tiledL (kernelRun1_A c i arg3 harg3 arg4 harg4 arg5 harg5 arg6 harg6 arg7 harg7 arg8 harg8 arg9 harg9 hc0 hc1 x0 x1 x2).2.2.1 S1024x1.size (by sl_kernel_rfl) y

/-- What the body leaves in the running sum at an even point: its pieces read back over junk. -/
def sout1_A_1 (c : Dev nD) (i : grid1.Coords) (arg3 : Memref sig .tc .vmem S1x1024x768 .bf16) (harg3 : arg3.IsWhole) (arg4 : Memref sig .tc .vmem S1x1024x768 .bf16) (harg4 : arg4.IsWhole) (arg5 : Memref sig .tc .vmem S1x1024x768 .bf16) (harg5 : arg5.IsWhole) (arg6 : Memref sig .tc .vmem S1x1024x768 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x768 .f32) (harg9 : arg9.IsWhole) (hc0 : cond1_0 i) (hc1 : ¬cond1_1 i)
    (x0 : Vec F S1x1024x768 .bf16) (x1 : Vec F S1x1024x768 .bf16) (x2 : Vec F S1x1024x768 .bf16) : Vec F S1024x1 .f32 :=
  VS1_1.read (Elt F) (VS1_1.writes (Elt F) VS1_1.junk (kernelRun1_A c i arg3 harg3 arg4 harg4 arg5 harg5 arg6 harg6 arg7 harg7 arg8 harg8 arg9 harg9 hc0 hc1 x0 x1 x2).2.2.1)

/-- At an even point the body's pieces for the accumulator (scratch operand 2) cover it: whole stores. -/
theorem scover1_A_2 (c : Dev nD) (i : grid1.Coords) (arg3 : Memref sig .tc .vmem S1x1024x768 .bf16) (harg3 : arg3.IsWhole) (arg4 : Memref sig .tc .vmem S1x1024x768 .bf16) (harg4 : arg4.IsWhole) (arg5 : Memref sig .tc .vmem S1x1024x768 .bf16) (harg5 : arg5.IsWhole) (arg6 : Memref sig .tc .vmem S1x1024x768 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x768 .f32) (harg9 : arg9.IsWhole) (hc0 : cond1_0 i) (hc1 : ¬cond1_1 i)
    (x0 : Vec F S1x1024x768 .bf16) (x1 : Vec F S1x1024x768 .bf16) (x2 : Vec F S1x1024x768 .bf16) (y : S1024x768.Idx) :
    ∃ pc ∈ (kernelRun1_A c i arg3 harg3 arg4 harg4 arg5 harg5 arg6 harg6 arg7 harg7 arg8 harg8 arg9 harg9 hc0 hc1 x0 x1 x2).2.2.2.1, y ∈ pc.1.set :=
  View.cover_of_tiledL (kernelRun1_A c i arg3 harg3 arg4 harg4 arg5 harg5 arg6 harg6 arg7 harg7 arg8 harg8 arg9 harg9 hc0 hc1 x0 x1 x2).2.2.2.1 S1024x768.size (by sl_kernel_rfl) y

/-- What the body leaves in the accumulator at an even point: its pieces read back over junk. -/
def sout1_A_2 (c : Dev nD) (i : grid1.Coords) (arg3 : Memref sig .tc .vmem S1x1024x768 .bf16) (harg3 : arg3.IsWhole) (arg4 : Memref sig .tc .vmem S1x1024x768 .bf16) (harg4 : arg4.IsWhole) (arg5 : Memref sig .tc .vmem S1x1024x768 .bf16) (harg5 : arg5.IsWhole) (arg6 : Memref sig .tc .vmem S1x1024x768 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x768 .f32) (harg9 : arg9.IsWhole) (hc0 : cond1_0 i) (hc1 : ¬cond1_1 i)
    (x0 : Vec F S1x1024x768 .bf16) (x1 : Vec F S1x1024x768 .bf16) (x2 : Vec F S1x1024x768 .bf16) : Vec F S1024x768 .f32 :=
  VS1_2.read (Elt F) (VS1_2.writes (Elt F) VS1_2.junk (kernelRun1_A c i arg3 harg3 arg4 harg4 arg5 harg5 arg6 harg6 arg7 harg7 arg8 harg8 arg9 harg9 hc0 hc1 x0 x1 x2).2.2.2.1)

/-- At an odd point the body's pieces for the output window tile its block (one whole store), so they cover it. -/
theorem cover1_B_3 (c : Dev nD) (i : grid1.Coords) (arg3 : Memref sig .tc .vmem S1x1024x768 .bf16) (harg3 : arg3.IsWhole) (arg4 : Memref sig .tc .vmem S1x1024x768 .bf16) (harg4 : arg4.IsWhole) (arg5 : Memref sig .tc .vmem S1x1024x768 .bf16) (harg5 : arg5.IsWhole) (arg6 : Memref sig .tc .vmem S1x1024x768 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x768 .f32) (harg9 : arg9.IsWhole) (hc0 : ¬cond1_0 i) (hc1 : cond1_1 i)
    (x0 : Vec F S1x1024x768 .bf16) (x1 : Vec F S1x1024x768 .bf16) (x2 : Vec F S1x1024x768 .bf16) (xs0 : Vec F S1024x1 .f32) (xs1 : Vec F S1024x1 .f32) (xs2 : Vec F S1024x768 .f32) (y : S1x1024x768.Idx) :
    ∃ pc ∈ (kernelRun1_B c i arg3 harg3 arg4 harg4 arg5 harg5 arg6 harg6 arg7 harg7 arg8 harg8 arg9 harg9 hc0 hc1 x0 x1 x2 xs0 xs1 xs2).1, y ∈ pc.1.set :=
  View.cover_of_tiledL (kernelRun1_B c i arg3 harg3 arg4 harg4 arg5 harg5 arg6 harg6 arg7 harg7 arg8 harg8 arg9 harg9 hc0 hc1 x0 x1 x2 xs0 xs1 xs2).1 S1x1024x768.size (by sl_kernel_rfl) y

/-- What the body leaves in the output window's staging buffer at an odd point: its pieces read back over junk. -/
def out1_B_3 (c : Dev nD) (i : grid1.Coords) (arg3 : Memref sig .tc .vmem S1x1024x768 .bf16) (harg3 : arg3.IsWhole) (arg4 : Memref sig .tc .vmem S1x1024x768 .bf16) (harg4 : arg4.IsWhole) (arg5 : Memref sig .tc .vmem S1x1024x768 .bf16) (harg5 : arg5.IsWhole) (arg6 : Memref sig .tc .vmem S1x1024x768 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x768 .f32) (harg9 : arg9.IsWhole) (hc0 : ¬cond1_0 i) (hc1 : cond1_1 i)
    (x0 : Vec F S1x1024x768 .bf16) (x1 : Vec F S1x1024x768 .bf16) (x2 : Vec F S1x1024x768 .bf16) (xs0 : Vec F S1024x1 .f32) (xs1 : Vec F S1024x1 .f32) (xs2 : Vec F S1024x768 .f32) : Vec F S1x1024x768 .f32 :=
  VO1_3.read (Elt F) (VO1_3.writes (Elt F) VO1_3.junk (kernelRun1_B c i arg3 harg3 arg4 harg4 arg5 harg5 arg6 harg6 arg7 harg7 arg8 harg8 arg9 harg9 hc0 hc1 x0 x1 x2 xs0 xs1 xs2).1)

/-- At an odd point the body's pieces for the running maximum (scratch operand 0) cover it: whole stores. -/
theorem scover1_B_0 (c : Dev nD) (i : grid1.Coords) (arg3 : Memref sig .tc .vmem S1x1024x768 .bf16) (harg3 : arg3.IsWhole) (arg4 : Memref sig .tc .vmem S1x1024x768 .bf16) (harg4 : arg4.IsWhole) (arg5 : Memref sig .tc .vmem S1x1024x768 .bf16) (harg5 : arg5.IsWhole) (arg6 : Memref sig .tc .vmem S1x1024x768 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x768 .f32) (harg9 : arg9.IsWhole) (hc0 : ¬cond1_0 i) (hc1 : cond1_1 i)
    (x0 : Vec F S1x1024x768 .bf16) (x1 : Vec F S1x1024x768 .bf16) (x2 : Vec F S1x1024x768 .bf16) (xs0 : Vec F S1024x1 .f32) (xs1 : Vec F S1024x1 .f32) (xs2 : Vec F S1024x768 .f32) (y : S1024x1.Idx) :
    ∃ pc ∈ (kernelRun1_B c i arg3 harg3 arg4 harg4 arg5 harg5 arg6 harg6 arg7 harg7 arg8 harg8 arg9 harg9 hc0 hc1 x0 x1 x2 xs0 xs1 xs2).2.1, y ∈ pc.1.set :=
  View.cover_of_tiledL (kernelRun1_B c i arg3 harg3 arg4 harg4 arg5 harg5 arg6 harg6 arg7 harg7 arg8 harg8 arg9 harg9 hc0 hc1 x0 x1 x2 xs0 xs1 xs2).2.1 S1024x1.size (by sl_kernel_rfl) y

/-- What the body leaves in the running maximum at an odd point: its pieces read back over junk. -/
def sout1_B_0 (c : Dev nD) (i : grid1.Coords) (arg3 : Memref sig .tc .vmem S1x1024x768 .bf16) (harg3 : arg3.IsWhole) (arg4 : Memref sig .tc .vmem S1x1024x768 .bf16) (harg4 : arg4.IsWhole) (arg5 : Memref sig .tc .vmem S1x1024x768 .bf16) (harg5 : arg5.IsWhole) (arg6 : Memref sig .tc .vmem S1x1024x768 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x768 .f32) (harg9 : arg9.IsWhole) (hc0 : ¬cond1_0 i) (hc1 : cond1_1 i)
    (x0 : Vec F S1x1024x768 .bf16) (x1 : Vec F S1x1024x768 .bf16) (x2 : Vec F S1x1024x768 .bf16) (xs0 : Vec F S1024x1 .f32) (xs1 : Vec F S1024x1 .f32) (xs2 : Vec F S1024x768 .f32) : Vec F S1024x1 .f32 :=
  VS1_0.read (Elt F) (VS1_0.writes (Elt F) VS1_0.junk (kernelRun1_B c i arg3 harg3 arg4 harg4 arg5 harg5 arg6 harg6 arg7 harg7 arg8 harg8 arg9 harg9 hc0 hc1 x0 x1 x2 xs0 xs1 xs2).2.1)

/-- At an odd point the body's pieces for the running sum (scratch operand 1) cover it: whole stores. -/
theorem scover1_B_1 (c : Dev nD) (i : grid1.Coords) (arg3 : Memref sig .tc .vmem S1x1024x768 .bf16) (harg3 : arg3.IsWhole) (arg4 : Memref sig .tc .vmem S1x1024x768 .bf16) (harg4 : arg4.IsWhole) (arg5 : Memref sig .tc .vmem S1x1024x768 .bf16) (harg5 : arg5.IsWhole) (arg6 : Memref sig .tc .vmem S1x1024x768 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x768 .f32) (harg9 : arg9.IsWhole) (hc0 : ¬cond1_0 i) (hc1 : cond1_1 i)
    (x0 : Vec F S1x1024x768 .bf16) (x1 : Vec F S1x1024x768 .bf16) (x2 : Vec F S1x1024x768 .bf16) (xs0 : Vec F S1024x1 .f32) (xs1 : Vec F S1024x1 .f32) (xs2 : Vec F S1024x768 .f32) (y : S1024x1.Idx) :
    ∃ pc ∈ (kernelRun1_B c i arg3 harg3 arg4 harg4 arg5 harg5 arg6 harg6 arg7 harg7 arg8 harg8 arg9 harg9 hc0 hc1 x0 x1 x2 xs0 xs1 xs2).2.2.1, y ∈ pc.1.set :=
  View.cover_of_tiledL (kernelRun1_B c i arg3 harg3 arg4 harg4 arg5 harg5 arg6 harg6 arg7 harg7 arg8 harg8 arg9 harg9 hc0 hc1 x0 x1 x2 xs0 xs1 xs2).2.2.1 S1024x1.size (by sl_kernel_rfl) y

/-- What the body leaves in the running sum at an odd point: its pieces read back over junk. -/
def sout1_B_1 (c : Dev nD) (i : grid1.Coords) (arg3 : Memref sig .tc .vmem S1x1024x768 .bf16) (harg3 : arg3.IsWhole) (arg4 : Memref sig .tc .vmem S1x1024x768 .bf16) (harg4 : arg4.IsWhole) (arg5 : Memref sig .tc .vmem S1x1024x768 .bf16) (harg5 : arg5.IsWhole) (arg6 : Memref sig .tc .vmem S1x1024x768 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x768 .f32) (harg9 : arg9.IsWhole) (hc0 : ¬cond1_0 i) (hc1 : cond1_1 i)
    (x0 : Vec F S1x1024x768 .bf16) (x1 : Vec F S1x1024x768 .bf16) (x2 : Vec F S1x1024x768 .bf16) (xs0 : Vec F S1024x1 .f32) (xs1 : Vec F S1024x1 .f32) (xs2 : Vec F S1024x768 .f32) : Vec F S1024x1 .f32 :=
  VS1_1.read (Elt F) (VS1_1.writes (Elt F) VS1_1.junk (kernelRun1_B c i arg3 harg3 arg4 harg4 arg5 harg5 arg6 harg6 arg7 harg7 arg8 harg8 arg9 harg9 hc0 hc1 x0 x1 x2 xs0 xs1 xs2).2.2.1)

/-- At an odd point the body's pieces for the accumulator (scratch operand 2) cover it: whole stores. -/
theorem scover1_B_2 (c : Dev nD) (i : grid1.Coords) (arg3 : Memref sig .tc .vmem S1x1024x768 .bf16) (harg3 : arg3.IsWhole) (arg4 : Memref sig .tc .vmem S1x1024x768 .bf16) (harg4 : arg4.IsWhole) (arg5 : Memref sig .tc .vmem S1x1024x768 .bf16) (harg5 : arg5.IsWhole) (arg6 : Memref sig .tc .vmem S1x1024x768 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x768 .f32) (harg9 : arg9.IsWhole) (hc0 : ¬cond1_0 i) (hc1 : cond1_1 i)
    (x0 : Vec F S1x1024x768 .bf16) (x1 : Vec F S1x1024x768 .bf16) (x2 : Vec F S1x1024x768 .bf16) (xs0 : Vec F S1024x1 .f32) (xs1 : Vec F S1024x1 .f32) (xs2 : Vec F S1024x768 .f32) (y : S1024x768.Idx) :
    ∃ pc ∈ (kernelRun1_B c i arg3 harg3 arg4 harg4 arg5 harg5 arg6 harg6 arg7 harg7 arg8 harg8 arg9 harg9 hc0 hc1 x0 x1 x2 xs0 xs1 xs2).2.2.2.1, y ∈ pc.1.set :=
  View.cover_of_tiledL (kernelRun1_B c i arg3 harg3 arg4 harg4 arg5 harg5 arg6 harg6 arg7 harg7 arg8 harg8 arg9 harg9 hc0 hc1 x0 x1 x2 xs0 xs1 xs2).2.2.2.1 S1024x768.size (by sl_kernel_rfl) y

/-- What the body leaves in the accumulator at an odd point: its pieces read back over junk. -/
def sout1_B_2 (c : Dev nD) (i : grid1.Coords) (arg3 : Memref sig .tc .vmem S1x1024x768 .bf16) (harg3 : arg3.IsWhole) (arg4 : Memref sig .tc .vmem S1x1024x768 .bf16) (harg4 : arg4.IsWhole) (arg5 : Memref sig .tc .vmem S1x1024x768 .bf16) (harg5 : arg5.IsWhole) (arg6 : Memref sig .tc .vmem S1x1024x768 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x768 .f32) (harg9 : arg9.IsWhole) (hc0 : ¬cond1_0 i) (hc1 : cond1_1 i)
    (x0 : Vec F S1x1024x768 .bf16) (x1 : Vec F S1x1024x768 .bf16) (x2 : Vec F S1x1024x768 .bf16) (xs0 : Vec F S1024x1 .f32) (xs1 : Vec F S1024x1 .f32) (xs2 : Vec F S1024x768 .f32) : Vec F S1024x768 .f32 :=
  VS1_2.read (Elt F) (VS1_2.writes (Elt F) VS1_2.junk (kernelRun1_B c i arg3 harg3 arg4 harg4 arg5 harg5 arg6 harg6 arg7 harg7 arg8 harg8 arg9 harg9 hc0 hc1 x0 x1 x2 xs0 xs1 xs2).2.2.2.1)

/-! ## What the buffers hold after each point -/

/-- The four buffers after the body at an even point `t`: the output window's staging buffer (a placeholder: idle),
    the running maximum, the running sum, the accumulator — the reset-and-update case run at the point's memrefs and
    input blocks. -/
def outsA (c : Dev nD) (t : Fin cfg1.N) (h0 : t.val % 2 = 0) :
    Vec F S1x1024x768 .f32 × Vec F S1024x1 .f32 × Vec F S1024x1 .f32 × Vec F S1024x768 .f32 :=
  (out1_A_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => absurd ((hcond1_1 t).mp h) (by omega)) (iblk1 V c 0 t) (iblk1 V c 1 t) (iblk1 V c 2 t),
   sout1_A_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => absurd ((hcond1_1 t).mp h) (by omega)) (iblk1 V c 0 t) (iblk1 V c 1 t) (iblk1 V c 2 t),
   sout1_A_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => absurd ((hcond1_1 t).mp h) (by omega)) (iblk1 V c 0 t) (iblk1 V c 1 t) (iblk1 V c 2 t),
   sout1_A_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => absurd ((hcond1_1 t).mp h) (by omega)) (iblk1 V c 0 t) (iblk1 V c 1 t) (iblk1 V c 2 t))

/-- The four buffers after the body at an odd point `t`, the scratch operands holding `xs·` before it: the
    update-and-store case run at the point's memrefs and input blocks. -/
def outsB (c : Dev nD) (t : Fin cfg1.N) (h1 : t.val % 2 = 1) (xs0 : Vec F S1024x1 .f32) (xs1 : Vec F S1024x1 .f32) (xs2 : Vec F S1024x768 .f32) :
    Vec F S1x1024x768 .f32 × Vec F S1024x1 .f32 × Vec F S1024x1 .f32 × Vec F S1024x768 .f32 :=
  (out1_B_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => absurd ((hcond1_0 t).mp h) (by omega)) ((hcond1_1 t).mpr h1) (iblk1 V c 0 t) (iblk1 V c 1 t) (iblk1 V c 2 t) xs0 xs1 xs2,
   sout1_B_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => absurd ((hcond1_0 t).mp h) (by omega)) ((hcond1_1 t).mpr h1) (iblk1 V c 0 t) (iblk1 V c 1 t) (iblk1 V c 2 t) xs0 xs1 xs2,
   sout1_B_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => absurd ((hcond1_0 t).mp h) (by omega)) ((hcond1_1 t).mpr h1) (iblk1 V c 0 t) (iblk1 V c 1 t) (iblk1 V c 2 t) xs0 xs1 xs2,
   sout1_B_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => absurd ((hcond1_0 t).mp h) (by omega)) ((hcond1_1 t).mpr h1) (iblk1 V c 0 t) (iblk1 V c 1 t) (iblk1 V c 2 t) xs0 xs1 xs2)

/-- THE ACCUMULATION. What the output window's staging buffer and the three scratch operands hold after the body at
    position `n` (output, running maximum, running sum, accumulator): at an even position the reset-and-update case,
    at an odd position the update-and-store case over what position `n - 1` left in the scratch operands. -/
def outsAt1 (c : Dev nD) : (n : ℕ) → n < cfg1.N → Vec F S1x1024x768 .f32 × Vec F S1024x1 .f32 × Vec F S1024x1 .f32 × Vec F S1024x768 .f32
  | 0, hn => outsA V c ⟨0, hn⟩ (Nat.zero_mod _)
  | n + 1, hn =>
    if h0 : (n + 1) % 2 = 0 then outsA V c ⟨n + 1, hn⟩ h0
    else outsB V c ⟨n + 1, hn⟩ (by show (n + 1) % 2 = 1; omega) (outsAt1 c n (Nat.lt_of_succ_lt hn)).2.1 (outsAt1 c n (Nat.lt_of_succ_lt hn)).2.2.1 (outsAt1 c n (Nat.lt_of_succ_lt hn)).2.2.2

/-- `outsAt1` at an even point. -/
theorem outsAt1_A (c : Dev nD) (t : Fin cfg1.N) (h0 : t.val % 2 = 0) : outsAt1 V c t.val t.isLt = outsA V c t h0 := by
  obtain ⟨n, hn⟩ := t
  cases n with
  | zero => exact rfl
  | succ n => exact (dif_pos h0).trans rfl

/-- `outsAt1` at an odd point: over what the point before left. -/
theorem outsAt1_B (c : Dev nD) (t : Fin cfg1.N) (h1 : t.val % 2 = 1) :
    outsAt1 V c t.val t.isLt = outsB V c t h1 (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2 := by
  obtain ⟨n, hn⟩ := t
  cases n with
  | zero => exact absurd h1 (show ¬((0 : ℕ) % 2 = 1) by decide)
  | succ n => exact (dif_neg (by (try dsimp only at h1); omega)).trans rfl

/-! ## The region invariant -/

/-- The region invariant before position `n`: before the first point the class's (every scratch operand at anything);
    afterwards the other pipeline's staging buffers at anything, the three scratch operands at what the point before
    left in them (`outsAt1`'s scratch components), and the generator register at some state. -/
def PhiS1 (c : Dev nD) : (n : ℕ) → n ≤ cfg1.N → sProp 𝕄
  | 0, _ => Pipeline.ΦA spec1 c
  | n + 1, hn => iprop(iprop(anyAt (F := F) c cc0_stg0_0 ∗ anyAt (F := F) c cc0_stg0_1 ∗ anyAt (F := F) c cc0_stg1_0 ∗ anyAt (F := F) c cc0_stg2_0 ∗ anyAt (F := F) c cc0_stg2_1
      ∗ owns (c : Thread nD τ) scM1_0 fullShare (outsAt1 V c n hn).2.1 ∗ owns (c : Thread nD τ) scM1_1 fullShare (outsAt1 V c n hn).2.2.1 ∗ owns (c : Thread nD τ) scM1_2 fullShare (outsAt1 V c n hn).2.2.2) ∗ (∃ r, prngReg c r))

theorem PhiS1_zero (c : Dev nD) (n : ℕ) (h : n ≤ cfg1.N) (hz : n = 0) : PhiS1 V c n h = Pipeline.ΦA spec1 c := by
  subst hz; rfl

/-- After point `n` (before point `n + 1`): the scratch operands at that point's contents. -/
theorem PhiS1_succ (c : Dev nD) (n : ℕ) (hn : n < cfg1.N) :
    PhiS1 V c (n + 1) hn = iprop(iprop(anyAt (F := F) c cc0_stg0_0 ∗ anyAt (F := F) c cc0_stg0_1 ∗ anyAt (F := F) c cc0_stg1_0 ∗ anyAt (F := F) c cc0_stg2_0 ∗ anyAt (F := F) c cc0_stg2_1
      ∗ owns (c : Thread nD τ) scM1_0 fullShare (outsAt1 V c n hn).2.1 ∗ owns (c : Thread nD τ) scM1_1 fullShare (outsAt1 V c n hn).2.2.1 ∗ owns (c : Thread nD τ) scM1_2 fullShare (outsAt1 V c n hn).2.2.2) ∗ (∃ r, prngReg c r)) := rfl

/-- Before a point that is not the first: the scratch operands at what the point before left. -/
theorem PhiS1_pos (c : Dev nD) (n : ℕ) (h : n ≤ cfg1.N) (hz : n ≠ 0) :
    PhiS1 V c n h = iprop(iprop(anyAt (F := F) c cc0_stg0_0 ∗ anyAt (F := F) c cc0_stg0_1 ∗ anyAt (F := F) c cc0_stg1_0 ∗ anyAt (F := F) c cc0_stg2_0 ∗ anyAt (F := F) c cc0_stg2_1
      ∗ owns (c : Thread nD τ) scM1_0 fullShare (outsAt1 V c (n - 1) (by omega)).2.1 ∗ owns (c : Thread nD τ) scM1_1 fullShare (outsAt1 V c (n - 1) (by omega)).2.2.1 ∗ owns (c : Thread nD τ) scM1_2 fullShare (outsAt1 V c (n - 1) (by omega)).2.2.2) ∗ (∃ r, prngReg c r)) := by
  cases n with
  | zero => exact absurd rfl hz
  | succ n => rfl

/-! ## The pipeline's proof data -/

/-- The proof data of pipeline 1 on core `c`: the arrays as the region finds them (`V`); after the body at point `t`
    each input's buffer at its block and the output's at `outsAt1`'s first component; the invariant `PhiS1`; nothing
    owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

/-- The proof data's arrays are the region-entry contents. -/
theorem A_eq1 (c : Dev nD) (w : Fin cfg1.W) : (dat1 V c).A w = V c (Pipeline.arrRef spec1 w) := by
  dsimp only [dat1]

/-- The invariant at a point's start, restated at `t.val`. -/
theorem PhiS1_castSucc (c : Dev nD) (t : Fin cfg1.N) :
    (dat1 V c).Φ t.castSucc = PhiS1 V c t.val (Nat.le_of_lt t.isLt) := by
  dsimp only [dat1]; simp only [Fin.coe_castSucc]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point: the inputs' memrefs hold their blocks; the point's parity says which case it is in, and the
    case's run applies; the invariant hands the body the scratch operands at what the point before left (at anything
    at the first point) and takes them back at this point's contents; at an even point the output window's buffer is
    handed back untouched; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  have hN : t.val < 32 := lt_of_lt_of_eq t.isLt (show cfg1.N = 32 from N_1)
  rw [show (dat1 V c).leavesExact 0 t = owns (c : Thread nD τ) (ms1_0 t) fullShare ((dat1 V c).after 0 t) from by
        unfold Dat.leavesExact; rw [liveAt1_0 t], after1_0]
  rw [show (dat1 V c).leavesExact 1 t = owns (c : Thread nD τ) (ms1_1 t) fullShare ((dat1 V c).after 1 t) from by
        unfold Dat.leavesExact; rw [liveAt1_1 t], after1_1]
  rw [show (dat1 V c).leavesExact 2 t = owns (c : Thread nD τ) (ms1_2 t) fullShare ((dat1 V c).after 2 t) from by
        unfold Dat.leavesExact; rw [liveAt1_2 t], after1_2]
  by_cases h0 : t.val % 2 = 0
  · have hc0 : cond1_0 (grid1.coords t) := (hcond1_0 t).mpr h0
    have hc1 : ¬cond1_1 (grid1.coords t) := fun h => absurd ((hcond1_1 t).mp h) (by omega)
    rw [Dat.leavesExact_idle (dat1 V c) 3 t (idleAt1_3_A t hc0 hc1) (noFlush1_3_A t hc0 hc1)]
    rw [outsAt1_A V c t h0]
    unfold outsA sout1_A_0 sout1_A_1 sout1_A_2; (try dsimp only)
    by_cases hz : t.val = 0
    · rw [PhiS1_castSucc V c t, PhiS1_zero V c _ _ hz, PhiA1_eq]
      iintro ⟨⟨⟨Ha0, Ha1, Ha2, Ha3, Ha4, HS0, HS1, HS2⟩, Hg⟩, Ho, ⟨%d0, H0⟩, ⟨%d1, H1⟩, ⟨%d2, H2⟩, ⟨%d3, H3⟩⟩
      iapply ((kernelRun1_A c (grid1.coords t) _ _ _ _ _ _ _ _ _ _ _ _ _ _ hc0 hc1 (iblk1 V c 0 t) (iblk1 V c 1 t) (iblk1 V c 2 t)).2.2.2.2 _ Set.univ _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      iintro ⟨H0, H1, H2, H3, ⟨%es0, HS0⟩, ⟨%es1, HS1⟩, ⟨%es2, HS2⟩⟩
      isplitl [Ha0 Ha1 Ha2 Ha3 Ha4 HS0 HS1 HS2 Hg]
      · isplitl [Ha0 Ha1 Ha2 Ha3 Ha4 HS0 HS1 HS2]
        · isplitl [Ha0]; · iexact Ha0
          isplitl [Ha1]; · iexact Ha1
          isplitl [Ha2]; · iexact Ha2
          isplitl [Ha3]; · iexact Ha3
          isplitl [Ha4]; · iexact Ha4
          isplitl [HS0]
          · unfold owns; iexists _; isplitr
            swap; · iexact HS0
            ipureintro; exact View.read_writes_of_cover _ _ _ _ _ (scover1_A_0 c _ _ _ _ _ _ _ _ _ _ _ _ _ _ _ _ _ _ _ _)
          isplitl [HS1]
          · unfold owns; iexists _; isplitr
            swap; · iexact HS1
            ipureintro; exact View.read_writes_of_cover _ _ _ _ _ (scover1_A_1 c _ _ _ _ _ _ _ _ _ _ _ _ _ _ _ _ _ _ _ _)
          unfold owns; iexists _; isplitr
          swap; · iexact HS2
          ipureintro; exact View.read_writes_of_cover _ _ _ _ _ (scover1_A_2 c _ _ _ _ _ _ _ _ _ _ _ _ _ _ _ _ _ _ _ _)
        iexact Hg
      isplitl [Ho]; · iexact Ho
      isplitl [H0]; · iexact H0
      isplitl [H1]; · iexact H1
      isplitl [H2]; · iexact H2
      iexists _; iexact H3
    · rw [PhiS1_castSucc V c t, PhiS1_pos V c _ _ hz]
      iintro ⟨⟨⟨Ha0, Ha1, Ha2, Ha3, Ha4, HS0, HS1, HS2⟩, Hg⟩, Ho, ⟨%d0, H0⟩, ⟨%d1, H1⟩, ⟨%d2, H2⟩, ⟨%d3, H3⟩⟩
      iapply ((kernelRun1_A c (grid1.coords t) _ _ _ _ _ _ _ _ _ _ _ _ _ _ hc0 hc1 (iblk1 V c 0 t) (iblk1 V c 1 t) (iblk1 V c 2 t)).2.2.2.2 _ Set.univ _)
      isplitl [H0]; · iexact H0
      isplitl [H1]; · iexact H1
      isplitl [H2]; · iexact H2
      isplitl [H3]; · iexact H3
      isplitl [HS0]; · iexists _; iexact HS0
      isplitl [HS1]; · iexists _; iexact HS1
      isplitl [HS2]; · iexists _; iexact HS2
      iintro ⟨H0, H1, H2, H3, ⟨%es0, HS0⟩, ⟨%es1, HS1⟩, ⟨%es2, HS2⟩⟩
      isplitl [Ha0 Ha1 Ha2 Ha3 Ha4 HS0 HS1 HS2 Hg]
      · isplitl [Ha0 Ha1 Ha2 Ha3 Ha4 HS0 HS1 HS2]
        · isplitl [Ha0]; · iexact Ha0
          isplitl [Ha1]; · iexact Ha1
          isplitl [Ha2]; · iexact Ha2
          isplitl [Ha3]; · iexact Ha3
          isplitl [Ha4]; · iexact Ha4
          isplitl [HS0]
          · unfold owns; iexists _; isplitr
            swap; · iexact HS0
            ipureintro; exact View.read_writes_of_cover _ _ _ _ _ (scover1_A_0 c _ _ _ _ _ _ _ _ _ _ _ _ _ _ _ _ _ _ _ _)
          isplitl [HS1]
          · unfold owns; iexists _; isplitr
            swap; · iexact HS1
            ipureintro; exact View.read_writes_of_cover _ _ _ _ _ (scover1_A_1 c _ _ _ _ _ _ _ _ _ _ _ _ _ _ _ _ _ _ _ _)
          unfold owns; iexists _; isplitr
          swap; · iexact HS2
          ipureintro; exact View.read_writes_of_cover _ _ _ _ _ (scover1_A_2 c _ _ _ _ _ _ _ _ _ _ _ _ _ _ _ _ _ _ _ _)
        iexact Hg
      isplitl [Ho]; · iexact Ho
      isplitl [H0]; · iexact H0
      isplitl [H1]; · iexact H1
      isplitl [H2]; · iexact H2
      iexists _; iexact H3
  · have h1 : t.val % 2 = 1 := by omega
    have hc0 : ¬cond1_0 (grid1.coords t) := fun h => h0 ((hcond1_0 t).mp h)
    have hc1 : cond1_1 (grid1.coords t) := (hcond1_1 t).mpr h1
    rw [show (dat1 V c).leavesExact 3 t = owns (c : Thread nD τ) (ms1_3 t) fullShare ((dat1 V c).after 3 t) from by
        unfold Dat.leavesExact; rw [liveAt1_3_B t hc0 hc1], after1_3]
    rw [outsAt1_B V c t h1]
    unfold outsB out1_B_3 sout1_B_0 sout1_B_1 sout1_B_2; (try dsimp only)
    have hz : t.val ≠ 0 := by omega
    rw [PhiS1_castSucc V c t, PhiS1_pos V c _ _ hz]
    iintro ⟨⟨⟨Ha0, Ha1, Ha2, Ha3, Ha4, HS0, HS1, HS2⟩, Hg⟩, Ho, ⟨%d0, H0⟩, ⟨%d1, H1⟩, ⟨%d2, H2⟩, ⟨%d3, H3⟩⟩
    iapply ((kernelRun1_B c (grid1.coords t) _ _ _ _ _ _ _ _ _ _ _ _ _ _ hc0 hc1 (iblk1 V c 0 t) (iblk1 V c 1 t) (iblk1 V c 2 t) _ _ _).2.2.2.2 Set.univ _)
    isplitl [H0]; · iexact H0
    isplitl [H1]; · iexact H1
    isplitl [H2]; · iexact H2
    isplitl [H3]; · iexists _; iexact H3
    isplitl [HS0]; · iexact HS0
    isplitl [HS1]; · iexact HS1
    isplitl [HS2]; · iexact HS2
    iintro ⟨H0, H1, H2, ⟨%e3, H3⟩, ⟨%es0, HS0⟩, ⟨%es1, HS1⟩, ⟨%es2, HS2⟩⟩
    isplitl [Ha0 Ha1 Ha2 Ha3 Ha4 HS0 HS1 HS2 Hg]
    · isplitl [Ha0 Ha1 Ha2 Ha3 Ha4 HS0 HS1 HS2]
      · isplitl [Ha0]; · iexact Ha0
        isplitl [Ha1]; · iexact Ha1
        isplitl [Ha2]; · iexact Ha2
        isplitl [Ha3]; · iexact Ha3
        isplitl [Ha4]; · iexact Ha4
        isplitl [HS0]
        · unfold owns; iexists _; isplitr
          swap; · iexact HS0
          ipureintro; exact View.read_writes_of_cover _ _ _ _ _ (scover1_B_0 c _ _ _ _ _ _ _ _ _ _ _ _ _ _ _ _ _ _ _ _ _ _ _)
        isplitl [HS1]
        · unfold owns; iexists _; isplitr
          swap; · iexact HS1
          ipureintro; exact View.read_writes_of_cover _ _ _ _ _ (scover1_B_1 c _ _ _ _ _ _ _ _ _ _ _ _ _ _ _ _ _ _ _ _ _ _ _)
        unfold owns; iexists _; isplitr
        swap; · iexact HS2
        ipureintro; exact View.read_writes_of_cover _ _ _ _ _ (scover1_B_2 c _ _ _ _ _ _ _ _ _ _ _ _ _ _ _ _ _ _ _ _ _ _ _)
      iexact Hg
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover1_B_3 c _ _ _ _ _ _ _ _ _ _ _ _ _ _ _ _ _ _ _ _ _ _ _)

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region (the class's invariant) is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the class's back: the scratch operands' named contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨Ha0, Ha1, Ha2, Ha3, Ha4, HS0, HS1, HS2⟩, Hg⟩
  isplitl [Ha0 Ha1 Ha2 Ha3 Ha4 HS0 HS1 HS2]
  · isplitl [Ha0]; · iexact Ha0
    isplitl [Ha1]; · iexact Ha1
    isplitl [Ha2]; · iexact Ha2
    isplitl [Ha3]; · iexact Ha3
    isplitl [Ha4]; · iexact Ha4
    isplitl [HS0]; · iexists _; iexact HS0
    isplitl [HS1]; · iexists _; iexact HS1
    iexists _; iexact HS2
  iexact Hg

/-- The same after the last point. -/
theorem hout1 (c : Dev nD) : (dat1 V c).Φ (Fin.last cfg1.N) ⊢ Pipeline.ΦA spec1 c :=
  Phi_out1 V c _ (by rw [Fin.val_last]; have : cfg1.N = 32 := N_1; omega)

end Region

end Cert.KernelIdeal.Hand

end
-- ==== Proof.I.Run.lean ====
/-
  The whole-program run of the idealized kernel program, at any float instance: @main is a stretch of host
  operations, the projection region, a second stretch, the attention region. Each region's arrays are split out of the
  unscoped buffers at entry and put back at exit holding what the region's write-backs leave; every other buffer
  passes by. Read at the end: the result array holds what the attention region's write-backs leave, and the four
  argument arrays hold their launch contents (no host operation and no region writes one).
-/
import proofs.«178805_j14894946583181_2_alg».proof.Proof.I.Region0
import proofs.«178805_j14894946583181_2_alg».proof.Proof.I.Region1
import proofs.«178805_j14894946583181_2_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary between the four items -/

/-- A core's buffers at launch. -/
abbrev W0 : Dev nD → Valuation τ sig (Elt F) := fun c b => (s₀ m ρ).mem ((c : Dev nD), b)
/-- After the first stretch of host operations: what the projection region is entered from. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- After the projection region: its arrays at what its write-backs leave, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second stretch of host operations: what the attention region is entered from. -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- After the attention region: its arrays at what its write-backs leave, every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-! ### A buffer no item writes ends as launched -/

/-- A reference that neither stretch of host operations writes and that is no array of either region holds, at the
    end, its launch contents. -/
theorem W4_untouched (c : Dev nD) (r : Ref sig .tc) (h0 : r ∉ hostOps0_W) (h1 : r ∉ hostOps1_W)
    (hr0 : ∀ w, Pipeline.arrRef spec0 w ≠ r) (hr1 : ∀ w, Pipeline.arrRef spec1 w ≠ r) :
    W4 m ρ c (Proc.devRef .tc r) = m ((c : Thread nD τ).loc r) :=
  calc W4 m ρ c (Proc.devRef .tc r)
    _ = W3 m ρ c (Proc.devRef .tc r) := W4_of_ne m ρ c r hr1
    _ = W2 m ρ c (Proc.devRef .tc r) := StableHlo.after_of_writes_sub hostOps1 _ hostOps1_writes h1
    _ = W1 m ρ c (Proc.devRef .tc r) := W2_of_ne m ρ c r hr0
    _ = W0 m ρ c (Proc.devRef .tc r) := StableHlo.after_of_writes_sub hostOps0 _ hostOps0_writes h0
    _ = m ((c : Thread nD τ).loc r) := rfl

theorem W4_main_arg0 (c : Dev nD) : W4 m ρ c (Proc.devRef .tc main_arg0) = m ((c : Thread nD τ).loc main_arg0) :=
  W4_untouched m ρ c main_arg0 (by decide) (by decide) (by decide) (by decide)
theorem W4_main_arg1 (c : Dev nD) : W4 m ρ c (Proc.devRef .tc main_arg1) = m ((c : Thread nD τ).loc main_arg1) :=
  W4_untouched m ρ c main_arg1 (by decide) (by decide) (by decide) (by decide)
theorem W4_main_arg2 (c : Dev nD) : W4 m ρ c (Proc.devRef .tc main_arg2) = m ((c : Thread nD τ).loc main_arg2) :=
  W4_untouched m ρ c main_arg2 (by decide) (by decide) (by decide) (by decide)
theorem W4_main_arg3 (c : Dev nD) : W4 m ρ c (Proc.devRef .tc main_arg3) = m ((c : Thread nD τ).loc main_arg3) :=
  W4_untouched m ρ c main_arg3 (by decide) (by decide) (by decide) (by decide)

/-- The result array is the attention region's output window's array: at the end it holds what that region's
    write-backs leave. -/
theorem W4_main_v17 (c : Dev nD) : W4 m ρ c (Proc.devRef .tc main_v17) = (dat1 (V3 m ρ) c).arrAt 3 cfg1.N :=
  W4_arr m ρ c 3

/-! ## The proof data family and the thread state -/

abbrev adm : (p : Fin 2) → (pcfgs (F := F) p).Adm := fun p => (cfgs p).toPCfg_adm
/-- Each region's proof data at the contents the region is entered from. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
/-- The projection region: entered from every unscoped buffer at `W1`, left at `W2`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- What the launch hands the attention region — the generator register and the scoped buffers no window stages — is
    the class invariant, -/
theorem phiA1_of (c : Dev nD) :
    (iprop((∃ r, prngReg c r) ∗ Pipeline.prefHeld (pcfgs (F := F) 1).pre c (fun _ => fullShare) (adm (F := F) 1).1 ∗ Pipeline.scopedRest spec1 c) : sProp 𝕄)
      ⊢ Pipeline.ΦA spec1 c := by
  unfold Pipeline.ΦA
  iintro ⟨Hp, -, Hr⟩
  isplitl [Hr]; · iexact Hr
  iexact Hp
/-- and the class invariant gives them back. -/
theorem phiA1_to (c : Dev nD) :
    (Pipeline.ΦA spec1 c : sProp 𝕄) ⊢ iprop((∃ r, prngReg c r) ∗ BI.emp ∗ Pipeline.scopedRest spec1 c) := by
  unfold Pipeline.ΦA
  iintro ⟨Hr, Hp⟩
  isplitl [Hp]; · iexact Hp
  isplitr; · iempintro
  iexact Hr

set_option backward.isDefEq.respectTransparency.types false in
/-- The attention region: entered from every unscoped buffer at `W3`, left at `W4`. Its invariant names the three
    scratch buffers' contents between points; it is entered from, and gives back, the class invariant. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := (phiA1_of c).trans (hin1 (V3 m ρ) c)
  hout c := by
    rw [Pipeline.ownSems0_none]
    exact (hout1 (V3 m ρ) c).trans (phiA1_to c)
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
theorem main_run (c : Dev nD) : main (F := F) c = Pipeline.Seg.run (segs m ρ) := (main_chain c).trans (by chain_rfl)

set_option backward.isDefEq.respectTransparency.types false in
/-- THE RUN, at any float instance: from any memory with zero counters every weakly fair execution of @main
    terminates, nothing faulting; the result array ends at what the attention region's write-backs leave, and the
    four argument arrays end as launched. -/
theorem run_main : θ_run defs (onTc (τ := τ) (main (F := F))) ⟨m, fun _ => 0, ρ⟩ (fun r => ∀ c : Dev nD,
      r.2.mem ((c.tc : Thread nD τ).loc main_v17) = (dat1 (V3 m ρ) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨(h c _ (mem_uc main_v17 (by decide))).trans (W4_main_v17 m ρ c),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c)⟩)

/-- The frame: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => (h c).2) (run_main m ρ)

end Cert.KernelIdeal.Hand

end
-- ==== Proof.Val0.lean ====
/- The value of region 0's output array at the ideal instance: the product of the region-entry contents of its two
   operand arrays, index by index. The payload at an index; each point's written-back block as a block of one function
   of the operand arrays; the blocks cover the array. Stated at a parameter `V`, the buffer contents at region entry. -/
import proofs.«178805_j14894946583181_2_alg».proof.Proof.I.Region0
import Idealize.ShloMosaic.Lib.ValueIdx
import Idealize.ShloMosaic.Lib.Pipeline.Value
import Idealize.ShloMosaic.PureOps.Ideal.Laws

set_option maxRecDepth 16384

noncomputable section

namespace Cert.KernelIdeal.HandValue

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)
open scoped BigOperators

/-! ## The payload at an index -/

/-- The block product contracts the left operand's column axis with the right operand's row axis: the left
    operand's index at output index `j` and contraction position `q` is (row of `j`, `q`), -/
theorem lhs_row (j : S1024x2304.Idx) (q : (dot_S1024x768_S768x2304_S1024x2304_1_0_0_1_n_n).contr.Idx) :
    ((dot_S1024x768_S768x2304_S1024x2304_1_0_0_1_n_n).lhsIdx j q 0).val = (j 0).val := by
  unfold DotDims.lhsIdx
  rw [dif_neg (show ¬(0 : Fin S1024x768.rank) ∈ (dot_S1024x768_S768x2304_S1024x2304_1_0_0_1_n_n).lhsBatch by decide), dif_pos (show (0 : Fin S1024x768.rank) ∈ (dot_S1024x768_S768x2304_S1024x2304_1_0_0_1_n_n).lhsNonContracting by decide)]
  rfl
theorem lhs_contr (j : S1024x2304.Idx) (q : (dot_S1024x768_S768x2304_S1024x2304_1_0_0_1_n_n).contr.Idx) :
    ((dot_S1024x768_S768x2304_S1024x2304_1_0_0_1_n_n).lhsIdx j q 1).val = (q ⟨0, by decide⟩).val :=
  (dot_S1024x768_S768x2304_S1024x2304_1_0_0_1_n_n).lhsIdx_val_of_single rfl j q
/-- and the right operand's is (`q`, column of `j`). -/
theorem rhs_contr (j : S1024x2304.Idx) (q : (dot_S1024x768_S768x2304_S1024x2304_1_0_0_1_n_n).contr.Idx) :
    ((dot_S1024x768_S768x2304_S1024x2304_1_0_0_1_n_n).rhsIdx j q 0).val = (q ⟨0, by decide⟩).val :=
  (dot_S1024x768_S768x2304_S1024x2304_1_0_0_1_n_n).rhsIdx_val_of_single rfl j q
theorem rhs_col (j : S1024x2304.Idx) (q : (dot_S1024x768_S768x2304_S1024x2304_1_0_0_1_n_n).contr.Idx) :
    ((dot_S1024x768_S768x2304_S1024x2304_1_0_0_1_n_n).rhsIdx j q 1).val = (j 1).val := by
  unfold DotDims.rhsIdx
  rw [dif_neg (show ¬(1 : Fin S768x2304.rank) ∈ (dot_S1024x768_S768x2304_S1024x2304_1_0_0_1_n_n).rhsBatch by decide), dif_pos (show (1 : Fin S768x2304.rank) ∈ (dot_S1024x768_S768x2304_S1024x2304_1_0_0_1_n_n).rhsNonContracting by decide)]
  rfl

/-- The body's payload at row `p`, column `q` of the block: the format changes are the identity at the ideal
    values and the product accumulates into zero, so it is the sum over the 768 contraction positions of the
    loaded blocks' products. -/
theorem pay0_apply (x0 : Vec Ideal S1024x768 .f32) (x1 : Vec Ideal S768x2304 .bf16) (p : Fin 1024) (q : Fin 2304) :
    k0_pay1 (F := Ideal) x0 x1 (ix2 p q) = ∑ k : Fin 768, x0 (ix2 p k) * x1 (ix2 k q) := by
  unfold k0_pay1
  simp only [matmul]
  rw [truncf_apply, Ideal.matmul_constant_zero_apply,
    ← Equiv.sum_comp (contrEquiv1 (dot_S1024x768_S768x2304_S1024x2304_1_0_0_1_n_n) 768 rfl rfl).symm]
  refine Finset.sum_congr rfl fun k _ => ?_
  have hk := contrEquiv1_symm_val (dot_S1024x768_S768x2304_S1024x2304_1_0_0_1_n_n) 768 rfl rfl k
  have el : (dot_S1024x768_S768x2304_S1024x2304_1_0_0_1_n_n).lhsIdx (ix2 p q) ((contrEquiv1 (dot_S1024x768_S768x2304_S1024x2304_1_0_0_1_n_n) 768 rfl rfl).symm k) = ix2 p k :=
    funext fun a => Fin.ext (by
      match a with
      | ⟨0, _⟩ => exact lhs_row _ _
      | ⟨1, _⟩ => exact (lhs_contr _ _).trans hk)
  have er : (dot_S1024x768_S768x2304_S1024x2304_1_0_0_1_n_n).rhsIdx (ix2 p q) ((contrEquiv1 (dot_S1024x768_S768x2304_S1024x2304_1_0_0_1_n_n) 768 rfl rfl).symm k) = ix2 k q :=
    funext fun a => Fin.ext (by
      match a with
      | ⟨0, _⟩ => exact (rhs_contr _ _).trans hk
      | ⟨1, _⟩ => exact rhs_col _ _)
  rw [el, er, truncf_apply, shapeCast_self, shapeCast_self]

/-! ## From the blocks to the array -/

section Blocks
-- the TensorCore's buffer contents when the region is entered
variable (V : (c : Dev nD) → (b : Ref sig .tc) → Buf (Elt Ideal) ((c : Thread nD τ).loc b))

theorem zeros2 : (![0, 0] : Fin 2 → Nat) = fun _ => 0 := funext fun a => by fin_cases a <;> rfl

/-- The matrix product of a [16384,768] array and a [768,2304] array, index by index. -/
abbrev prod0 (a0 : S16384x768.Idx → Elt Ideal .f32) (a1 : S768x2304.Idx → Elt Ideal .bf16) : S16384x2304.Idx → Elt Ideal .bf16 :=
  fun i => ∑ k : Fin 768, a0 (ix2 (i 0) k) * a1 (ix2 k (i 1))

/-- The printed index maps, decided over the grid: the rows block moves with the output block along the rows and
    sits at column block 0; the second operand is one block, at (0, 0); the output block sits at column block 0. -/
theorem idx_facts0 : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) ≤ 15 :=
  (by decide +kernel : ∀ t : Fin grid0.N, _)

/-- Every one of the 16 row blocks is some point's. -/
theorem idx_onto0 : ∀ q0 : Fin 16, ∃ t : Fin cfg0.N, win0_2.index t = ![q0.val, 0] :=
  (by decide +kernel : ∀ q0 : Fin 16, ∃ t : Fin grid0.N, win0_2.index t = ![q0.val, 0])

/-- Over any two operand arrays: the products of the rows block's row `p` with the second operand's column `q`,
    summed, are the product array at the place of the output block's (`p`, `q`) — the rows block and the output
    block sit at the same row block, and every block starts at column 0 (or row 0) of its array. -/
theorem block_prod (A : S16384x768.Idx → EReal) (B : S768x2304.Idx → EReal) (t : Fin cfg0.N) (p : Fin 1024) (q : Fin 2304) :
    ∑ k : Fin 768, A (((cfg0.win 0).blk t).view.emb (ix2 p k)) * B (((cfg0.win 1).blk t).view.emb (ix2 k q))
      = prod0 A B (((cfg0.win 2).blk t).view.emb (ix2 p q)) := by
  obtain ⟨e0, e1, e2, e3, e4, e5⟩ := idx_facts0 t
  refine Finset.sum_congr rfl fun k _ => ?_
  have h0 : ((cfg0.win 0).blk t).view.emb (ix2 p k) = ix2 ((((cfg0.win 2).blk t).view.emb (ix2 p q)) 0) k := by
    funext a; apply Fin.ext
    match a with
    | ⟨0, _⟩ => show win0_0.index t (0 : Fin 2) * 1024 + 1 * p.val = win0_2.index t (0 : Fin 2) * 1024 + 1 * p.val; omega
    | ⟨1, _⟩ => show win0_0.index t (1 : Fin 2) * 768 + 1 * k.val = k.val; omega
  have h1 : ((cfg0.win 1).blk t).view.emb (ix2 k q) = ix2 k ((((cfg0.win 2).blk t).view.emb (ix2 p q)) 1) := by
    funext a; apply Fin.ext
    match a with
    | ⟨0, _⟩ => show win0_1.index t (0 : Fin 2) * 768 + 1 * k.val = k.val; omega
    | ⟨1, _⟩ => show win0_1.index t (1 : Fin 2) * 2304 + 1 * q.val = win0_2.index t (1 : Fin 2) * 2304 + 1 * q.val; omega
  exact congrArg₂ (· * ·) (congrArg A h0) (congrArg B h1)

/-- WHAT POINT `t` WRITES BACK is block `t` of the product of the operand arrays as the region finds them. -/
theorem flushed0_eq (c : Dev nD) (t : Fin cfg0.N) :
    (dat0 (F := Ideal) V c).flushed 2 t = ((cfg0.win 2).blk t).view.read (Elt Ideal) (prod0 (V c main_v0) (V c main_v9)) := by
  show (cfg0.win 2).cut (grid0.coords t) ((dat0 (F := Ideal) V c).after 2 t) = _
  rw [after0_2]
  unfold out0_2
  rw [View.canon_unit_zero zeros2]
  simp only [View.ld_unit_zero (S := S1024x768) zeros2, View.ld_unit_zero (S := S768x2304) zeros2]
  funext j
  obtain ⟨p, q, rfl⟩ : ∃ (p : Fin 1024) (q : Fin 2304), j = ix2 p q := ⟨j 0, j 1, eq_ix2 j⟩
  refine (pay0_apply (iblk0 V c 0 t) (iblk0 V c 1 t) p q).trans ?_
  exact block_prod (V c main_v0) (V c main_v9) t p q

/-- An index of the array is in point `t`'s block iff each coordinate is in the block's range on its axis. -/
theorem mem_blk0 (t : Fin cfg0.N) (i : S16384x2304.Idx) :
    i ∈ ((cfg0.win 2).blk t).view.set ↔ ∀ a : Fin 2, win0_2.index t a * S1024x2304.size a ≤ (i a).val ∧ (i a).val < win0_2.index t a * S1024x2304.size a + S1024x2304.size a := by
  show i ∈ ((View.whole main_v10).slice (win0_2.rect t)).set ↔ _
  rw [View.set_slice_whole, Rect.mem_set_unit]
  exact Iff.rfl

/-- Every index of the array is in some point's block: row `r` is in the block of the point whose row block is
    `r / 1024`, and each block spans all 2304 columns. -/
theorem cover0 (i : S16384x2304.Idx) : ∃ t : Fin cfg0.N, (cfg0.win 2).flush t = true ∧ i ∈ ((cfg0.win 2).blk t).view.set := by
  have hi0 : (i 0).val < 16384 := (i 0).isLt
  have hi1 : (i 1).val < 2304 := (i 1).isLt
  obtain ⟨t, ht⟩ := idx_onto0 ⟨(i 0).val / 1024, by omega⟩
  have q0 : win0_2.index t (0 : Fin 2) = (i 0).val / 1024 := congrFun ht 0
  have q1 : win0_2.index t (1 : Fin 2) = 0 := congrFun ht 1
  refine ⟨t, flush0_2 t, ?_⟩
  rw [mem_blk0]
  intro a
  match a with
  | ⟨0, _⟩ => show win0_2.index t (0 : Fin 2) * 1024 ≤ (i 0).val ∧ (i 0).val < win0_2.index t (0 : Fin 2) * 1024 + 1024; omega
  | ⟨1, _⟩ => show win0_2.index t (1 : Fin 2) * 2304 ≤ (i 1).val ∧ (i 1).val < win0_2.index t (1 : Fin 2) * 2304 + 2304; omega

/-- THE ARRAY after the region: the product of the two operand arrays as the region finds them. -/
theorem arr0_eq (c : Dev nD) : (dat0 (F := Ideal) V c).arrAt 2 cfg0.N = prod0 (V c main_v0) (V c main_v9) :=
  (dat0 (F := Ideal) V c).arrAt_eq_of_cover 2 (prod0 (V c main_v0) (V c main_v9)) (fun t _ => flushed0_eq V c t) cover0

/-- The product array read at row `r`, column `j`. -/
theorem prod0_apply (a0 : S16384x768.Idx → EReal) (a1 : S768x2304.Idx → EReal) (r : Fin 16384) (j : Fin 2304) :
    prod0 a0 a1 (ix2 r j) = ∑ k : Fin 768, a0 (ix2 r k) * a1 (ix2 k j) := rfl

/-- The array after the region read at row `r`, column `j`: the product of the operand arrays as the region
    finds them (`prod0_apply` reads the right side as the sum). -/
theorem arr0_apply (c : Dev nD) (r : Fin 16384) (j : Fin 2304) :
    (dat0 (F := Ideal) V c).arrAt 2 cfg0.N (ix2 r j) = prod0 (V c main_v0) (V c main_v9) (ix2 r j) :=
  congrFun (arr0_eq V c) (ix2 r j)

/-- The same with the operand arrays named as plain functions. -/
theorem arr0_apply_of (c : Dev nD) (a0 : S16384x768.Idx → EReal) (a1 : S768x2304.Idx → EReal)
    (h0 : V c main_v0 = a0) (h1 : V c main_v9 = a1) (r : Fin 16384) (j : Fin 2304) :
    (dat0 (F := Ideal) V c).arrAt 2 cfg0.N (ix2 r j) = ∑ k : Fin 768, a0 (ix2 r k) * a1 (ix2 k j) := by
  subst h0 h1
  exact congrFun (arr0_eq V c) (ix2 r j)

end Blocks

end Cert.KernelIdeal.HandValue

end
-- ==== Proof.I.Region1Steps.lean ====
/- REGION 1: the STEP EQUATIONS of the attention kernel — what the three scratch operands (running maximum, running
   sum, accumulator) and the output window hold after each point, as explicit terms over the body's payloads, the
   point's input blocks and what the point before left. Every store of the kernel is a whole-buffer store, so each
   buffer read back is the payload last stored into it, and a load that follows a store reads that store's payload. -/
import proofs.«178805_j14894946583181_2_alg».proof.Proof.I.Region1
import Idealize.ShloMosaic.Lib.Pipeline.Value

-- the rectangles here have thousands of coordinates on their long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz2 : (![0, 0] : Fin 2 → Nat) = fun _ => 0 := funext fun a => by fin_cases a <;> rfl
theorem hz3 : (![0, 0, 0] : Fin 3 → Nat) = fun _ => 0 := funext fun a => by fin_cases a <;> rfl

/-! ## The even case: reset, then update -/

/-- The running maximum after an even point: the maximum of the reset value (−∞) and the block's row maxima. -/
theorem sout1_A_0_eq (c : Dev nD) (i : grid1.Coords) (arg3 : Memref sig .tc .vmem S1x1024x768 .bf16) (harg3 : arg3.IsWhole) (arg4 : Memref sig .tc .vmem S1x1024x768 .bf16) (harg4 : arg4.IsWhole) (arg5 : Memref sig .tc .vmem S1x1024x768 .bf16) (harg5 : arg5.IsWhole) (arg6 : Memref sig .tc .vmem S1x1024x768 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x768 .f32) (harg9 : arg9.IsWhole) (hc0 : cond1_0 i) (hc1 : ¬cond1_1 i)
    (x0 : Vec F S1x1024x768 .bf16) (x1 : Vec F S1x1024x768 .bf16) (x2 : Vec F S1x1024x768 .bf16) :
    sout1_A_0 c i arg3 harg3 arg4 harg4 arg5 harg5 arg6 harg6 arg7 harg7 arg8 harg8 arg9 harg9 hc0 hc1 x0 x1 x2 = k1_pay2 (k1_pay9 x0 x1 (k1_pay4 (F := F))) := by
  unfold sout1_A_0
  rw [View.read_writes_eq_canon _ _ _ (scover1_A_0 c i arg3 harg3 arg4 harg4 arg5 harg5 arg6 harg6 arg7 harg7 arg8 harg8 arg9 harg9 hc0 hc1 x0 x1 x2)]
  unfold kernelRun1_A
  dsimp only
  sl_unfold_words
  rw [View.canon_cons_unit_zero (S := S1024x1) hz2, View.readCov_unit_zero (S := S1024x1) arg7.view hz2]
  simp only [View.readAt_eq_ld, harg3.read_unread, harg4.read_unread, harg5.read_unread, View.ld_unit_zero (S := S1x1024x768) hz3, View.ld_unit_zero (S := S1024x1) hz2, View.ld_unit_zero (S := S1024x768) hz2]

/-- The running sum after an even point. -/
theorem sout1_A_1_eq (c : Dev nD) (i : grid1.Coords) (arg3 : Memref sig .tc .vmem S1x1024x768 .bf16) (harg3 : arg3.IsWhole) (arg4 : Memref sig .tc .vmem S1x1024x768 .bf16) (harg4 : arg4.IsWhole) (arg5 : Memref sig .tc .vmem S1x1024x768 .bf16) (harg5 : arg5.IsWhole) (arg6 : Memref sig .tc .vmem S1x1024x768 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x768 .f32) (harg9 : arg9.IsWhole) (hc0 : cond1_0 i) (hc1 : ¬cond1_1 i)
    (x0 : Vec F S1x1024x768 .bf16) (x1 : Vec F S1x1024x768 .bf16) (x2 : Vec F S1x1024x768 .bf16) :
    sout1_A_1 c i arg3 harg3 arg4 harg4 arg5 harg5 arg6 harg6 arg7 harg7 arg8 harg8 arg9 harg9 hc0 hc1 x0 x1 x2 = k1_pay12 x0 x1 (k1_pay4 (F := F)) (k1_pay4 (F := F)) (k1_pay5 (F := F)) := by
  unfold sout1_A_1
  rw [View.read_writes_eq_canon _ _ _ (scover1_A_1 c i arg3 harg3 arg4 harg4 arg5 harg5 arg6 harg6 arg7 harg7 arg8 harg8 arg9 harg9 hc0 hc1 x0 x1 x2)]
  unfold kernelRun1_A
  dsimp only
  sl_unfold_words
  rw [View.canon_cons_unit_zero (S := S1024x1) hz2, View.readCov_unit_zero (S := S1024x1) arg7.view hz2, View.readCov_unit_zero (S := S1024x1) arg8.view hz2]
  simp only [View.readAt_eq_ld, harg3.read_unread, harg4.read_unread, harg5.read_unread, View.ld_unit_zero (S := S1x1024x768) hz3, View.ld_unit_zero (S := S1024x1) hz2, View.ld_unit_zero (S := S1024x768) hz2]

/-- The accumulator after an even point. -/
theorem sout1_A_2_eq (c : Dev nD) (i : grid1.Coords) (arg3 : Memref sig .tc .vmem S1x1024x768 .bf16) (harg3 : arg3.IsWhole) (arg4 : Memref sig .tc .vmem S1x1024x768 .bf16) (harg4 : arg4.IsWhole) (arg5 : Memref sig .tc .vmem S1x1024x768 .bf16) (harg5 : arg5.IsWhole) (arg6 : Memref sig .tc .vmem S1x1024x768 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x768 .f32) (harg9 : arg9.IsWhole) (hc0 : cond1_0 i) (hc1 : ¬cond1_1 i)
    (x0 : Vec F S1x1024x768 .bf16) (x1 : Vec F S1x1024x768 .bf16) (x2 : Vec F S1x1024x768 .bf16) :
    sout1_A_2 c i arg3 harg3 arg4 harg4 arg5 harg5 arg6 harg6 arg7 harg7 arg8 harg8 arg9 harg9 hc0 hc1 x0 x1 x2 = k1_pay1 (k1_pay7 x2) (k1_pay11 x0 x1 (k1_pay4 (F := F))) (k1_pay6 (F := F)) (k1_pay13 x0 x1 (k1_pay4 (F := F)) (k1_pay4 (F := F))) := by
  unfold sout1_A_2
  rw [View.read_writes_eq_canon _ _ _ (scover1_A_2 c i arg3 harg3 arg4 harg4 arg5 harg5 arg6 harg6 arg7 harg7 arg8 harg8 arg9 harg9 hc0 hc1 x0 x1 x2)]
  unfold kernelRun1_A
  dsimp only
  sl_unfold_words
  rw [View.canon_cons_unit_zero (S := S1024x768) hz2, View.readCov_unit_zero (S := S1024x1) arg7.view hz2, View.readCov_unit_zero (S := S1024x768) arg9.view hz2]
  simp only [View.readAt_eq_ld, harg3.read_unread, harg4.read_unread, harg5.read_unread, View.ld_unit_zero (S := S1x1024x768) hz3, View.ld_unit_zero (S := S1024x1) hz2, View.ld_unit_zero (S := S1024x768) hz2]

/-! ## The odd case: update over what the point before left, then store the output -/

/-- The running maximum after an odd point. -/
theorem sout1_B_0_eq (c : Dev nD) (i : grid1.Coords) (arg3 : Memref sig .tc .vmem S1x1024x768 .bf16) (harg3 : arg3.IsWhole) (arg4 : Memref sig .tc .vmem S1x1024x768 .bf16) (harg4 : arg4.IsWhole) (arg5 : Memref sig .tc .vmem S1x1024x768 .bf16) (harg5 : arg5.IsWhole) (arg6 : Memref sig .tc .vmem S1x1024x768 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x768 .f32) (harg9 : arg9.IsWhole) (hc0 : ¬cond1_0 i) (hc1 : cond1_1 i)
    (x0 : Vec F S1x1024x768 .bf16) (x1 : Vec F S1x1024x768 .bf16) (x2 : Vec F S1x1024x768 .bf16) (xs0 : Vec F S1024x1 .f32) (xs1 : Vec F S1024x1 .f32) (xs2 : Vec F S1024x768 .f32) :
    sout1_B_0 c i arg3 harg3 arg4 harg4 arg5 harg5 arg6 harg6 arg7 harg7 arg8 harg8 arg9 harg9 hc0 hc1 x0 x1 x2 xs0 xs1 xs2 = k1_pay2 (k1_pay9 x0 x1 xs0) := by
  unfold sout1_B_0
  rw [View.read_writes_eq_canon _ _ _ (scover1_B_0 c i arg3 harg3 arg4 harg4 arg5 harg5 arg6 harg6 arg7 harg7 arg8 harg8 arg9 harg9 hc0 hc1 x0 x1 x2 xs0 xs1 xs2)]
  unfold kernelRun1_B
  dsimp only
  sl_unfold_words
  rw [View.canon_unit_zero (S := S1024x1) hz2]
  simp only [View.readAt_eq_ld, harg3.read_unread, harg4.read_unread, harg5.read_unread, harg7.read_unread, harg8.read_unread, harg9.read_unread, View.ld_unit_zero (S := S1x1024x768) hz3, View.ld_unit_zero (S := S1024x1) hz2, View.ld_unit_zero (S := S1024x768) hz2]

/-- The running sum after an odd point. -/
theorem sout1_B_1_eq (c : Dev nD) (i : grid1.Coords) (arg3 : Memref sig .tc .vmem S1x1024x768 .bf16) (harg3 : arg3.IsWhole) (arg4 : Memref sig .tc .vmem S1x1024x768 .bf16) (harg4 : arg4.IsWhole) (arg5 : Memref sig .tc .vmem S1x1024x768 .bf16) (harg5 : arg5.IsWhole) (arg6 : Memref sig .tc .vmem S1x1024x768 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x768 .f32) (harg9 : arg9.IsWhole) (hc0 : ¬cond1_0 i) (hc1 : cond1_1 i)
    (x0 : Vec F S1x1024x768 .bf16) (x1 : Vec F S1x1024x768 .bf16) (x2 : Vec F S1x1024x768 .bf16) (xs0 : Vec F S1024x1 .f32) (xs1 : Vec F S1024x1 .f32) (xs2 : Vec F S1024x768 .f32) :
    sout1_B_1 c i arg3 harg3 arg4 harg4 arg5 harg5 arg6 harg6 arg7 harg7 arg8 harg8 arg9 harg9 hc0 hc1 x0 x1 x2 xs0 xs1 xs2 = k1_pay12 x0 x1 xs0 xs0 xs1 := by
  unfold sout1_B_1
  rw [View.read_writes_eq_canon _ _ _ (scover1_B_1 c i arg3 harg3 arg4 harg4 arg5 harg5 arg6 harg6 arg7 harg7 arg8 harg8 arg9 harg9 hc0 hc1 x0 x1 x2 xs0 xs1 xs2)]
  unfold kernelRun1_B
  dsimp only
  sl_unfold_words
  rw [View.canon_unit_zero (S := S1024x1) hz2]
  simp only [View.readAt_eq_ld, harg3.read_unread, harg4.read_unread, harg5.read_unread, harg7.read_unread, harg8.read_unread, harg9.read_unread, View.ld_unit_zero (S := S1x1024x768) hz3, View.ld_unit_zero (S := S1024x1) hz2, View.ld_unit_zero (S := S1024x768) hz2]

/-- The accumulator after an odd point. -/
theorem sout1_B_2_eq (c : Dev nD) (i : grid1.Coords) (arg3 : Memref sig .tc .vmem S1x1024x768 .bf16) (harg3 : arg3.IsWhole) (arg4 : Memref sig .tc .vmem S1x1024x768 .bf16) (harg4 : arg4.IsWhole) (arg5 : Memref sig .tc .vmem S1x1024x768 .bf16) (harg5 : arg5.IsWhole) (arg6 : Memref sig .tc .vmem S1x1024x768 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x768 .f32) (harg9 : arg9.IsWhole) (hc0 : ¬cond1_0 i) (hc1 : cond1_1 i)
    (x0 : Vec F S1x1024x768 .bf16) (x1 : Vec F S1x1024x768 .bf16) (x2 : Vec F S1x1024x768 .bf16) (xs0 : Vec F S1024x1 .f32) (xs1 : Vec F S1024x1 .f32) (xs2 : Vec F S1024x768 .f32) :
    sout1_B_2 c i arg3 harg3 arg4 harg4 arg5 harg5 arg6 harg6 arg7 harg7 arg8 harg8 arg9 harg9 hc0 hc1 x0 x1 x2 xs0 xs1 xs2 = k1_pay1 (k1_pay7 x2) (k1_pay11 x0 x1 xs0) xs2 (k1_pay13 x0 x1 xs0 xs0) := by
  unfold sout1_B_2
  rw [View.read_writes_eq_canon _ _ _ (scover1_B_2 c i arg3 harg3 arg4 harg4 arg5 harg5 arg6 harg6 arg7 harg7 arg8 harg8 arg9 harg9 hc0 hc1 x0 x1 x2 xs0 xs1 xs2)]
  unfold kernelRun1_B
  dsimp only
  sl_unfold_words
  rw [View.canon_unit_zero (S := S1024x768) hz2]
  simp only [View.readAt_eq_ld, harg3.read_unread, harg4.read_unread, harg5.read_unread, harg7.read_unread, harg8.read_unread, harg9.read_unread, View.ld_unit_zero (S := S1x1024x768) hz3, View.ld_unit_zero (S := S1024x1) hz2, View.ld_unit_zero (S := S1024x768) hz2]

/-- The output window's buffer after an odd point: the new accumulator divided by the new running sum. -/
theorem out1_B_3_eq (c : Dev nD) (i : grid1.Coords) (arg3 : Memref sig .tc .vmem S1x1024x768 .bf16) (harg3 : arg3.IsWhole) (arg4 : Memref sig .tc .vmem S1x1024x768 .bf16) (harg4 : arg4.IsWhole) (arg5 : Memref sig .tc .vmem S1x1024x768 .bf16) (harg5 : arg5.IsWhole) (arg6 : Memref sig .tc .vmem S1x1024x768 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x768 .f32) (harg9 : arg9.IsWhole) (hc0 : ¬cond1_0 i) (hc1 : cond1_1 i)
    (x0 : Vec F S1x1024x768 .bf16) (x1 : Vec F S1x1024x768 .bf16) (x2 : Vec F S1x1024x768 .bf16) (xs0 : Vec F S1024x1 .f32) (xs1 : Vec F S1024x1 .f32) (xs2 : Vec F S1024x768 .f32) :
    out1_B_3 c i arg3 harg3 arg4 harg4 arg5 harg5 arg6 harg6 arg7 harg7 arg8 harg8 arg9 harg9 hc0 hc1 x0 x1 x2 xs0 xs1 xs2 = k1_pay3 (k1_pay1 (k1_pay7 x2) (k1_pay11 x0 x1 xs0) xs2 (k1_pay13 x0 x1 xs0 xs0)) (k1_pay12 x0 x1 xs0 xs0 xs1) := by
  unfold out1_B_3
  rw [View.read_writes_eq_canon _ _ _ (cover1_B_3 c i arg3 harg3 arg4 harg4 arg5 harg5 arg6 harg6 arg7 harg7 arg8 harg8 arg9 harg9 hc0 hc1 x0 x1 x2 xs0 xs1 xs2)]
  unfold kernelRun1_B
  dsimp only
  sl_unfold_words
  rw [View.canon_unit_zero (S := S1x1024x768) hz3, View.readCov_unit_zero (S := S1024x768) arg9.view hz2, View.readCov_unit_zero (S := S1024x1) arg8.view hz2]
  simp only [View.readAt_eq_ld, harg3.read_unread, harg4.read_unread, harg5.read_unread, harg7.read_unread, harg8.read_unread, harg9.read_unread, View.ld_unit_zero (S := S1x1024x768) hz3, View.ld_unit_zero (S := S1024x1) hz2, View.ld_unit_zero (S := S1024x768) hz2]

section Region
variable (V : (c : Dev nD) → (b : Ref sig .tc) → Buf (Elt F) ((c : Thread nD τ).loc b))

/-! ## The step equations -/

/-- After an even point the scratch operands hold the update of their reset values by the point's blocks. -/
theorem outsAt1_even (c : Dev nD) (t : Fin cfg1.N) (h : t.val % 2 = 0) :
    (outsAt1 V c t.val t.isLt).2 =
      (k1_pay2 (k1_pay9 (iblk1 V c 0 t) (iblk1 V c 1 t) (k1_pay4 (F := F))),
       k1_pay12 (iblk1 V c 0 t) (iblk1 V c 1 t) (k1_pay4 (F := F)) (k1_pay4 (F := F)) (k1_pay5 (F := F)),
       k1_pay1 (k1_pay7 (iblk1 V c 2 t)) (k1_pay11 (iblk1 V c 0 t) (iblk1 V c 1 t) (k1_pay4 (F := F))) (k1_pay6 (F := F)) (k1_pay13 (iblk1 V c 0 t) (iblk1 V c 1 t) (k1_pay4 (F := F)) (k1_pay4 (F := F)))) := by
  rw [outsAt1_A V c t h]
  unfold outsA
  dsimp only
  exact congrArg₂ Prod.mk
    (sout1_A_0_eq c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) _ _ (iblk1 V c 0 t) (iblk1 V c 1 t) (iblk1 V c 2 t))
    (congrArg₂ Prod.mk
      (sout1_A_1_eq c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) _ _ (iblk1 V c 0 t) (iblk1 V c 1 t) (iblk1 V c 2 t))
      (sout1_A_2_eq c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) _ _ (iblk1 V c 0 t) (iblk1 V c 1 t) (iblk1 V c 2 t)))

/-- After an odd point the scratch operands hold the update, by the point's blocks, of what the point before left,
    and the output window's buffer the new accumulator divided by the new running sum. -/
theorem outsAt1_odd (c : Dev nD) (t : Fin cfg1.N) (h : t.val % 2 = 1) :
    outsAt1 V c t.val t.isLt =
      (k1_pay3 (k1_pay1 (k1_pay7 (iblk1 V c 2 t)) (k1_pay11 (iblk1 V c 0 t) (iblk1 V c 1 t) (outsAt1 V c (t.val - 1) (Nat.lt_of_le_of_lt (Nat.sub_le _ _) t.isLt)).2.1) (outsAt1 V c (t.val - 1) (Nat.lt_of_le_of_lt (Nat.sub_le _ _) t.isLt)).2.2.2 (k1_pay13 (iblk1 V c 0 t) (iblk1 V c 1 t) (outsAt1 V c (t.val - 1) (Nat.lt_of_le_of_lt (Nat.sub_le _ _) t.isLt)).2.1 (outsAt1 V c (t.val - 1) (Nat.lt_of_le_of_lt (Nat.sub_le _ _) t.isLt)).2.1)) (k1_pay12 (iblk1 V c 0 t) (iblk1 V c 1 t) (outsAt1 V c (t.val - 1) (Nat.lt_of_le_of_lt (Nat.sub_le _ _) t.isLt)).2.1 (outsAt1 V c (t.val - 1) (Nat.lt_of_le_of_lt (Nat.sub_le _ _) t.isLt)).2.1 (outsAt1 V c (t.val - 1) (Nat.lt_of_le_of_lt (Nat.sub_le _ _) t.isLt)).2.2.1),
       k1_pay2 (k1_pay9 (iblk1 V c 0 t) (iblk1 V c 1 t) (outsAt1 V c (t.val - 1) (Nat.lt_of_le_of_lt (Nat.sub_le _ _) t.isLt)).2.1),
       k1_pay12 (iblk1 V c 0 t) (iblk1 V c 1 t) (outsAt1 V c (t.val - 1) (Nat.lt_of_le_of_lt (Nat.sub_le _ _) t.isLt)).2.1 (outsAt1 V c (t.val - 1) (Nat.lt_of_le_of_lt (Nat.sub_le _ _) t.isLt)).2.1 (outsAt1 V c (t.val - 1) (Nat.lt_of_le_of_lt (Nat.sub_le _ _) t.isLt)).2.2.1,
       k1_pay1 (k1_pay7 (iblk1 V c 2 t)) (k1_pay11 (iblk1 V c 0 t) (iblk1 V c 1 t) (outsAt1 V c (t.val - 1) (Nat.lt_of_le_of_lt (Nat.sub_le _ _) t.isLt)).2.1) (outsAt1 V c (t.val - 1) (Nat.lt_of_le_of_lt (Nat.sub_le _ _) t.isLt)).2.2.2 (k1_pay13 (iblk1 V c 0 t) (iblk1 V c 1 t) (outsAt1 V c (t.val - 1) (Nat.lt_of_le_of_lt (Nat.sub_le _ _) t.isLt)).2.1 (outsAt1 V c (t.val - 1) (Nat.lt_of_le_of_lt (Nat.sub_le _ _) t.isLt)).2.1)) := by
  rw [outsAt1_B V c t h]
  unfold outsB
  exact congrArg₂ Prod.mk
    (out1_B_3_eq c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) _ _ (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2)
    (congrArg₂ Prod.mk
      (sout1_B_0_eq c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) _ _ (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2)
      (congrArg₂ Prod.mk
        (sout1_B_1_eq c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) _ _ (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2)
        (sout1_B_2_eq c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) _ _ (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2)))

end Region

end Cert.KernelIdeal.Hand

end
-- ==== Proof.LibOnlineSoftmax.lean ====
/-
  GENERAL LEMMAS — softmax pooling in its running (online) form against its plain two-pass form, on the extended
  reals.  Imports Mathlib and the ideal float instance only.

  Over the reals.  A softmax-weighted average  (∑ₛ f s · e^(p s − M)) / (∑ₛ e^(p s − M))  does not depend on the
  shift M.  The running form keeps, over consecutive blocks of positions, a running shift, a running normaliser and
  a running weighted sum, and rescales the two sums by e^(M₀ − M₁) when the shift moves from M₀ to M₁; since
  e^(M₀ − M₁) · e^(p − M₀) = e^(p − M₁), what it ends with is the same quotient at the last shift, hence at any
  shift (`pool_real`, for two blocks).  The shifts are arbitrary reals: that they are maxima is never used.

  On the extended reals.  `newMax`, `newSum`, `newAcc` are one step of the running form on one row; `onePass` is
  two steps from the state (−∞, 0, 0) followed by the division; `twoPass` is the plain form.  On rows of REAL
  numbers every quantity is a real number — a nonempty row of reals has a real maximum (`rowMax_real`), a step from
  a real state is the real step (`newSum_coe`, `newAcc_coe`; from (−∞, 0, 0): `newSum_first`, `newAcc_first`), the
  normalisers are positive — so the two forms agree (`onePass_eq_twoPass`).  With an infinite entry they need not:
  the rescaling moves a factor across a sum.  The per-step lemmas serve a running form of any number of steps.

  Also here: a finite sum of reals taken in the extended reals is the real sum (`coe_sum`); a maximum folded from
  −∞ over finitely many reals is real as soon as there is one of them (`fold_max_real`).
-/
import Mathlib
import Idealize.ShloMosaic.PureOps.Ideal

noncomputable section

namespace Cert.Pooling

open Idealize.ShloMosaic Finset

/-! ## Over the reals -/

/-- A finite sum of real numbers, taken in the extended reals, is the real sum. -/
theorem coe_sum {ι : Type*} (s : Finset ι) (g : ι → ℝ) :
    ∑ i ∈ s, ((g i : ℝ) : EReal) = ((∑ i ∈ s, g i : ℝ) : EReal) := by
  classical
  induction s using Finset.induction_on with
  | empty => simp
  | insert a s ha ih => rw [Finset.sum_insert ha, Finset.sum_insert ha, ih, EReal.coe_add]

/-- A maximum folded over real numbers from a start that is −∞ or real is −∞ or real. -/
theorem fold_max_bot_or_real {ι : Type*} (s : Finset ι) (g : ι → ℝ) (b : EReal) (hb : b = ⊥ ∨ ∃ r : ℝ, b = r) :
    s.fold max b (fun i => ((g i : ℝ) : EReal)) = ⊥ ∨ ∃ r : ℝ, s.fold max b (fun i => ((g i : ℝ) : EReal)) = r := by
  classical
  induction s using Finset.induction_on with
  | empty => simpa using hb
  | insert a s ha ih =>
    rw [Finset.fold_insert ha]
    right
    rcases ih with h | ⟨r, h⟩
    · exact ⟨g a, by rw [h]; exact max_eq_left bot_le⟩
    · exact ⟨max (g a) r, by rw [h]; exact (EReal.coe_strictMono.monotone.map_max).symm⟩

/-- Over at least one real number, the maximum folded from −∞ is a real number. -/
theorem fold_max_real {ι : Type*} (s : Finset ι) (hs : s.Nonempty) (g : ι → ℝ) :
    ∃ r : ℝ, s.fold max (⊥ : EReal) (fun i => ((g i : ℝ) : EReal)) = r := by
  classical
  obtain ⟨a, ha⟩ := hs
  rw [← Finset.insert_erase ha, Finset.fold_insert (Finset.notMem_erase a s)]
  rcases fold_max_bot_or_real (s.erase a) g ⊥ (Or.inl rfl) with h | ⟨r, h⟩
  · exact ⟨g a, by rw [h]; exact max_eq_left bot_le⟩
  · exact ⟨max (g a) r, by rw [h]; exact (EReal.coe_strictMono.monotone.map_max).symm⟩

/-- THE IDENTITY.  Two blocks of positions (ι₀ then ι₁) with scores p and features f.  The one-pass form — the
    first block's sums at shift M₀ rescaled by e^(M₀ − M₁), plus the second block's at shift M₁, numerator over
    denominator — is the two-pass softmax average at any shift M. -/
theorem pool_real {ι₀ ι₁ : Type*} [Fintype ι₀] [Fintype ι₁] [Nonempty ι₀] (p0 f0 : ι₀ → ℝ) (p1 f1 : ι₁ → ℝ)
    (M0 M1 M : ℝ) :
    (Real.exp (M0 - M1) * (∑ s, Real.exp (p0 s - M0) * f0 s) + ∑ s, Real.exp (p1 s - M1) * f1 s)
      / (Real.exp (M0 - M1) * (∑ s, Real.exp (p0 s - M0)) + ∑ s, Real.exp (p1 s - M1))
    = ∑ s, f0 s * (Real.exp (p0 s - M) / (∑ s, Real.exp (p0 s - M) + ∑ s, Real.exp (p1 s - M)))
      + ∑ s, f1 s * (Real.exp (p1 s - M) / (∑ s, Real.exp (p0 s - M) + ∑ s, Real.exp (p1 s - M))) := by
  have h0 : ∀ s, Real.exp (M0 - M1) * Real.exp (p0 s - M0) = Real.exp (M - M1) * Real.exp (p0 s - M) := fun s => by
    rw [← Real.exp_add, ← Real.exp_add]; congr 1; ring
  have h1 : ∀ s, Real.exp (p1 s - M1) = Real.exp (M - M1) * Real.exp (p1 s - M) := fun s => by
    rw [← Real.exp_add]; congr 1; ring
  have hZ : 0 < ∑ s, Real.exp (p0 s - M) + ∑ s, Real.exp (p1 s - M) := by
    have a : 0 < ∑ s, Real.exp (p0 s - M) := Finset.sum_pos (fun s _ => Real.exp_pos _) Finset.univ_nonempty
    have b : 0 ≤ ∑ s, Real.exp (p1 s - M) := Finset.sum_nonneg (fun s _ => (Real.exp_pos _).le)
    linarith
  have hnum : Real.exp (M0 - M1) * (∑ s, Real.exp (p0 s - M0) * f0 s) + ∑ s, Real.exp (p1 s - M1) * f1 s
      = Real.exp (M - M1) * (∑ s, f0 s * Real.exp (p0 s - M) + ∑ s, f1 s * Real.exp (p1 s - M)) := by
    rw [Finset.mul_sum, mul_add, Finset.mul_sum, Finset.mul_sum]
    congr 1
    · refine Finset.sum_congr rfl fun s _ => ?_
      rw [← mul_assoc, h0 s]; ring
    · refine Finset.sum_congr rfl fun s _ => ?_
      rw [h1 s]; ring
  have hden : Real.exp (M0 - M1) * (∑ s, Real.exp (p0 s - M0)) + ∑ s, Real.exp (p1 s - M1)
      = Real.exp (M - M1) * (∑ s, Real.exp (p0 s - M) + ∑ s, Real.exp (p1 s - M)) := by
    rw [Finset.mul_sum, mul_add, Finset.mul_sum, Finset.mul_sum]
    congr 1
    · exact Finset.sum_congr rfl fun s _ => h0 s
    · exact Finset.sum_congr rfl fun s _ => h1 s
  rw [hnum, hden, mul_div_mul_left _ _ (Real.exp_pos _).ne', add_div, Finset.sum_div, Finset.sum_div]
  congr 1 <;> exact Finset.sum_congr rfl fun s _ => (mul_div_assoc _ _ _)

/-! ## The two forms on the extended reals -/

variable {n : ℕ}

/-- A row's maximum, folded from −∞. -/
def rowMax (p : Fin n → EReal) : EReal := (Finset.univ : Finset (Fin n)).fold max ⊥ p

/-- The shift after a step: the larger of the shift before it and the row's maximum. -/
def newMax (m : EReal) (p : Fin n → EReal) : EReal := max m (rowMax p)

/-- The normaliser after a step: the old one rescaled to the new shift, plus the row's weights. -/
def newSum (m l : EReal) (p : Fin n → EReal) : EReal :=
  Ideal.exp (m - newMax m p) * l + ∑ s, Ideal.exp (p s - newMax m p)

/-- The weighted sum after a step: the old one rescaled to the new shift, plus the row's weighted features. -/
def newAcc (m a : EReal) (p f : Fin n → EReal) : EReal :=
  Ideal.exp (m - newMax m p) * a + ∑ s, Ideal.exp (p s - newMax m p) * f s

/-- The running form over two half rows, from the state (−∞, 0, 0). -/
def onePass (p0 f0 p1 f1 : Fin n → EReal) : EReal :=
  Ideal.div (newAcc (newMax ⊥ p0) (newAcc ⊥ 0 p0 f0) p1 f1) (newSum (newMax ⊥ p0) (newSum ⊥ 0 p0) p1)

/-- The plain form over one row. -/
def twoPass {N : ℕ} (p f : Fin N → EReal) : EReal :=
  ∑ s, f s * Ideal.div (Ideal.exp (p s - max ⊥ (rowMax p))) (∑ s', Ideal.exp (p s' - max ⊥ (rowMax p)))

/-! ## On real rows everything is real -/

theorem exp_sub_coe (x M : ℝ) : Ideal.exp ((x : EReal) - (M : EReal)) = ((Real.exp (x - M) : ℝ) : EReal) := by
  rw [← EReal.coe_sub]; rfl

theorem div_coe_coe (a : ℝ) {l : ℝ} (hl : l ≠ 0) : Ideal.div (a : EReal) (l : EReal) = ((a / l : ℝ) : EReal) := by
  rw [Ideal.div_coe hl, ← EReal.coe_mul, mul_one_div]

/-- A nonempty row of reals has a real maximum. -/
theorem rowMax_real (hn : 0 < n) (p : Fin n → EReal) (pr : Fin n → ℝ) (hp : ∀ s, p s = pr s) :
    ∃ M : ℝ, rowMax p = M := by
  obtain rfl : p = fun s => ((pr s : ℝ) : EReal) := funext hp
  exact fold_max_real Finset.univ ⟨⟨0, hn⟩, Finset.mem_univ _⟩ pr

theorem sum_exp_coe (p : Fin n → EReal) (pr : Fin n → ℝ) (hp : ∀ s, p s = pr s) (M : ℝ) :
    ∑ s, Ideal.exp (p s - (M : EReal)) = ((∑ s, Real.exp (pr s - M) : ℝ) : EReal) := by
  rw [← coe_sum]
  exact Finset.sum_congr rfl fun s _ => by rw [hp s, exp_sub_coe]

theorem sum_exp_mul_coe (p f : Fin n → EReal) (pr fr : Fin n → ℝ) (hp : ∀ s, p s = pr s) (hf : ∀ s, f s = fr s)
    (M : ℝ) :
    ∑ s, Ideal.exp (p s - (M : EReal)) * f s = ((∑ s, Real.exp (pr s - M) * fr s : ℝ) : EReal) := by
  rw [← coe_sum]
  exact Finset.sum_congr rfl fun s _ => by rw [hp s, hf s, exp_sub_coe, EReal.coe_mul]

/-- The first step, from (−∞, 0, 0): the rescaled old state contributes 0 whatever the factor. -/
theorem newSum_first (p : Fin n → EReal) (pr : Fin n → ℝ) (hp : ∀ s, p s = pr s) {M : ℝ} (hM : rowMax p = M) :
    newSum ⊥ 0 p = ((∑ s, Real.exp (pr s - M) : ℝ) : EReal) := by
  unfold newSum newMax
  rw [max_eq_right (bot_le : (⊥ : EReal) ≤ rowMax p), hM, mul_zero, zero_add]
  exact sum_exp_coe p pr hp M

theorem newAcc_first (p f : Fin n → EReal) (pr fr : Fin n → ℝ) (hp : ∀ s, p s = pr s) (hf : ∀ s, f s = fr s)
    {M : ℝ} (hM : rowMax p = M) :
    newAcc ⊥ 0 p f = ((∑ s, Real.exp (pr s - M) * fr s : ℝ) : EReal) := by
  unfold newAcc newMax
  rw [max_eq_right (bot_le : (⊥ : EReal) ≤ rowMax p), hM, mul_zero, zero_add]
  exact sum_exp_mul_coe p f pr fr hp hf M

/-- A later step, from a real state. -/
theorem newSum_coe (m l : ℝ) (p : Fin n → EReal) (pr : Fin n → ℝ) (hp : ∀ s, p s = pr s) {M : ℝ}
    (hM : newMax (m : EReal) p = M) :
    newSum (m : EReal) (l : EReal) p = ((Real.exp (m - M) * l + ∑ s, Real.exp (pr s - M) : ℝ) : EReal) := by
  unfold newSum
  rw [hM, exp_sub_coe, ← EReal.coe_mul, sum_exp_coe p pr hp M, ← EReal.coe_add]

theorem newAcc_coe (m a : ℝ) (p f : Fin n → EReal) (pr fr : Fin n → ℝ) (hp : ∀ s, p s = pr s)
    (hf : ∀ s, f s = fr s) {M : ℝ} (hM : newMax (m : EReal) p = M) :
    newAcc (m : EReal) (a : EReal) p f = ((Real.exp (m - M) * a + ∑ s, Real.exp (pr s - M) * fr s : ℝ) : EReal) := by
  unfold newAcc
  rw [hM, exp_sub_coe, ← EReal.coe_mul, sum_exp_mul_coe p f pr fr hp hf M, ← EReal.coe_add]

/-- The running form on real half rows is the real running quotient, at two real shifts. -/
theorem onePass_coe (hn : 0 < n) (p0 f0 p1 f1 : Fin n → EReal) (pr0 fr0 pr1 fr1 : Fin n → ℝ)
    (hp0 : ∀ s, p0 s = pr0 s) (hf0 : ∀ s, f0 s = fr0 s) (hp1 : ∀ s, p1 s = pr1 s) (hf1 : ∀ s, f1 s = fr1 s) :
    ∃ M0 M1 : ℝ, onePass p0 f0 p1 f1
      = (((Real.exp (M0 - M1) * (∑ s, Real.exp (pr0 s - M0) * fr0 s) + ∑ s, Real.exp (pr1 s - M1) * fr1 s)
          / (Real.exp (M0 - M1) * (∑ s, Real.exp (pr0 s - M0)) + ∑ s, Real.exp (pr1 s - M1)) : ℝ) : EReal) := by
  obtain ⟨M0, hM0⟩ := rowMax_real hn p0 pr0 hp0
  obtain ⟨R1, hR1⟩ := rowMax_real hn p1 pr1 hp1
  have hm0 : newMax ⊥ p0 = (M0 : EReal) := by
    unfold newMax; rw [max_eq_right (bot_le : (⊥ : EReal) ≤ rowMax p0), hM0]
  have hm1 : newMax (M0 : EReal) p1 = ((max M0 R1 : ℝ) : EReal) := by
    unfold newMax; rw [hR1]; exact (EReal.coe_strictMono.monotone.map_max).symm
  refine ⟨M0, max M0 R1, ?_⟩
  have hL0 : 0 < ∑ s, Real.exp (pr0 s - M0) :=
    Finset.sum_pos (fun s _ => Real.exp_pos _) ⟨⟨0, hn⟩, Finset.mem_univ _⟩
  have hS1 : 0 ≤ ∑ s, Real.exp (pr1 s - max M0 R1) := Finset.sum_nonneg fun s _ => (Real.exp_pos _).le
  have hpos : 0 < Real.exp (M0 - max M0 R1) * (∑ s, Real.exp (pr0 s - M0)) + ∑ s, Real.exp (pr1 s - max M0 R1) := by
    have := mul_pos (Real.exp_pos (M0 - max M0 R1)) hL0
    linarith
  unfold onePass
  rw [hm0, newSum_first p0 pr0 hp0 hM0, newAcc_first p0 f0 pr0 fr0 hp0 hf0 hM0,
    newSum_coe M0 _ p1 pr1 hp1 hm1, newAcc_coe M0 _ p1 f1 pr1 fr1 hp1 hf1 hm1, div_coe_coe _ hpos.ne']

/-- The plain form on a real row is the real softmax average, at a real shift. -/
theorem twoPass_coe {N : ℕ} (hN : 0 < N) (p f : Fin N → EReal) (pr fr : Fin N → ℝ) (hp : ∀ s, p s = pr s)
    (hf : ∀ s, f s = fr s) :
    ∃ M : ℝ, twoPass p f = ((∑ s, fr s * (Real.exp (pr s - M) / ∑ s', Real.exp (pr s' - M)) : ℝ) : EReal) := by
  obtain ⟨M, hM⟩ := rowMax_real hN p pr hp
  refine ⟨M, ?_⟩
  have hZ : 0 < ∑ s', Real.exp (pr s' - M) :=
    Finset.sum_pos (fun s _ => Real.exp_pos _) ⟨⟨0, hN⟩, Finset.mem_univ _⟩
  unfold twoPass
  rw [← coe_sum, max_eq_right (bot_le : (⊥ : EReal) ≤ rowMax p), hM, sum_exp_coe p pr hp M]
  exact Finset.sum_congr rfl fun s _ => by rw [hp s, hf s, exp_sub_coe, div_coe_coe _ hZ.ne', EReal.coe_mul]

/-- THE LAW.  On a row of real scores and real features cut into two halves, the running form over the halves is
    the plain form over the row. -/
theorem onePass_eq_twoPass (hn : 0 < n) (p f : Fin (n + n) → EReal) (hp : ∀ s, ∃ r : ℝ, p s = r)
    (hf : ∀ s, ∃ r : ℝ, f s = r) :
    onePass (fun s => p (Fin.castAdd n s)) (fun s => f (Fin.castAdd n s))
        (fun s => p (Fin.natAdd n s)) (fun s => f (Fin.natAdd n s))
      = twoPass p f := by
  choose pr hpr using hp
  choose fr hfr using hf
  haveI : Nonempty (Fin n) := ⟨⟨0, hn⟩⟩
  obtain ⟨M0, M1, h1⟩ := onePass_coe hn (fun s => p (Fin.castAdd n s)) (fun s => f (Fin.castAdd n s))
    (fun s => p (Fin.natAdd n s)) (fun s => f (Fin.natAdd n s))
    (fun s => pr (Fin.castAdd n s)) (fun s => fr (Fin.castAdd n s))
    (fun s => pr (Fin.natAdd n s)) (fun s => fr (Fin.natAdd n s))
    (fun s => hpr _) (fun s => hfr _) (fun s => hpr _) (fun s => hfr _)
  obtain ⟨M, h2⟩ := twoPass_coe (by omega) p f pr fr hpr hfr
  rw [h1, h2]
  congr 1
  rw [pool_real (fun s => pr (Fin.castAdd n s)) (fun s => fr (Fin.castAdd n s))
    (fun s => pr (Fin.natAdd n s)) (fun s => fr (Fin.natAdd n s)) M0 M1 M]
  simp only [Fin.sum_univ_add]

end Cert.Pooling

end
-- ==== Proof.Val1Pay.lean ====
/- The attention kernel's payloads read at an index, at the ideal instance: the scores of one query row against the
   keys of a block, the running maximum, normaliser and weighted sum after one step on that row, the final quotient,
   and the values the scratch is reset to. -/
import proofs.«178805_j14894946583181_2_alg».proof.Proof.Gen.KernelIdeal.Skeleton
import proofs.«178805_j14894946583181_2_alg».proof.Proof.LibOnlineSoftmax
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.HandValue

open Cert.KernelIdeal Cert.KernelIdeal.Gen
open Idealize.ShloMosaic Idealize.ShloMosaic.ValueIdx
open scoped BigOperators

/-! ## Two layout operations read at an index -/

section Layout
variable {α : Type}

/-- A column kept after a reduction: an `[a]` array cast to `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column broadcast along the rows: an `[a, 1]` array broadcast to `[a, b]` reads, at `(p, c)`, the operand at
    `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-! ## The two block products -/

/-- The product of the query block with the transposed key block contracts the query's column axis with the transposed keys' row axis. -/
theorem mm_qk_lhs_row (j : S1024x1024.Idx) (q : (dot_S1024x768_S768x1024_S1024x1024_1_0_0_1_n_n).contr.Idx) : ((dot_S1024x768_S768x1024_S1024x1024_1_0_0_1_n_n).lhsIdx j q 0).val = (j 0).val := by
  unfold DotDims.lhsIdx
  rw [dif_neg (show ¬(0 : Fin S1024x768.rank) ∈ (dot_S1024x768_S768x1024_S1024x1024_1_0_0_1_n_n).lhsBatch by decide), dif_pos (show (0 : Fin S1024x768.rank) ∈ (dot_S1024x768_S768x1024_S1024x1024_1_0_0_1_n_n).lhsNonContracting by decide)]
  rfl
theorem mm_qk_lhs_contr (j : S1024x1024.Idx) (q : (dot_S1024x768_S768x1024_S1024x1024_1_0_0_1_n_n).contr.Idx) : ((dot_S1024x768_S768x1024_S1024x1024_1_0_0_1_n_n).lhsIdx j q 1).val = (q ⟨0, by decide⟩).val :=
  (dot_S1024x768_S768x1024_S1024x1024_1_0_0_1_n_n).lhsIdx_val_of_single rfl j q
theorem mm_qk_rhs_contr (j : S1024x1024.Idx) (q : (dot_S1024x768_S768x1024_S1024x1024_1_0_0_1_n_n).contr.Idx) : ((dot_S1024x768_S768x1024_S1024x1024_1_0_0_1_n_n).rhsIdx j q 0).val = (q ⟨0, by decide⟩).val :=
  (dot_S1024x768_S768x1024_S1024x1024_1_0_0_1_n_n).rhsIdx_val_of_single rfl j q
theorem mm_qk_rhs_col (j : S1024x1024.Idx) (q : (dot_S1024x768_S768x1024_S1024x1024_1_0_0_1_n_n).contr.Idx) : ((dot_S1024x768_S768x1024_S1024x1024_1_0_0_1_n_n).rhsIdx j q 1).val = (j 1).val := by
  unfold DotDims.rhsIdx
  rw [dif_neg (show ¬(1 : Fin S768x1024.rank) ∈ (dot_S1024x768_S768x1024_S1024x1024_1_0_0_1_n_n).rhsBatch by decide), dif_pos (show (1 : Fin S768x1024.rank) ∈ (dot_S1024x768_S768x1024_S1024x1024_1_0_0_1_n_n).rhsNonContracting by decide)]
  rfl
/-- The block product into the zero accumulator, at row `p`, column `c`: the sum over the 768 contraction
    positions of the operands' products. -/
theorem mm_qk_apply (x : FVec Ideal S1024x768 .bf16) (y : FVec Ideal S768x1024 .bf16) (p : Fin 1024) (c : Fin 1024) :
    FloatOps.matmul (dot_S1024x768_S768x1024_S1024x1024_1_0_0_1_n_n) none x y (constant S1024x1024 .f32 0x00000000#32) (ix2 p c) = ∑ k : Fin 768, x (ix2 p k) * y (ix2 k c) := by
  rw [Ideal.matmul_constant_zero_apply, ← Equiv.sum_comp (contrEquiv1 (dot_S1024x768_S768x1024_S1024x1024_1_0_0_1_n_n) 768 rfl rfl).symm]
  refine Finset.sum_congr rfl fun k _ => ?_
  have hk := contrEquiv1_symm_val (dot_S1024x768_S768x1024_S1024x1024_1_0_0_1_n_n) 768 rfl rfl k
  have el : (dot_S1024x768_S768x1024_S1024x1024_1_0_0_1_n_n).lhsIdx (ix2 p c) ((contrEquiv1 (dot_S1024x768_S768x1024_S1024x1024_1_0_0_1_n_n) 768 rfl rfl).symm k) = ix2 p k :=
    funext fun a => Fin.ext (by
      match a with
      | ⟨0, _⟩ => exact mm_qk_lhs_row _ _
      | ⟨1, _⟩ => exact (mm_qk_lhs_contr _ _).trans hk)
  have er : (dot_S1024x768_S768x1024_S1024x1024_1_0_0_1_n_n).rhsIdx (ix2 p c) ((contrEquiv1 (dot_S1024x768_S768x1024_S1024x1024_1_0_0_1_n_n) 768 rfl rfl).symm k) = ix2 k c :=
    funext fun a => Fin.ext (by
      match a with
      | ⟨0, _⟩ => exact (mm_qk_rhs_contr _ _).trans hk
      | ⟨1, _⟩ => exact mm_qk_rhs_col _ _)
  rw [el, er]

/-- The product of the weights with the value block contracts the weights' column axis with the values' row axis. -/
theorem mm_pv_lhs_row (j : S1024x768.Idx) (q : (dot_S1024x1024_S1024x768_S1024x768_1_0_0_1_n_n).contr.Idx) : ((dot_S1024x1024_S1024x768_S1024x768_1_0_0_1_n_n).lhsIdx j q 0).val = (j 0).val := by
  unfold DotDims.lhsIdx
  rw [dif_neg (show ¬(0 : Fin S1024x1024.rank) ∈ (dot_S1024x1024_S1024x768_S1024x768_1_0_0_1_n_n).lhsBatch by decide), dif_pos (show (0 : Fin S1024x1024.rank) ∈ (dot_S1024x1024_S1024x768_S1024x768_1_0_0_1_n_n).lhsNonContracting by decide)]
  rfl
theorem mm_pv_lhs_contr (j : S1024x768.Idx) (q : (dot_S1024x1024_S1024x768_S1024x768_1_0_0_1_n_n).contr.Idx) : ((dot_S1024x1024_S1024x768_S1024x768_1_0_0_1_n_n).lhsIdx j q 1).val = (q ⟨0, by decide⟩).val :=
  (dot_S1024x1024_S1024x768_S1024x768_1_0_0_1_n_n).lhsIdx_val_of_single rfl j q
theorem mm_pv_rhs_contr (j : S1024x768.Idx) (q : (dot_S1024x1024_S1024x768_S1024x768_1_0_0_1_n_n).contr.Idx) : ((dot_S1024x1024_S1024x768_S1024x768_1_0_0_1_n_n).rhsIdx j q 0).val = (q ⟨0, by decide⟩).val :=
  (dot_S1024x1024_S1024x768_S1024x768_1_0_0_1_n_n).rhsIdx_val_of_single rfl j q
theorem mm_pv_rhs_col (j : S1024x768.Idx) (q : (dot_S1024x1024_S1024x768_S1024x768_1_0_0_1_n_n).contr.Idx) : ((dot_S1024x1024_S1024x768_S1024x768_1_0_0_1_n_n).rhsIdx j q 1).val = (j 1).val := by
  unfold DotDims.rhsIdx
  rw [dif_neg (show ¬(1 : Fin S1024x768.rank) ∈ (dot_S1024x1024_S1024x768_S1024x768_1_0_0_1_n_n).rhsBatch by decide), dif_pos (show (1 : Fin S1024x768.rank) ∈ (dot_S1024x1024_S1024x768_S1024x768_1_0_0_1_n_n).rhsNonContracting by decide)]
  rfl
/-- The block product into the zero accumulator, at row `p`, column `c`: the sum over the 1024 contraction
    positions of the operands' products. -/
theorem mm_pv_apply (x : FVec Ideal S1024x1024 .bf16) (y : FVec Ideal S1024x768 .bf16) (p : Fin 1024) (c : Fin 768) :
    FloatOps.matmul (dot_S1024x1024_S1024x768_S1024x768_1_0_0_1_n_n) none x y (constant S1024x768 .f32 0x00000000#32) (ix2 p c) = ∑ k : Fin 1024, x (ix2 p k) * y (ix2 k c) := by
  rw [Ideal.matmul_constant_zero_apply, ← Equiv.sum_comp (contrEquiv1 (dot_S1024x1024_S1024x768_S1024x768_1_0_0_1_n_n) 1024 rfl rfl).symm]
  refine Finset.sum_congr rfl fun k _ => ?_
  have hk := contrEquiv1_symm_val (dot_S1024x1024_S1024x768_S1024x768_1_0_0_1_n_n) 1024 rfl rfl k
  have el : (dot_S1024x1024_S1024x768_S1024x768_1_0_0_1_n_n).lhsIdx (ix2 p c) ((contrEquiv1 (dot_S1024x1024_S1024x768_S1024x768_1_0_0_1_n_n) 1024 rfl rfl).symm k) = ix2 p k :=
    funext fun a => Fin.ext (by
      match a with
      | ⟨0, _⟩ => exact mm_pv_lhs_row _ _
      | ⟨1, _⟩ => exact (mm_pv_lhs_contr _ _).trans hk)
  have er : (dot_S1024x1024_S1024x768_S1024x768_1_0_0_1_n_n).rhsIdx (ix2 p c) ((contrEquiv1 (dot_S1024x1024_S1024x768_S1024x768_1_0_0_1_n_n) 1024 rfl rfl).symm k) = ix2 k c :=
    funext fun a => Fin.ext (by
      match a with
      | ⟨0, _⟩ => exact (mm_pv_rhs_contr _ _).trans hk
      | ⟨1, _⟩ => exact mm_pv_rhs_col _ _)
  rw [el, er]

/-! ## The row of scores and the value column -/

/-- Query row `p` against every key row of the block. -/
abbrev sc (q k : Vec Ideal S1x1024x768 .bf16) (p : Fin 1024) : Fin 1024 → EReal :=
  fun j' => ∑ o : Fin 768, q (ix3 (0 : Fin 1) p o) * k (ix3 (0 : Fin 1) j' o)

/-- Column `d` of the value block. -/
abbrev vc (v : Vec Ideal S1x1024x768 .bf16) (d : Fin 768) : Fin 1024 → EReal :=
  fun j' => v (ix3 (0 : Fin 1) j' d)

/-- The scores block at `(p, j')`: the leading unit axes dropped, the keys transposed, the product into zero. -/
theorem score_apply (q k : Vec Ideal S1x1024x768 .bf16) (p j' : Fin 1024) :
    k1_pay8 (F := Ideal) q k (ix2 p j') = sc q k p j' := by
  unfold k1_pay8
  simp only [matmul]
  rw [mm_qk_apply]
  refine Finset.sum_congr rfl fun o _ => ?_
  rw [shapeCast_1ab_ab_apply, transpose_ix2_apply, shapeCast_1ab_ab_apply]

/-- Row `p` with the column coordinate put back is `(p, j')`. -/
theorem lift_row (h : S1024x1024.Reduces [1] S1024) (p j' : Fin 1024) : h.lift (ix1 p) j' = ix2 p j' := by
  funext c; apply Fin.ext
  match c with
  | ⟨0, _⟩ => rfl
  | ⟨1, _⟩ => rfl

/-- The pattern of −∞ reads −∞. -/
theorem ofBits_neg_inf : (FloatOps.ofBits (F := Ideal) .f32 0xFF800000#32) = (⊥ : EReal) := by
  show Ideal.ofBits .f32 0xFF800000#32 = ⊥
  simp [Ideal.ofBits, Ideal.ieee]

/-! ## One step on a row -/

/-- The running maximum after the step, at row `p`. -/
theorem max_apply (q k : Vec Ideal S1x1024x768 .bf16) (m0 : Vec Ideal S1024x1 .f32) (p : Fin 1024) :
    k1_pay9 (F := Ideal) q k m0 (ix2 p (0 : Fin 1)) = Cert.Pooling.newMax (m0 (ix2 p (0 : Fin 1))) (sc q k p) := by
  unfold k1_pay9
  rw [maximumf_apply, shapeCast_a_a1_apply]
  have hf : (k1_pay8 (F := Ideal) q k) ∘ (reduces_S1024x1024_S1024).lift (ix1 p) = sc q k p :=
    funext fun (j' : Fin 1024) =>
      (congrArg (k1_pay8 (F := Ideal) q k) (lift_row reduces_S1024x1024_S1024 p j')).trans (score_apply q k p j')
  unfold Cert.Pooling.newMax Cert.Pooling.rowMax
  refine congrArg (max (m0 (ix2 p (0 : Fin 1)))) ?_
  refine (Ideal.multiReduction_maximumf_single _ _ _ _ _ _).trans ?_
  rw [ofBits_neg_inf, hf]
  rfl

/-- What is stored as the new running maximum. -/
theorem pay_max (q k : Vec Ideal S1x1024x768 .bf16) (m0 : Vec Ideal S1024x1 .f32) (p : Fin 1024) :
    k1_pay2 (F := Ideal) (k1_pay9 q k m0) (ix2 p (0 : Fin 1)) = Cert.Pooling.newMax (m0 (ix2 p (0 : Fin 1))) (sc q k p) := by
  unfold k1_pay2
  rw [shapeCast_self, max_apply]

/-- The rescaling factor of the old state, at row `p`. -/
theorem scale_apply (q k : Vec Ideal S1x1024x768 .bf16) (m0 : Vec Ideal S1024x1 .f32) (p : Fin 1024) :
    k1_pay10 (F := Ideal) q k m0 m0 (ix2 p (0 : Fin 1))
      = Ideal.exp (m0 (ix2 p (0 : Fin 1)) - Cert.Pooling.newMax (m0 (ix2 p (0 : Fin 1))) (sc q k p)) := by
  unfold k1_pay10
  show Ideal.exp (m0 (ix2 p (0 : Fin 1)) - k1_pay9 (F := Ideal) q k m0 (ix2 p (0 : Fin 1))) = _
  rw [max_apply]

/-- The weights block at `(p, j')`. -/
theorem weight_apply (q k : Vec Ideal S1x1024x768 .bf16) (m0 : Vec Ideal S1024x1 .f32) (p j' : Fin 1024) :
    k1_pay11 (F := Ideal) q k m0 (ix2 p j')
      = Ideal.exp (sc q k p j' - Cert.Pooling.newMax (m0 (ix2 p (0 : Fin 1))) (sc q k p)) := by
  unfold k1_pay11
  show Ideal.exp (k1_pay8 (F := Ideal) q k (ix2 p j')
    - broadcastTo S1024x1024 (k1_pay9 (F := Ideal) q k m0) broadcasts_S1024x1_S1024x1024 (ix2 p j')) = _
  rw [score_apply, broadcastTo_a1_ab_apply, max_apply]

/-- What is stored as the new normaliser. -/
theorem pay_sum (q k : Vec Ideal S1x1024x768 .bf16) (m0 l0 : Vec Ideal S1024x1 .f32) (p : Fin 1024) :
    k1_pay12 (F := Ideal) q k m0 m0 l0 (ix2 p (0 : Fin 1))
      = Cert.Pooling.newSum (m0 (ix2 p (0 : Fin 1))) (l0 (ix2 p (0 : Fin 1))) (sc q k p) := by
  unfold k1_pay12
  rw [shapeCast_self, addf_apply, mulf_apply, scale_apply, shapeCast_a_a1_apply]
  unfold Cert.Pooling.newSum
  refine congrArg (Ideal.exp (m0 (ix2 p (0 : Fin 1)) - Cert.Pooling.newMax (m0 (ix2 p (0 : Fin 1))) (sc q k p)) * l0 (ix2 p (0 : Fin 1)) + ·) ?_
  refine (Ideal.multiReduction_add_single _ _ _ _ _ _).trans ?_
  refine Finset.sum_congr rfl fun j' _ => ?_
  exact (congrArg (k1_pay11 (F := Ideal) q k m0) (lift_row reduces_S1024x1024_S1024 p j')).trans (weight_apply q k m0 p j')

/-- The rescaling factor broadcast over the row of the accumulator. -/
theorem scale_row_apply (q k : Vec Ideal S1x1024x768 .bf16) (m0 : Vec Ideal S1024x1 .f32) (p : Fin 1024) (d : Fin 768) :
    k1_pay13 (F := Ideal) q k m0 m0 (ix2 p d)
      = Ideal.exp (m0 (ix2 p (0 : Fin 1)) - Cert.Pooling.newMax (m0 (ix2 p (0 : Fin 1))) (sc q k p)) := by
  unfold k1_pay13
  rw [broadcastTo_a1_ab_apply, scale_apply]

/-- The value block with its leading unit axis dropped. -/
theorem value_apply (v : Vec Ideal S1x1024x768 .bf16) (j' : Fin 1024) (d : Fin 768) :
    k1_pay7 (F := Ideal) v (ix2 j' d) = vc v d j' := by
  unfold k1_pay7
  rw [shapeCast_1ab_ab_apply]

/-- What is stored as the new weighted sum. -/
theorem pay_acc (q k v : Vec Ideal S1x1024x768 .bf16) (m0 : Vec Ideal S1024x1 .f32) (a0 : Vec Ideal S1024x768 .f32)
    (p : Fin 1024) (d : Fin 768) :
    k1_pay1 (F := Ideal) (k1_pay7 v) (k1_pay11 q k m0) a0 (k1_pay13 q k m0 m0) (ix2 p d)
      = Cert.Pooling.newAcc (m0 (ix2 p (0 : Fin 1))) (a0 (ix2 p d)) (sc q k p) (vc v d) := by
  unfold k1_pay1
  simp only [matmul]
  rw [shapeCast_self, addf_apply, mulf_apply, scale_row_apply, mm_pv_apply]
  unfold Cert.Pooling.newAcc
  congr 1
  refine Finset.sum_congr rfl fun j' _ => ?_
  rw [truncf_apply, weight_apply, value_apply]

/-! ## The final quotient and the reset values -/

/-- What is stored as the output block at the last step. -/
theorem pay_out (a : Vec Ideal S1024x768 .f32) (l : Vec Ideal S1024x1 .f32) (p : Fin 1024) (d : Fin 768) :
    k1_pay3 (F := Ideal) a l (ix3 (0 : Fin 1) p d) = Ideal.div (a (ix2 p d)) (l (ix2 p (0 : Fin 1))) := by
  unfold k1_pay3
  rw [shapeCast_ab_1ab_apply, divf_apply, broadcastTo_a1_ab_apply]

/-- The running maximum is reset to −∞, -/
theorem pay_reset_max (p : Fin 1024) : k1_pay4 (F := Ideal) (ix2 p (0 : Fin 1)) = (⊥ : EReal) := by
  unfold k1_pay4
  rw [shapeCast_self]
  exact ofBits_neg_inf

/-- the normaliser to 0, -/
theorem pay_reset_sum (p : Fin 1024) : k1_pay5 (F := Ideal) (ix2 p (0 : Fin 1)) = (0 : EReal) := by
  unfold k1_pay5
  rw [shapeCast_self]
  exact Ideal.ofBits_zero_f32

/-- and the weighted sum to 0. -/
theorem pay_reset_acc (p : Fin 1024) (d : Fin 768) : k1_pay6 (F := Ideal) (ix2 p d) = (0 : EReal) := by
  unfold k1_pay6
  rw [shapeCast_self]
  exact Ideal.ofBits_zero_f32

end Cert.KernelIdeal.HandValue

end
-- ==== Proof.Val1.lean ====
/- The value of region 1's output array at the ideal instance: attention over the region-entry contents of its three
   operand arrays, the key rows pooled in two halves by the running softmax. One query row after the two steps of a
   batch's row block; each odd point's written-back block as a block of one function of the operand arrays; the
   blocks cover the array. Stated at a parameter `V`, the buffer contents at region entry. -/
import proofs.«178805_j14894946583181_2_alg».proof.Proof.I.Region1Steps
import proofs.«178805_j14894946583181_2_alg».proof.Proof.LibOnlineSoftmax
import proofs.«178805_j14894946583181_2_alg».proof.Proof.Val1Pay
import Idealize.ShloMosaic.Lib.ValueIdx
import Idealize.ShloMosaic.Lib.Pipeline.Value
import Idealize.ShloMosaic.PureOps.Ideal.Laws

set_option maxRecDepth 16384

noncomputable section

namespace Cert.KernelIdeal.HandValue

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)
open scoped BigOperators

/-! ## One query row after the two steps -/

/-- Row `p`, column `d` of what the second step stores as output, the first step having started from the reset
    state: the running softmax pooling of the value column `d` over the first block's and then the second block's
    scores of query row `p`. -/
theorem two_steps (q' k' v' q k v : Vec Ideal S1x1024x768 .bf16) (p : Fin 1024) (d : Fin 768) :
    k1_pay3 (F := Ideal)
        (k1_pay1 (k1_pay7 v) (k1_pay11 q k (k1_pay2 (k1_pay9 q' k' (k1_pay4 (F := Ideal))))) (k1_pay1 (k1_pay7 v') (k1_pay11 q' k' (k1_pay4 (F := Ideal))) (k1_pay6 (F := Ideal)) (k1_pay13 q' k' (k1_pay4 (F := Ideal)) (k1_pay4 (F := Ideal)))) (k1_pay13 q k (k1_pay2 (k1_pay9 q' k' (k1_pay4 (F := Ideal)))) (k1_pay2 (k1_pay9 q' k' (k1_pay4 (F := Ideal))))))
        (k1_pay12 q k (k1_pay2 (k1_pay9 q' k' (k1_pay4 (F := Ideal)))) (k1_pay2 (k1_pay9 q' k' (k1_pay4 (F := Ideal)))) (k1_pay12 q' k' (k1_pay4 (F := Ideal)) (k1_pay4 (F := Ideal)) (k1_pay5 (F := Ideal)))) (ix3 (0 : Fin 1) p d)
      = Cert.Pooling.onePass (sc q' k' p) (vc v' d) (sc q k p) (vc v d) := by
  rw [pay_out, pay_acc, pay_acc, pay_sum, pay_sum, pay_max, pay_reset_max, pay_reset_sum, pay_reset_acc]
  rfl

/-! ## From the blocks to the array -/

section Blocks
-- the TensorCore's buffer contents when the region is entered
variable (V : (c : Dev nD) → (b : Ref sig .tc) → Buf (Elt Ideal) ((c : Thread nD τ).loc b))

/-- Attention over one batch of 2048 rows, the key rows taken in two halves by the running softmax: entry
    (batch, row, column) pools the value column over the scores of the query row against every key row. -/
abbrev attn (Q K Vv : S8x2048x768.Idx → EReal) : S8x2048x768.Idx → EReal := fun i =>
  Cert.Pooling.onePass
    (fun j' : Fin 1024 => ∑ o : Fin 768, Q (ix3 (i 0) (i 1) o) * K (ix3 (i 0) (Fin.castAdd 1024 j') o))
    (fun j' : Fin 1024 => Vv (ix3 (i 0) (Fin.castAdd 1024 j') (i 2)))
    (fun j' : Fin 1024 => ∑ o : Fin 768, Q (ix3 (i 0) (i 1) o) * K (ix3 (i 0) (Fin.natAdd 1024 j') o))
    (fun j' : Fin 1024 => Vv (ix3 (i 0) (Fin.natAdd 1024 j') (i 2)))

/-- The point before `t`. -/
abbrev prevPt (t : Fin cfg1.N) : Fin cfg1.N := ⟨t.val - 1, Nat.lt_of_le_of_lt (Nat.sub_le _ _) t.isLt⟩

/-- The printed index maps, decided over the grid: the query block and the output block sit at the same batch and
    row block, column block 0; the key and value blocks sit at the output's batch, at the row block the point's
    parity names, column block 0. -/
theorem idx_facts1 : ∀ t : Fin cfg1.N,
      win1_0.index t (0 : Fin 3) = win1_3.index t (0 : Fin 3) ∧ win1_0.index t (1 : Fin 3) = win1_3.index t (1 : Fin 3) ∧ win1_0.index t (2 : Fin 3) = 0
    ∧ win1_1.index t (0 : Fin 3) = win1_3.index t (0 : Fin 3) ∧ win1_1.index t (1 : Fin 3) = t.val % 2 ∧ win1_1.index t (2 : Fin 3) = 0
    ∧ win1_2.index t (0 : Fin 3) = win1_3.index t (0 : Fin 3) ∧ win1_2.index t (1 : Fin 3) = t.val % 2 ∧ win1_2.index t (2 : Fin 3) = 0
    ∧ win1_3.index t (2 : Fin 3) = 0 :=
  (by decide +kernel : ∀ t : Fin grid1.N, _)

/-- An odd point and the point before it have the same output block. -/
theorem idx_prev1 : ∀ t : Fin cfg1.N, t.val % 2 = 1 →
    win1_3.index (prevPt t) (0 : Fin 3) = win1_3.index t (0 : Fin 3) ∧ win1_3.index (prevPt t) (1 : Fin 3) = win1_3.index t (1 : Fin 3) :=
  (by decide +kernel : ∀ t : Fin grid1.N, _)

/-- Every (batch, row block) is the output block of some odd point. -/
theorem idx_onto1 : ∀ (b : Fin 8) (qi : Fin 2), ∃ t : Fin cfg1.N, t.val % 2 = 1 ∧ win1_3.index t = ![b.val, qi.val, 0] :=
  (by decide +kernel : ∀ (b : Fin 8) (qi : Fin 2), ∃ t : Fin grid1.N, t.val % 2 = 1 ∧ win1_3.index t = ![b.val, qi.val, 0])

/-- Over any three operand arrays, at an odd point: the running pooling over the previous point's blocks and then
    this point's is attention at the place of the output block's row `p`, column `d` — the query block is the
    output's rows, the previous point's key and value blocks are the batch's first 1024 rows and this point's its
    last 1024. -/
theorem block_attn (Q K Vv : S8x2048x768.Idx → EReal) (t : Fin cfg1.N) (ho : t.val % 2 = 1) (p : Fin 1024) (d : Fin 768) :
    Cert.Pooling.onePass
        (fun j' : Fin 1024 => ∑ o : Fin 768, Q (((cfg1.win 0).blk (prevPt t)).view.emb (ix3 (0 : Fin 1) p o)) * K (((cfg1.win 1).blk (prevPt t)).view.emb (ix3 (0 : Fin 1) j' o)))
        (fun j' : Fin 1024 => Vv (((cfg1.win 2).blk (prevPt t)).view.emb (ix3 (0 : Fin 1) j' d)))
        (fun j' : Fin 1024 => ∑ o : Fin 768, Q (((cfg1.win 0).blk t).view.emb (ix3 (0 : Fin 1) p o)) * K (((cfg1.win 1).blk t).view.emb (ix3 (0 : Fin 1) j' o)))
        (fun j' : Fin 1024 => Vv (((cfg1.win 2).blk t).view.emb (ix3 (0 : Fin 1) j' d)))
      = attn Q K Vv (((cfg1.win 3).blk t).view.emb (ix3 (0 : Fin 1) p d)) := by
  have hpe : (prevPt t).val % 2 = 0 := by show (t.val - 1) % 2 = 0; omega
  obtain ⟨a0, a1, a2, b0, b1, b2, c0, c1, c2, d2⟩ := idx_facts1 t
  obtain ⟨a0', a1', a2', b0', b1', b2', c0', c1', c2', d2'⟩ := idx_facts1 (prevPt t)
  obtain ⟨r0, r1⟩ := idx_prev1 t ho
  have h0' : ∀ (o : Fin 768), (((cfg1.win 0).blk (prevPt t)).view.emb (ix3 (0 : Fin 1) p o)) = ix3 ((((cfg1.win 3).blk t).view.emb (ix3 (0 : Fin 1) p d)) 0) ((((cfg1.win 3).blk t).view.emb (ix3 (0 : Fin 1) p d)) 1) o := by
    intro o
    funext a; apply Fin.ext
    match a with
    | ⟨0, _⟩ => show win1_0.index (prevPt t) (0 : Fin 3) * 1 + 1 * ((0 : Fin 1) : ℕ) = win1_3.index t (0 : Fin 3) * 1 + 1 * ((0 : Fin 1) : ℕ); omega
    | ⟨1, _⟩ => show win1_0.index (prevPt t) (1 : Fin 3) * 1024 + 1 * p.val = win1_3.index t (1 : Fin 3) * 1024 + 1 * p.val; omega
    | ⟨2, _⟩ => show win1_0.index (prevPt t) (2 : Fin 3) * 768 + 1 * o.val = o.val; omega
  have h1' : ∀ (j' : Fin 1024) (o : Fin 768), (((cfg1.win 1).blk (prevPt t)).view.emb (ix3 (0 : Fin 1) j' o)) = ix3 ((((cfg1.win 3).blk t).view.emb (ix3 (0 : Fin 1) p d)) 0) (Fin.castAdd 1024 j') o := by
    intro j' o
    funext a; apply Fin.ext
    match a with
    | ⟨0, _⟩ => show win1_1.index (prevPt t) (0 : Fin 3) * 1 + 1 * ((0 : Fin 1) : ℕ) = win1_3.index t (0 : Fin 3) * 1 + 1 * ((0 : Fin 1) : ℕ); omega
    | ⟨1, _⟩ => show win1_1.index (prevPt t) (1 : Fin 3) * 1024 + 1 * j'.val = j'.val; omega
    | ⟨2, _⟩ => show win1_1.index (prevPt t) (2 : Fin 3) * 768 + 1 * o.val = o.val; omega
  have h2' : ∀ (j' : Fin 1024), (((cfg1.win 2).blk (prevPt t)).view.emb (ix3 (0 : Fin 1) j' d)) = ix3 ((((cfg1.win 3).blk t).view.emb (ix3 (0 : Fin 1) p d)) 0) (Fin.castAdd 1024 j') ((((cfg1.win 3).blk t).view.emb (ix3 (0 : Fin 1) p d)) 2) := by
    intro j'
    funext a; apply Fin.ext
    match a with
    | ⟨0, _⟩ => show win1_2.index (prevPt t) (0 : Fin 3) * 1 + 1 * ((0 : Fin 1) : ℕ) = win1_3.index t (0 : Fin 3) * 1 + 1 * ((0 : Fin 1) : ℕ); omega
    | ⟨1, _⟩ => show win1_2.index (prevPt t) (1 : Fin 3) * 1024 + 1 * j'.val = j'.val; omega
    | ⟨2, _⟩ => show win1_2.index (prevPt t) (2 : Fin 3) * 768 + 1 * d.val = win1_3.index t (2 : Fin 3) * 768 + 1 * d.val; omega
  have h0 : ∀ (o : Fin 768), (((cfg1.win 0).blk t).view.emb (ix3 (0 : Fin 1) p o)) = ix3 ((((cfg1.win 3).blk t).view.emb (ix3 (0 : Fin 1) p d)) 0) ((((cfg1.win 3).blk t).view.emb (ix3 (0 : Fin 1) p d)) 1) o := by
    intro o
    funext a; apply Fin.ext
    match a with
    | ⟨0, _⟩ => show win1_0.index t (0 : Fin 3) * 1 + 1 * ((0 : Fin 1) : ℕ) = win1_3.index t (0 : Fin 3) * 1 + 1 * ((0 : Fin 1) : ℕ); omega
    | ⟨1, _⟩ => show win1_0.index t (1 : Fin 3) * 1024 + 1 * p.val = win1_3.index t (1 : Fin 3) * 1024 + 1 * p.val; omega
    | ⟨2, _⟩ => show win1_0.index t (2 : Fin 3) * 768 + 1 * o.val = o.val; omega
  have h1 : ∀ (j' : Fin 1024) (o : Fin 768), (((cfg1.win 1).blk t).view.emb (ix3 (0 : Fin 1) j' o)) = ix3 ((((cfg1.win 3).blk t).view.emb (ix3 (0 : Fin 1) p d)) 0) (Fin.natAdd 1024 j') o := by
    intro j' o
    funext a; apply Fin.ext
    match a with
    | ⟨0, _⟩ => show win1_1.index t (0 : Fin 3) * 1 + 1 * ((0 : Fin 1) : ℕ) = win1_3.index t (0 : Fin 3) * 1 + 1 * ((0 : Fin 1) : ℕ); omega
    | ⟨1, _⟩ => show win1_1.index t (1 : Fin 3) * 1024 + 1 * j'.val = 1024 + j'.val; omega
    | ⟨2, _⟩ => show win1_1.index t (2 : Fin 3) * 768 + 1 * o.val = o.val; omega
  have h2 : ∀ (j' : Fin 1024), (((cfg1.win 2).blk t).view.emb (ix3 (0 : Fin 1) j' d)) = ix3 ((((cfg1.win 3).blk t).view.emb (ix3 (0 : Fin 1) p d)) 0) (Fin.natAdd 1024 j') ((((cfg1.win 3).blk t).view.emb (ix3 (0 : Fin 1) p d)) 2) := by
    intro j'
    funext a; apply Fin.ext
    match a with
    | ⟨0, _⟩ => show win1_2.index t (0 : Fin 3) * 1 + 1 * ((0 : Fin 1) : ℕ) = win1_3.index t (0 : Fin 3) * 1 + 1 * ((0 : Fin 1) : ℕ); omega
    | ⟨1, _⟩ => show win1_2.index t (1 : Fin 3) * 1024 + 1 * j'.val = 1024 + j'.val; omega
    | ⟨2, _⟩ => show win1_2.index t (2 : Fin 3) * 768 + 1 * d.val = win1_3.index t (2 : Fin 3) * 768 + 1 * d.val; omega
  exact congr (congr (congr (congrArg Cert.Pooling.onePass
    (funext fun j' => Finset.sum_congr rfl fun o _ => congrArg₂ (· * ·) (congrArg Q (h0' o)) (congrArg K (h1' j' o))))
    (funext fun j' => congrArg Vv (h2' j')))
    (funext fun j' => Finset.sum_congr rfl fun o _ => congrArg₂ (· * ·) (congrArg Q (h0 o)) (congrArg K (h1 j' o))))
    (funext fun j' => congrArg Vv (h2 j'))

/-- WHAT AN ODD POINT `t` WRITES BACK is block `t` of attention over the three operand arrays as the region finds
    them: the scratch operands were reset and updated at the point before, updated again at `t`, and the output is
    their quotient. -/
theorem flushed1_eq (c : Dev nD) (t : Fin cfg1.N) (hf : (cfg1.win 3).flush t = true) :
    (dat1 (F := Ideal) V c).flushed 3 t
      = ((cfg1.win 3).blk t).view.read (Elt Ideal) (attn (V c main_v12) (V c main_v14) (V c main_v16)) := by
  have ho : t.val % 2 = 1 := (flush1_3 t).mp hf
  have hpe : (prevPt t).val % 2 = 0 := by show (t.val - 1) % 2 = 0; omega
  show (cfg1.win 3).cut (grid1.coords t) ((dat1 (F := Ideal) V c).after 3 t) = _
  rw [after1_3, outsAt1_odd V c t ho]
  have he : (outsAt1 V c (t.val - 1) (Nat.lt_of_le_of_lt (Nat.sub_le _ _) t.isLt)).2 = _ := outsAt1_even V c (prevPt t) hpe
  rw [he]
  dsimp only
  funext j
  obtain ⟨z, p, d, rfl⟩ : ∃ (z : Fin 1) (p : Fin 1024) (d : Fin 768), j = ix3 z p d := ⟨j 0, j 1, j 2, eq_ix3 j⟩
  obtain rfl : z = 0 := Subsingleton.elim _ _
  refine (two_steps (iblk1 V c 0 (prevPt t)) (iblk1 V c 1 (prevPt t)) (iblk1 V c 2 (prevPt t)) (iblk1 V c 0 t) (iblk1 V c 1 t) (iblk1 V c 2 t) p d).trans ?_
  exact block_attn (V c main_v12) (V c main_v14) (V c main_v16) t ho p d

/-- An index of the array is in point `t`'s block iff each coordinate is in the block's range on its axis. -/
theorem mem_blk1 (t : Fin cfg1.N) (i : S8x2048x768.Idx) :
    i ∈ ((cfg1.win 3).blk t).view.set ↔ ∀ a : Fin 3, win1_3.index t a * S1x1024x768.size a ≤ (i a).val ∧ (i a).val < win1_3.index t a * S1x1024x768.size a + S1x1024x768.size a := by
  show i ∈ ((View.whole main_v17).slice (win1_3.rect t)).set ↔ _
  rw [View.set_slice_whole, Rect.mem_set_unit]
  exact Iff.rfl

/-- Every index of the array is in the block of some point that writes back: row `r` of batch `b` is in the block of
    the odd point whose output block is (`b`, `r / 1024`, 0), and each block spans all 768 columns. -/
theorem cover1 (i : S8x2048x768.Idx) : ∃ t : Fin cfg1.N, (cfg1.win 3).flush t = true ∧ i ∈ ((cfg1.win 3).blk t).view.set := by
  have hi0 : (i 0).val < 8 := (i 0).isLt
  have hi1 : (i 1).val < 2048 := (i 1).isLt
  have hi2 : (i 2).val < 768 := (i 2).isLt
  obtain ⟨t, ho, ht⟩ := idx_onto1 ⟨(i 0).val, hi0⟩ ⟨(i 1).val / 1024, by omega⟩
  have q0 : win1_3.index t (0 : Fin 3) = (i 0).val := congrFun ht 0
  have q1 : win1_3.index t (1 : Fin 3) = (i 1).val / 1024 := congrFun ht 1
  have q2 : win1_3.index t (2 : Fin 3) = 0 := congrFun ht 2
  refine ⟨t, (flush1_3 t).mpr ho, ?_⟩
  rw [mem_blk1]
  intro a
  match a with
  | ⟨0, _⟩ => show win1_3.index t (0 : Fin 3) * 1 ≤ (i 0).val ∧ (i 0).val < win1_3.index t (0 : Fin 3) * 1 + 1; omega
  | ⟨1, _⟩ => show win1_3.index t (1 : Fin 3) * 1024 ≤ (i 1).val ∧ (i 1).val < win1_3.index t (1 : Fin 3) * 1024 + 1024; omega
  | ⟨2, _⟩ => show win1_3.index t (2 : Fin 3) * 768 ≤ (i 2).val ∧ (i 2).val < win1_3.index t (2 : Fin 3) * 768 + 768; omega

/-- THE ARRAY after the region: attention over the three operand arrays as the region finds them. -/
theorem arr1_eq (c : Dev nD) :
    (dat1 (F := Ideal) V c).arrAt 3 cfg1.N = attn (V c main_v12) (V c main_v14) (V c main_v16) :=
  (dat1 (F := Ideal) V c).arrAt_eq_of_cover 3 (attn (V c main_v12) (V c main_v14) (V c main_v16)) (fun t hf => flushed1_eq V c t hf) cover1

end Blocks

end Cert.KernelIdeal.HandValue

end
-- ==== Proof.LibConcatenate3.lean ====
/-
  A concatenation of THREE pieces as a function of its operands.

  `concatenate t a [⟨s₁, x₁⟩, ⟨s₂, x₂⟩, ⟨s₃, x₃⟩] h` holds its operands inside dependent pairs `⟨sₖ, xₖ⟩`, and its
  evidence `h` is stated of the list of the pairs' shapes. `concatenate3_congr`: at fixed shapes the concatenation
  depends on the three operands only (the evidence does not change: the shapes do not), so equal operands give
  equal concatenations. `vec3_at0` / `vec3_at1` / `vec3_at2`: a literal three-element vector at each of its
  numerals is the entry written there; each holds by computation, so the two sides are interchangeable also where
  a type depends on them.
-/
import Idealize.ShloMosaic.Lib.Pipeline.Value

namespace Idealize.ShloMosaic

/-- A three-piece concatenation is a function of its three operands: equal operands, piece by piece at the same
    shapes, give equal concatenations (under the same evidence, which only mentions the shapes). -/
theorem concatenate3_congr {α : Type} {t s₁ s₂ s₃ : Shape} (a : Fin t.rank)
    {x₁ x₁' : s₁.Idx → α} {x₂ x₂' : s₂.Idx → α} {x₃ x₃' : s₃.Idx → α}
    (h : Shape.Concatenates [s₁, s₂, s₃] t a) (e₁ : x₁ = x₁') (e₂ : x₂ = x₂') (e₃ : x₃ = x₃') :
    concatenate t a [⟨s₁, x₁⟩, ⟨s₂, x₂⟩, ⟨s₃, x₃⟩] h = concatenate t a [⟨s₁, x₁'⟩, ⟨s₂, x₂'⟩, ⟨s₃, x₃'⟩] h := by
  subst e₁ e₂ e₃; rfl

/-- A literal three-element vector at `0` is its first entry. -/
theorem vec3_at0 {α : Type} (a b c : α) : (![a, b, c] : Fin 3 → α) 0 = a := rfl
/-- A literal three-element vector at `1` is its second entry. -/
theorem vec3_at1 {α : Type} (a b c : α) : (![a, b, c] : Fin 3 → α) 1 = b := rfl
/-- A literal three-element vector at `2` is its third entry. -/
theorem vec3_at2 {α : Type} (a b c : α) : (![a, b, c] : Fin 3 → α) 2 = c := rfl

end Idealize.ShloMosaic
-- ==== Proof.HostMid.lean ====
/-
  The host operations around the two regions of the idealized kernel program, read at an index, over any contents
  `W` of the buffers they start from. Before the projection: the input reshaped to 16384 rows is the input read
  row-major, and the fused weight matrix is three transposed weights side by side — the query weight scaled by the
  constant first. After the projection: each of the three inputs of the attention region is a band of 768 columns of
  the projection's output, its 16384 rows read as 8 batches of 2048.
-/
import proofs.«178805_j14894946583181_2_alg».proof.Proof.Gen.KernelIdeal.Launch
import proofs.«178805_j14894946583181_2_alg».proof.Proof.LibConcatenate3
import Idealize.ShloMosaic.Lib.ValueIdx
import Idealize.ShloMosaic.Lib.ValueLayout
import Idealize.ShloMosaic.Lib.Pipeline.Value
import Idealize.ShloMosaic.Lib.StableHlo.Run
import Idealize.ShloMosaic.PureOps.Ideal.Laws

noncomputable section

namespace Cert.KernelIdeal.HandValue

open Cert.KernelIdeal Cert.KernelIdeal.Gen
open Idealize.ShloMosaic Idealize.ShloMosaic.TcCoe Idealize.SL.Sem Idealize.ShloMosaic.StableHlo
open Idealize.ShloMosaic.ValueIdx

variable (W : Valuation τ sig (Elt Ideal))

/-- The scale constant both programs carry, as an extended real. -/
abbrev c0 : EReal := Ideal.ofBits .f32 0x3D13CD3A#32

/-- The four argument arrays as the host operations find them, as functions on their index types. -/
abbrev argX : S8x2048x768.Idx → EReal := W (Proc.devRef .tc main_arg0)
abbrev argWk : S768x768.Idx → EReal := W (Proc.devRef .tc main_arg1)
abbrev argWq : S768x768.Idx → EReal := W (Proc.devRef .tc main_arg2)
abbrev argWv : S768x768.Idx → EReal := W (Proc.devRef .tc main_arg3)
/-- The projection's output array, as the second stretch of host operations finds it. -/
abbrev arrQKV : S16384x2304.Idx → EReal := W (Proc.devRef .tc main_v10)

/-! ## Before the projection -/

/-- The input as 16384 rows: row `2048 b + n` is row `n` of batch `b`. -/
theorem v0_apply (b : Fin 8) (n : Fin 2048) (e : Fin 768) (r : Fin 16384) (hr : r.val = b.val * 2048 + n.val) :
    (after (hostOps0 (F := Ideal)) W (Proc.devRef .tc main_v0) : S16384x768.Idx → EReal) (ix2 r e)
      = argX W (ix3 b n e) := by
  have e0 : (after (hostOps0 (F := Ideal)) W (Proc.devRef .tc main_v0) : S16384x768.Idx → EReal)
      = shapeCast S16384x768 (W (Proc.devRef .tc main_arg0)) shapeCasts_S8x2048x768_S16384x768 := by
    after_results; rfl
  rw [e0]
  refine shapeCast_apply _ _ _ (ix3 b n e) ?_
  show ((⟨3, ![8, 2048, 768]⟩ : Shape).rowMajor (ix3 b n e)).val = ((⟨2, ![16384, 768]⟩ : Shape).rowMajor (ix2 r e)).val
  rw [Shape.rowMajor_val_three, Shape.rowMajor_val_two]
  show (b.val * 2048 + n.val) * 768 + e.val = r.val * 768 + e.val
  rw [hr]

/-- The three pieces of the fused weight matrix: the query weight transposed and scaled, the key weight transposed,
    the value weight transposed. -/
abbrev pieceQ : FVec Ideal S768x768 .bf16 :=
  truncf .bf16 (mulf (transpose S768x768 [1, 0] (W (Proc.devRef .tc main_arg2) : FVec Ideal S768x768 .f32) transposes_S768x768_S768x768_1_0)
    (broadcastInDim S768x768 ![] bcast_S_S768x768 (constant (F := Ideal) S_ .f32 0x3D13CD3A#32))) bitsLt_bf16_f32
abbrev pieceK : FVec Ideal S768x768 .bf16 :=
  truncf .bf16 (transpose S768x768 [1, 0] (W (Proc.devRef .tc main_arg1) : FVec Ideal S768x768 .f32) transposes_S768x768_S768x768_1_0) bitsLt_bf16_f32
abbrev pieceV : FVec Ideal S768x768 .bf16 :=
  truncf .bf16 (transpose S768x768 [1, 0] (W (Proc.devRef .tc main_arg3) : FVec Ideal S768x768 .f32) transposes_S768x768_S768x768_1_0) bitsLt_bf16_f32

/-- The fused weight matrix is the three pieces side by side. -/
theorem v9_term :
    (after (hostOps0 (F := Ideal)) W (Proc.devRef .tc main_v9) : S768x2304.Idx → EReal)
      = concatenate S768x2304 1 [⟨S768x768, pieceQ W⟩, ⟨S768x768, pieceK W⟩, ⟨S768x768, pieceV W⟩]
          concatenates_S768x768_S768x768_S768x768_S768x2304_d1 := by
  simp only [after_cons, after_nil]
  rw [nary_result]
  dsimp only [vec3_at0, vec3_at1, vec3_at2]
  refine concatenate3_congr _ _ ?_ ?_ ?_ <;>
    (simp (disch := decide) only [nullary_result', unary_result', binary_result', reshape_result',
      nullary_result_ne', unary_result_ne', binary_result_ne', reshape_result_ne'])

theorem pieceQ_apply (e o : Fin 768) :
    (pieceQ W (ix2 e o) : EReal) = argWq W (ix2 o e) * c0 := by
  show (mulf (transpose S768x768 [1, 0] (W (Proc.devRef .tc main_arg2) : FVec Ideal S768x768 .f32) transposes_S768x768_S768x768_1_0)
    (broadcastInDim S768x768 ![] bcast_S_S768x768 (constant (F := Ideal) S_ .f32 0x3D13CD3A#32)) : FVec Ideal S768x768 .f32) (ix2 e o) = _
  rw [mulf_apply, transpose_ix2_apply]
  rfl
theorem pieceK_apply (e o : Fin 768) :
    (pieceK W (ix2 e o) : EReal) = argWk W (ix2 o e) := by
  show transpose S768x768 [1, 0] (W (Proc.devRef .tc main_arg1) : FVec Ideal S768x768 .f32) transposes_S768x768_S768x768_1_0 (ix2 e o) = _
  rw [transpose_ix2_apply]
theorem pieceV_apply (e o : Fin 768) :
    (pieceV W (ix2 e o) : EReal) = argWv W (ix2 o e) := by
  show transpose S768x768 [1, 0] (W (Proc.devRef .tc main_arg3) : FVec Ideal S768x768 .f32) transposes_S768x768_S768x768_1_0 (ix2 e o) = _
  rw [transpose_ix2_apply]

/-- Columns 0 … 767 of the fused weight matrix: the scaled query weight, transposed. -/
theorem v9_apply_q (e o : Fin 768) (j : Fin 2304) (hj : j.val = o.val) :
    (after (hostOps0 (F := Ideal)) W (Proc.devRef .tc main_v9) : S768x2304.Idx → EReal) (ix2 e j)
      = argWq W (ix2 o e) * c0 := by
  rw [v9_term, ← pieceQ_apply]
  exact concatenate_apply_piece (t := S768x2304) (1 : Fin S768x2304.rank) [⟨S768x768, pieceQ W⟩, ⟨S768x768, pieceK W⟩, ⟨S768x768, pieceV W⟩] concatenates_S768x768_S768x768_S768x768_S768x2304_d1 (ix2 e j) 0 (by simp) S768x768 (pieceQ W) rfl rfl 0 rfl (ix2 e o)
    (fun b hb => match b with | ⟨0, _⟩ => rfl | ⟨1, _⟩ => absurd rfl hb)
    (by show 0 + o.val = j.val; omega)
/-- Columns 768 … 1535: the key weight, transposed. -/
theorem v9_apply_k (e o : Fin 768) (j : Fin 2304) (hj : j.val = 768 + o.val) :
    (after (hostOps0 (F := Ideal)) W (Proc.devRef .tc main_v9) : S768x2304.Idx → EReal) (ix2 e j)
      = argWk W (ix2 o e) := by
  rw [v9_term, ← pieceK_apply]
  exact concatenate_apply_piece (t := S768x2304) (1 : Fin S768x2304.rank) [⟨S768x768, pieceQ W⟩, ⟨S768x768, pieceK W⟩, ⟨S768x768, pieceV W⟩] concatenates_S768x768_S768x768_S768x768_S768x2304_d1 (ix2 e j) 1 (by simp) S768x768 (pieceK W) rfl rfl 768 rfl (ix2 e o)
    (fun b hb => match b with | ⟨0, _⟩ => rfl | ⟨1, _⟩ => absurd rfl hb)
    (by show 768 + o.val = j.val; omega)
/-- Columns 1536 … 2303: the value weight, transposed. -/
theorem v9_apply_v (e o : Fin 768) (j : Fin 2304) (hj : j.val = 1536 + o.val) :
    (after (hostOps0 (F := Ideal)) W (Proc.devRef .tc main_v9) : S768x2304.Idx → EReal) (ix2 e j)
      = argWv W (ix2 o e) := by
  rw [v9_term, ← pieceV_apply]
  exact concatenate_apply_piece (t := S768x2304) (1 : Fin S768x2304.rank) [⟨S768x768, pieceQ W⟩, ⟨S768x768, pieceK W⟩, ⟨S768x768, pieceV W⟩] concatenates_S768x768_S768x768_S768x768_S768x2304_d1 (ix2 e j) 2 (by simp) S768x768 (pieceV W) rfl rfl 1536 rfl (ix2 e o)
    (fun b hb => match b with | ⟨0, _⟩ => rfl | ⟨1, _⟩ => absurd rfl hb)
    (by show 1536 + o.val = j.val; omega)

/-! ## Between the regions -/

/-- A band of 768 columns of the projection's output from column `off`, its rows read as 8 batches of 2048. -/
theorem band_apply (off : Nat) (hs : S16384x2304.Slices ![0, off] S16384x768)
    (X : S16384x2304.Idx → EReal) (b : Fin 8) (n : Fin 2048) (o : Fin 768) (r : Fin 16384) (hr : r.val = b.val * 2048 + n.val)
    (j : Fin 2304) (hj : j.val = off + o.val) :
    shapeCast S8x2048x768 (extractStridedSlice S16384x768 ![0, off] X hs) shapeCasts_S16384x768_S8x2048x768 (ix3 b n o)
      = X (ix2 r j) := by
  rw [shapeCast_apply _ _ (ix3 b n o) (ix2 r o) (by
    show ((⟨2, ![16384, 768]⟩ : Shape).rowMajor (ix2 r o)).val = ((⟨3, ![8, 2048, 768]⟩ : Shape).rowMajor (ix3 b n o)).val
    rw [Shape.rowMajor_val_three, Shape.rowMajor_val_two]
    show r.val * 768 + o.val = (b.val * 2048 + n.val) * 768 + o.val
    rw [hr])]
  exact slice2_axis1_apply off X hs r o j hj

theorem v12_apply (b : Fin 8) (n : Fin 2048) (o : Fin 768) (r : Fin 16384) (hr : r.val = b.val * 2048 + n.val)
    (j : Fin 2304) (hj : j.val = o.val) :
    (after (hostOps1 (F := Ideal)) W (Proc.devRef .tc main_v12) : S8x2048x768.Idx → EReal) (ix3 b n o)
      = arrQKV W (ix2 r j) := by
  have e0 : (after (hostOps1 (F := Ideal)) W (Proc.devRef .tc main_v12) : S8x2048x768.Idx → EReal)
      = shapeCast S8x2048x768 (extractStridedSlice S16384x768 ![0, 0] (W (Proc.devRef .tc main_v10)) slices_S16384x2304_S16384x768_0_0) shapeCasts_S16384x768_S8x2048x768 := by
    after_results; rfl
  rw [e0]
  exact band_apply 0 _ _ b n o r hr j (by omega)
theorem v14_apply (b : Fin 8) (n : Fin 2048) (o : Fin 768) (r : Fin 16384) (hr : r.val = b.val * 2048 + n.val)
    (j : Fin 2304) (hj : j.val = 768 + o.val) :
    (after (hostOps1 (F := Ideal)) W (Proc.devRef .tc main_v14) : S8x2048x768.Idx → EReal) (ix3 b n o)
      = arrQKV W (ix2 r j) := by
  have e0 : (after (hostOps1 (F := Ideal)) W (Proc.devRef .tc main_v14) : S8x2048x768.Idx → EReal)
      = shapeCast S8x2048x768 (extractStridedSlice S16384x768 ![0, 768] (W (Proc.devRef .tc main_v10)) slices_S16384x2304_S16384x768_0_768) shapeCasts_S16384x768_S8x2048x768 := by
    after_results; rfl
  rw [e0]
  exact band_apply 768 _ _ b n o r hr j hj
theorem v16_apply (b : Fin 8) (n : Fin 2048) (o : Fin 768) (r : Fin 16384) (hr : r.val = b.val * 2048 + n.val)
    (j : Fin 2304) (hj : j.val = 1536 + o.val) :
    (after (hostOps1 (F := Ideal)) W (Proc.devRef .tc main_v16) : S8x2048x768.Idx → EReal) (ix3 b n o)
      = arrQKV W (ix2 r j) := by
  have e0 : (after (hostOps1 (F := Ideal)) W (Proc.devRef .tc main_v16) : S8x2048x768.Idx → EReal)
      = shapeCast S8x2048x768 (extractStridedSlice S16384x768 ![0, 1536] (W (Proc.devRef .tc main_v10)) slices_S16384x2304_S16384x768_0_1536) shapeCasts_S16384x768_S8x2048x768 := by
    after_results; rfl
  rw [e0]
  exact band_apply 1536 _ _ b n o r hr j hj

end Cert.KernelIdeal.HandValue

end
-- ==== Proof.AttnSpec.lean ====
/-
  The two attention formulas over one batch, on plain index types.

  For one batch the input is a 2048 × 768 array X of rows and the three weights are 768 × 768 arrays.  A projection
  contracts a row of X with a row of a weight over the model axis.  The REFERENCE scores query row i against key
  row j by contracting the two projections and THEN multiplying by the scale c0, and pools the value rows by the
  plain two-pass softmax of the scores.  The KERNEL folds the scale into the query weight BEFORE any contraction,
  and pools by the running softmax over the two halves of the key rows.  Everything is on the extended reals with
  the ideal operations; nothing here is proved, these are the definitions both sides are read onto.
-/
import proofs.«178805_j14894946583181_2_alg».proof.Proof.LibOnlineSoftmax

noncomputable section

namespace Cert.Attn

open Idealize.ShloMosaic Finset

/-- Row `n` of `X` against row `o` of `W`, contracted over the model axis. -/
def proj (X : Fin 2048 → Fin 768 → EReal) (W : Fin 768 → Fin 768 → EReal) (n : Fin 2048) (o : Fin 768) : EReal :=
  ∑ e : Fin 768, X n e * W o e

/-- The reference's score of query row `i` against key row `j`: contract, then scale. -/
def score (X : Fin 2048 → Fin 768 → EReal) (Wk Wq : Fin 768 → Fin 768 → EReal) (c0 : EReal) (i j : Fin 2048) : EReal :=
  (∑ o : Fin 768, proj X Wq i o * proj X Wk j o) * c0

/-- The kernel's score: the scale is folded into the query weight before the contractions. -/
def scoreK (X : Fin 2048 → Fin 768 → EReal) (Wk Wq : Fin 768 → Fin 768 → EReal) (c0 : EReal) (i j : Fin 2048) : EReal :=
  ∑ o : Fin 768, proj X (fun o e => Wq o e * c0) i o * proj X Wk j o

/-- The reference's entry (i, d): the two-pass softmax of row i's scores, pooling column d of the value rows. -/
def refEntry (X : Fin 2048 → Fin 768 → EReal) (Wk Wq Wv : Fin 768 → Fin 768 → EReal) (c0 : EReal) (i : Fin 2048)
    (d : Fin 768) : EReal :=
  Cert.Pooling.twoPass (score X Wk Wq c0 i) (fun j => proj X Wv j d)

/-- The kernel's entry (i, d): the running softmax over the two halves of the key rows. -/
def kerEntry (X : Fin 2048 → Fin 768 → EReal) (Wk Wq Wv : Fin 768 → Fin 768 → EReal) (c0 : EReal) (i : Fin 2048)
    (d : Fin 768) : EReal :=
  Cert.Pooling.onePass
    (fun j' : Fin 1024 => scoreK X Wk Wq c0 i (Fin.castAdd 1024 j'))
    (fun j' : Fin 1024 => proj X Wv (Fin.castAdd 1024 j') d)
    (fun j' : Fin 1024 => scoreK X Wk Wq c0 i (Fin.natAdd 1024 j'))
    (fun j' : Fin 1024 => proj X Wv (Fin.natAdd 1024 j') d)

end Cert.Attn

end
-- ==== Proof.KernelValue.lean ====
/-
  The idealized kernel program's result, entry by entry, in terms of its four arguments. The attention region's three
  inputs are bands of the projection's output, which is the product of the input's rows with the fused weight
  matrix; so each input entry is a projection of a row of the input on a row of a weight — the query weight scaled
  first — and the region's output entry is the running softmax pooling over the two halves of the key rows.
-/
import proofs.«178805_j14894946583181_2_alg».proof.Proof.I.Run
import proofs.«178805_j14894946583181_2_alg».proof.Proof.Val0
import proofs.«178805_j14894946583181_2_alg».proof.Proof.Val1
import proofs.«178805_j14894946583181_2_alg».proof.Proof.HostMid
import proofs.«178805_j14894946583181_2_alg».proof.Proof.AttnSpec

set_option maxRecDepth 16384

noncomputable section

namespace Cert.KernelIdeal.HandValue

open Cert.KernelIdeal Cert.KernelIdeal.Gen Cert.KernelIdeal.Hand
open Idealize.ShloMosaic Idealize.ShloMosaic.TcCoe Idealize.SL.Sem Idealize.ShloMosaic.StableHlo
open Idealize.ShloMosaic.ValueIdx
open Idealize.ShloMosaic.Pipeline (Dat)
open scoped BigOperators

variable (m : (ℓ : Loc nD τ sig) → Buf (Elt Ideal) ℓ) (ρ : Dev nD → PrngReg)

/-- Batch `b`'s rows of the input, and a weight as a matrix, on plain index types. -/
abbrev rows (x : S8x2048x768.Idx → EReal) (b : Fin 8) : Fin 2048 → Fin 768 → EReal := fun n e => x (ix3 b n e)
abbrev mat (w : S768x768.Idx → EReal) : Fin 768 → Fin 768 → EReal := fun o e => w (ix2 o e)

/-- The four arguments on a core, as launched. -/
abbrev xArg (c : Dev nD) : S8x2048x768.Idx → EReal := m ((c.tc : Thread nD τ).loc main_arg0)
abbrev wkArg (c : Dev nD) : S768x768.Idx → EReal := m ((c.tc : Thread nD τ).loc main_arg1)
abbrev wqArg (c : Dev nD) : S768x768.Idx → EReal := m ((c.tc : Thread nD τ).loc main_arg2)
abbrev wvArg (c : Dev nD) : S768x768.Idx → EReal := m ((c.tc : Thread nD τ).loc main_arg3)

/-- The attention region's three inputs, and the fused weight matrix, as the regions find them. -/
def qArr (c : Dev nD) : S8x2048x768.Idx → EReal := V3 m ρ c main_v12
def kArr (c : Dev nD) : S8x2048x768.Idx → EReal := V3 m ρ c main_v14
def vArr (c : Dev nD) : S8x2048x768.Idx → EReal := V3 m ρ c main_v16
def w9Arr (c : Dev nD) : S768x2304.Idx → EReal := V1 m ρ c main_v9
def v0Arr (c : Dev nD) : S16384x768.Idx → EReal := V1 m ρ c main_v0

/-- Row `2048 b + n` of the 16384, and column `off + o` of the 2304. -/
abbrev rowOf (b : Fin 8) (n : Fin 2048) : Fin 16384 := ⟨b.val * 2048 + n.val, by have := b.isLt; have := n.isLt; omega⟩
abbrev colOf (off : Nat) (hoff : off + 768 ≤ 2304) (o : Fin 768) : Fin 2304 := ⟨off + o.val, by have := o.isLt; omega⟩

/-- The projection's output array, as the second stretch of host operations finds it, is the product of the
    reshaped input with the fused weight matrix. -/
theorem qkv_eq (c : Dev nD) :
    arrQKV (W2 m ρ c) = prod0 (V1 m ρ c main_v0) (V1 m ρ c main_v9) :=
  (W2_arr m ρ c 2).trans (arr0_eq (V1 m ρ) c)

/-- An entry of the product: row `2048 b + n` of the reshaped input is row `n` of batch `b`. -/
theorem qkv_apply (c : Dev nD) (b : Fin 8) (n : Fin 2048) (j : Fin 2304) :
    arrQKV (W2 m ρ c) (ix2 (rowOf b n) j)
      = ∑ e : Fin 768, xArg m c (ix3 b n e) * w9Arr m ρ c (ix2 e j) := by
  rw [qkv_eq]
  show ∑ k : Fin 768, v0Arr m ρ c (ix2 (rowOf b n) k) * w9Arr m ρ c (ix2 k j) = _
  refine Finset.sum_congr rfl fun e _ => ?_
  rw [show v0Arr m ρ c (ix2 (rowOf b n) e) = argX (W0 m ρ c) (ix3 b n e) from
    v0_apply (W0 m ρ c) b n e (rowOf b n) rfl]

/-- The attention region's query input: the input's row against the scaled query weight's row. -/
theorem q_entry (c : Dev nD) (b : Fin 8) (n : Fin 2048) (o : Fin 768) :
    qArr m ρ c (ix3 b n o)
      = Cert.Attn.proj (rows (xArg m c) b) (fun o e => mat (wqArg m c) o e * c0) n o := by
  rw [show qArr m ρ c (ix3 b n o) = arrQKV (W2 m ρ c) (ix2 (rowOf b n) (colOf 0 (by omega) o)) from
    v12_apply (W2 m ρ c) b n o (rowOf b n) rfl (colOf 0 (by omega) o) (by show 0 + o.val = o.val; omega)]
  rw [qkv_apply]
  unfold Cert.Attn.proj
  refine Finset.sum_congr rfl fun e _ => ?_
  rw [show w9Arr m ρ c (ix2 e (colOf 0 (by omega) o)) = argWq (W0 m ρ c) (ix2 o e) * c0 from
    v9_apply_q (W0 m ρ c) e o (colOf 0 (by omega) o) (by show 0 + o.val = o.val; omega)]
/-- Its key input: the input's row against the key weight's row. -/
theorem k_entry (c : Dev nD) (b : Fin 8) (n : Fin 2048) (o : Fin 768) :
    kArr m ρ c (ix3 b n o)
      = Cert.Attn.proj (rows (xArg m c) b) (mat (wkArg m c)) n o := by
  rw [show kArr m ρ c (ix3 b n o) = arrQKV (W2 m ρ c) (ix2 (rowOf b n) (colOf 768 (by omega) o)) from
    v14_apply (W2 m ρ c) b n o (rowOf b n) rfl (colOf 768 (by omega) o) rfl]
  rw [qkv_apply]
  unfold Cert.Attn.proj
  refine Finset.sum_congr rfl fun e _ => ?_
  rw [show w9Arr m ρ c (ix2 e (colOf 768 (by omega) o)) = argWk (W0 m ρ c) (ix2 o e) from
    v9_apply_k (W0 m ρ c) e o (colOf 768 (by omega) o) rfl]
/-- Its value input: the input's row against the value weight's row. -/
theorem v_entry (c : Dev nD) (b : Fin 8) (n : Fin 2048) (o : Fin 768) :
    vArr m ρ c (ix3 b n o)
      = Cert.Attn.proj (rows (xArg m c) b) (mat (wvArg m c)) n o := by
  rw [show vArr m ρ c (ix3 b n o) = arrQKV (W2 m ρ c) (ix2 (rowOf b n) (colOf 1536 (by omega) o)) from
    v16_apply (W2 m ρ c) b n o (rowOf b n) rfl (colOf 1536 (by omega) o) rfl]
  rw [qkv_apply]
  unfold Cert.Attn.proj
  refine Finset.sum_congr rfl fun e _ => ?_
  rw [show w9Arr m ρ c (ix2 e (colOf 1536 (by omega) o)) = argWv (W0 m ρ c) (ix2 o e) from
    v9_apply_v (W0 m ρ c) e o (colOf 1536 (by omega) o) rfl]

/-- THE KERNEL'S RESULT at batch `b`, row `i`, column `d`: the running softmax pooling of the value projections by
    the scores of the scaled query projection against the key projections, over the two halves of the key rows. -/
theorem kernel_entry (c : Dev nD) (b : Fin 8) (i : Fin 2048) (d : Fin 768) :
    (dat1 (F := Ideal) (V3 m ρ) c).arrAt 3 cfg1.N (ix3 b i d)
      = Cert.Attn.kerEntry (rows (xArg m c) b) (mat (wkArg m c)) (mat (wqArg m c)) (mat (wvArg m c)) c0 i d := by
  rw [arr1_eq (V3 m ρ) c]
  unfold Cert.Attn.kerEntry Cert.Attn.scoreK
  show Cert.Pooling.onePass
      (fun j' : Fin 1024 => ∑ o : Fin 768, qArr m ρ c (ix3 b i o) * kArr m ρ c (ix3 b (Fin.castAdd 1024 j') o))
      (fun j' : Fin 1024 => vArr m ρ c (ix3 b (Fin.castAdd 1024 j') d))
      (fun j' : Fin 1024 => ∑ o : Fin 768, qArr m ρ c (ix3 b i o) * kArr m ρ c (ix3 b (Fin.natAdd 1024 j') o))
      (fun j' : Fin 1024 => vArr m ρ c (ix3 b (Fin.natAdd 1024 j') d)) = _
  simp only [q_entry, k_entry, v_entry]

end Cert.KernelIdeal.HandValue

end
-- ==== Proof.RefSpec.lean ====
/-
  The reference's result at an index, as the explicit attention formula.

  The reference computes K = x·Wkᵀ, Q = x·Wqᵀ, V = x·Wvᵀ, the scores (Σₒ Q·K)·c0, each row's maximum (folded from
  −∞ and then joined with −∞ once more), the exponentials of the shifted scores, their row sums (added to 0), the
  quotients, and the contraction of the quotients with V.  Read one operation at a time at the index (b, i, d),
  that is, over batch b's rows, the plain two-pass softmax of row i's scores pooling column d of V: the initial
  0 of the row sum and the order of the two factors of each term are absorbed here.
-/
import proofs.«178805_j14894946583181_2_alg».proof.Proof.Gen.ReferenceIdeal.Read
import proofs.«178805_j14894946583181_2_alg».proof.Proof.AttnSpec
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.TcCoe
  Idealize.ShloMosaic.StableHlo Idealize.ShloMosaic.ValueIdx Finset

/-- Batch `b` of the input array, as rows. -/
def rowsOf (x0 : (⟨S8x2048x768, .f32⟩ : BufTy).Contents (Elt Ideal)) (b : Fin 8) : Fin 2048 → Fin 768 → EReal :=
  fun n e => x0 (ix3 b n e)

/-- A weight array, as rows. -/
def matOf (w : (⟨S768x768, .f32⟩ : BufTy).Contents (Elt Ideal)) : Fin 768 → Fin 768 → EReal :=
  fun o e => w (ix2 o e)

/-- The scale: the value of the word both programs carry. -/
def c0 : EReal := Ideal.ofBits .f32 0x3D13CD3A#32

/-- The scale is a real number: its word is a finite pattern (a normal number). -/
theorem c0_real : ∃ r : ℝ, c0 = r := by
  unfold c0
  simp [Ideal.ofBits, Ideal.ieee]
  exact ⟨_, (EReal.coe_mul _ _).symm⟩

/-- The pattern of −∞ denotes the bottom element. -/
theorem negInf_eq_bot : Ideal.ofBits .f32 0xFF800000#32 = (⊥ : EReal) := by
  simp [Ideal.ofBits, Ideal.ieee]

/-- The zero pattern denotes 0. -/
theorem zero_eq_zero : Ideal.ofBits .f32 0x00000000#32 = (0 : EReal) := by
  simp [Ideal.ofBits, Ideal.ieee]

section Read

variable (x0 : (⟨S8x2048x768, .f32⟩ : BufTy).Contents (Elt Ideal))
  (x1 x2 x3 : (⟨S768x768, .f32⟩ : BufTy).Contents (Elt Ideal))

/-- K at (b, n, o). -/
theorem v0_at (b : Fin 8) (n : Fin 2048) (o : Fin 768) :
    val_main_v0 (F := Ideal) x0 x1 (ix3 b n o) = Cert.Attn.proj (rowsOf x0 b) (matOf x1) n o := by
  rw [val_main_v0_apply]
  unfold Cert.Attn.proj rowsOf matOf
  refine Finset.sum_congr rfl fun e _ => ?_
  have hl : lidx_main_v0 (ix3 b n o) e = ix3 b n e := funext fun a => by
    match a with | ⟨0, _⟩ => rfl | ⟨1, _⟩ => rfl | ⟨2, _⟩ => rfl
  have hr : ridx_main_v0 (ix3 b n o) e = ix2 o e := funext fun a => by
    match a with | ⟨0, _⟩ => rfl | ⟨1, _⟩ => rfl
  rw [hl, hr]

/-- Q at (b, n, o). -/
theorem v1_at (b : Fin 8) (n : Fin 2048) (o : Fin 768) :
    val_main_v1 (F := Ideal) x0 x2 (ix3 b n o) = Cert.Attn.proj (rowsOf x0 b) (matOf x2) n o := by
  rw [val_main_v1_apply]
  unfold Cert.Attn.proj rowsOf matOf
  refine Finset.sum_congr rfl fun e _ => ?_
  have hl : lidx_main_v1 (ix3 b n o) e = ix3 b n e := funext fun a => by
    match a with | ⟨0, _⟩ => rfl | ⟨1, _⟩ => rfl | ⟨2, _⟩ => rfl
  have hr : ridx_main_v1 (ix3 b n o) e = ix2 o e := funext fun a => by
    match a with | ⟨0, _⟩ => rfl | ⟨1, _⟩ => rfl
  rw [hl, hr]

/-- V at (b, n, o). -/
theorem v2_at (b : Fin 8) (n : Fin 2048) (o : Fin 768) :
    val_main_v2 (F := Ideal) x0 x3 (ix3 b n o) = Cert.Attn.proj (rowsOf x0 b) (matOf x3) n o := by
  rw [val_main_v2_apply]
  unfold Cert.Attn.proj rowsOf matOf
  refine Finset.sum_congr rfl fun e _ => ?_
  have hl : lidx_main_v2 (ix3 b n o) e = ix3 b n e := funext fun a => by
    match a with | ⟨0, _⟩ => rfl | ⟨1, _⟩ => rfl | ⟨2, _⟩ => rfl
  have hr : ridx_main_v2 (ix3 b n o) e = ix2 o e := funext fun a => by
    match a with | ⟨0, _⟩ => rfl | ⟨1, _⟩ => rfl
  rw [hl, hr]

/-- The scaled score of query row i against key row j. -/
theorem v5_at (b : Fin 8) (i j : Fin 2048) :
    val_main_v5 (F := Ideal) x0 x1 x2 (ix3 b i j)
      = Cert.Attn.score (rowsOf x0 b) (matOf x1) (matOf x2) c0 i j := by
  rw [val_main_v5_apply, val_main_v3_apply, val_main_v4_apply, val_main_cst_apply]
  unfold Cert.Attn.score c0
  have h3 : ∀ o : Fin 768, val_main_v1 (F := Ideal) x0 x2 (lidx_main_v3 (ix3 b i j) o)
        * val_main_v0 (F := Ideal) x0 x1 (ridx_main_v3 (ix3 b i j) o)
      = Cert.Attn.proj (rowsOf x0 b) (matOf x2) i o * Cert.Attn.proj (rowsOf x0 b) (matOf x1) j o := fun o => by
    have hl : lidx_main_v3 (ix3 b i j) o = ix3 b i o := funext fun a => by
      match a with | ⟨0, _⟩ => rfl | ⟨1, _⟩ => rfl | ⟨2, _⟩ => rfl
    have hr : ridx_main_v3 (ix3 b i j) o = ix3 b j o := funext fun a => by
      match a with | ⟨0, _⟩ => rfl | ⟨1, _⟩ => rfl | ⟨2, _⟩ => rfl
    rw [hl, hr, v1_at, v0_at]
  rw [Finset.sum_congr rfl fun o _ => h3 o]
  rfl

/-- The reduced-axis witness at the literal shapes. -/
theorem hRed : S8x2048x2048.Reduces [2] S8x2048 := by decide

/-- Row (b, i) with key coordinate k put back is (b, i, k). -/
theorem lift_ix (b : Fin 8) (i : Fin 2048) (k : Fin (S8x2048x2048.size 2)) :
    hRed.lift (ix2 b i) k = ix3 b i (⟨k.val, k.isLt⟩ : Fin 2048) := by
  funext c; apply Fin.ext
  fin_cases c <;> rfl

/-- A row's maximum, folded from −∞. -/
theorem v6_at (b : Fin 8) (i : Fin 2048) :
    val_main_v6 (F := Ideal) x0 x1 x2 (ix2 b i)
      = Cert.Pooling.rowMax (Cert.Attn.score (rowsOf x0 b) (matOf x1) (matOf x2) c0 i) := by
  unfold val_main_v6
  rw [Host.reduce_eq_fold_single FloatOps.maximumf _ _ reducesTo_S8x2048x2048_S8x2048_d2 hRed h_S_ (ix2 b i)]
  have hb : val_main_cst_0 (F := Ideal) (Shape.Idx.first h_S_) = (⊥ : EReal) := by
    rw [val_main_cst_0_apply]; exact negInf_eq_bot
  have hf : (val_main_v5 (F := Ideal) x0 x1 x2 ∘ hRed.lift (ix2 b i))
      = fun k : Fin 2048 => Cert.Attn.score (rowsOf x0 b) (matOf x1) (matOf x2) c0 i k := funext fun k => by
    show val_main_v5 (F := Ideal) x0 x1 x2 (hRed.lift (ix2 b i) k) = _
    rw [lift_ix, v5_at]
    rfl
  rw [hb]
  unfold Cert.Pooling.rowMax
  exact congrArg (fun f => Finset.fold max (⊥ : EReal) f (Finset.univ : Finset (Fin 2048))) hf

/-- The shift: −∞ joined with the row's maximum. -/
theorem v8_at (b : Fin 8) (i : Fin 2048) :
    val_main_v8 (F := Ideal) x0 x1 x2 (ix2 b i)
      = max ⊥ (Cert.Pooling.rowMax (Cert.Attn.score (rowsOf x0 b) (matOf x1) (matOf x2) c0 i)) := by
  rw [val_main_v8_apply, val_main_v7_apply, val_main_cst_1_apply, v6_at]
  show max (Ideal.ofBits .f32 0xFF800000#32) _ = _
  rw [negInf_eq_bot]

/-- The exponential of a shifted score. -/
theorem v12_at (b : Fin 8) (i j : Fin 2048) :
    val_main_v12 (F := Ideal) x0 x1 x2 (ix3 b i j)
      = Ideal.exp (Cert.Attn.score (rowsOf x0 b) (matOf x1) (matOf x2) c0 i j
          - max ⊥ (Cert.Pooling.rowMax (Cert.Attn.score (rowsOf x0 b) (matOf x1) (matOf x2) c0 i))) := by
  rw [val_main_v12_apply, val_main_v11_apply, val_main_v10_apply, val_main_v9_apply, v5_at]
  have hi : idx_main_v9 (idx_main_v10 (ix3 b i j)) = ix2 b i := funext fun a => by
    match a with | ⟨0, _⟩ => rfl | ⟨1, _⟩ => rfl
  rw [hi, v8_at]
  rfl

/-- The row sum of the exponentials, added to the initial 0. -/
theorem v13_at (b : Fin 8) (i : Fin 2048) :
    val_main_v13 (F := Ideal) x0 x1 x2 (ix2 b i)
      = 0 + ∑ k : Fin 2048, Ideal.exp (Cert.Attn.score (rowsOf x0 b) (matOf x1) (matOf x2) c0 i k
          - max ⊥ (Cert.Pooling.rowMax (Cert.Attn.score (rowsOf x0 b) (matOf x1) (matOf x2) c0 i))) := by
  rw [val_main_v13_apply, val_main_cst_2_apply]
  have h0 : FloatOps.ofBits (F := Ideal) .f32 0x00000000#32 = (0 : EReal) := zero_eq_zero
  rw [h0]
  refine congrArg (0 + ·) (Finset.sum_congr rfl fun k _ => ?_)
  have hi : idx_main_v13 (ix2 b i) k = ix3 b i k := funext fun a => by
    match a with | ⟨0, _⟩ => rfl | ⟨1, _⟩ => rfl | ⟨2, _⟩ => rfl
  rw [hi, v12_at]

/-- A softmax weight. -/
theorem v16_at (b : Fin 8) (i j : Fin 2048) :
    val_main_v16 (F := Ideal) x0 x1 x2 (ix3 b i j)
      = Ideal.div
          (Ideal.exp (Cert.Attn.score (rowsOf x0 b) (matOf x1) (matOf x2) c0 i j
            - max ⊥ (Cert.Pooling.rowMax (Cert.Attn.score (rowsOf x0 b) (matOf x1) (matOf x2) c0 i))))
          (0 + ∑ k : Fin 2048, Ideal.exp (Cert.Attn.score (rowsOf x0 b) (matOf x1) (matOf x2) c0 i k
            - max ⊥ (Cert.Pooling.rowMax (Cert.Attn.score (rowsOf x0 b) (matOf x1) (matOf x2) c0 i)))) := by
  rw [val_main_v16_apply, val_main_v15_apply, val_main_v14_apply, v12_at]
  have hi : idx_main_v14 (idx_main_v15 (ix3 b i j)) = ix2 b i := funext fun a => by
    match a with | ⟨0, _⟩ => rfl | ⟨1, _⟩ => rfl
  rw [hi, v13_at]
  rfl

end Read

/-- The reference's result at (b, i, d). -/
theorem ref_entry (x0 : (⟨S8x2048x768, .f32⟩ : BufTy).Contents (Elt Ideal))
    (x1 x2 x3 : (⟨S768x768, .f32⟩ : BufTy).Contents (Elt Ideal)) (b : Fin 8) (i : Fin 2048) (d : Fin 768) :
    val_main_v17 (F := Ideal) x0 x1 x2 x3 (ix3 b i d)
      = Cert.Attn.refEntry (rowsOf x0 b) (matOf x1) (matOf x2) (matOf x3) c0 i d := by
  rw [val_main_v17_apply]
  unfold Cert.Attn.refEntry Cert.Pooling.twoPass
  refine Finset.sum_congr rfl fun k _ => ?_
  have hl : lidx_main_v17 (ix3 b i d) k = ix3 b i k := funext fun a => by
    match a with | ⟨0, _⟩ => rfl | ⟨1, _⟩ => rfl | ⟨2, _⟩ => rfl
  have hr : ridx_main_v17 (ix3 b i d) k = ix3 b k d := funext fun a => by
    match a with | ⟨0, _⟩ => rfl | ⟨1, _⟩ => rfl | ⟨2, _⟩ => rfl
  rw [hl, hr, v16_at, v2_at, zero_add, mul_comm]

end Cert.ReferenceIdeal.RefValue

end
-- ==== Proof.AttnMath.lean ====
/-
  The kernel's attention entry equals the reference's, on real inputs.

  Three facts, all over the reals, carried to the extended reals because every quantity in sight is a real number
  when the inputs are:
  (i)   the scale moves across the contraction: Σₒ (Σₑ x·(w·c))·k = (Σₒ (Σₑ x·w)·k)·c, by distributivity;
  (ii)  the running softmax over the two halves of a real row is the plain two-pass softmax of the row (the general
        law of the pooling library, whose hypotheses are exactly that scores and features are real);
  (iii) a projection of real rows against real weights is real, and so is a score.
-/
import proofs.«178805_j14894946583181_2_alg».proof.Proof.AttnSpec

noncomputable section

namespace Cert.Attn

open Idealize.ShloMosaic Finset Cert.Pooling

/-- A projection of real rows against real weights is the real contraction. -/
theorem proj_coe (X : Fin 2048 → Fin 768 → EReal) (W : Fin 768 → Fin 768 → EReal) (xr : Fin 2048 → Fin 768 → ℝ)
    (wr : Fin 768 → Fin 768 → ℝ) (hX : ∀ n e, X n e = xr n e) (hW : ∀ o e, W o e = wr o e) (n : Fin 2048)
    (o : Fin 768) : proj X W n o = ((∑ e, xr n e * wr o e : ℝ) : EReal) := by
  unfold proj
  rw [← coe_sum]
  exact Finset.sum_congr rfl fun e _ => by rw [hX, hW, EReal.coe_mul]

/-- The kernel's score on real data. -/
theorem scoreK_coe (X : Fin 2048 → Fin 768 → EReal) (Wk Wq : Fin 768 → Fin 768 → EReal) (c0 : EReal)
    (xr : Fin 2048 → Fin 768 → ℝ) (kr qr : Fin 768 → Fin 768 → ℝ) (cr : ℝ) (hX : ∀ n e, X n e = xr n e)
    (hk : ∀ o e, Wk o e = kr o e) (hq : ∀ o e, Wq o e = qr o e) (hc : c0 = cr) (i j : Fin 2048) :
    scoreK X Wk Wq c0 i j
      = ((∑ o, (∑ e, xr i e * (qr o e * cr)) * (∑ e, xr j e * kr o e) : ℝ) : EReal) := by
  unfold scoreK
  rw [← coe_sum]
  refine Finset.sum_congr rfl fun o _ => ?_
  rw [proj_coe X (fun o e => Wq o e * c0) xr (fun o e => qr o e * cr) hX
      (fun o e => by simp only [hq, hc, EReal.coe_mul]) i o,
    proj_coe X Wk xr kr hX hk j o, EReal.coe_mul]

/-- The reference's score on real data. -/
theorem score_coe (X : Fin 2048 → Fin 768 → EReal) (Wk Wq : Fin 768 → Fin 768 → EReal) (c0 : EReal)
    (xr : Fin 2048 → Fin 768 → ℝ) (kr qr : Fin 768 → Fin 768 → ℝ) (cr : ℝ) (hX : ∀ n e, X n e = xr n e)
    (hk : ∀ o e, Wk o e = kr o e) (hq : ∀ o e, Wq o e = qr o e) (hc : c0 = cr) (i j : Fin 2048) :
    score X Wk Wq c0 i j
      = (((∑ o, (∑ e, xr i e * qr o e) * (∑ e, xr j e * kr o e)) * cr : ℝ) : EReal) := by
  unfold score
  rw [EReal.coe_mul, hc, ← coe_sum]
  congr 1
  refine Finset.sum_congr rfl fun o _ => ?_
  rw [proj_coe X Wq xr qr hX hq i o, proj_coe X Wk xr kr hX hk j o, EReal.coe_mul]

/-- (i) Over the reals the scale moves across both contractions. -/
theorem scale_real (xr : Fin 2048 → Fin 768 → ℝ) (kr qr : Fin 768 → Fin 768 → ℝ) (cr : ℝ) (i j : Fin 2048) :
    ∑ o, (∑ e, xr i e * (qr o e * cr)) * (∑ e, xr j e * kr o e)
      = (∑ o, (∑ e, xr i e * qr o e) * (∑ e, xr j e * kr o e)) * cr := by
  rw [Finset.sum_mul]
  refine Finset.sum_congr rfl fun o _ => ?_
  have h : ∑ e, xr i e * (qr o e * cr) = (∑ e, xr i e * qr o e) * cr := by
    rw [Finset.sum_mul]
    exact Finset.sum_congr rfl fun e _ => (mul_assoc _ _ _).symm
  rw [h]
  ring

/-- THE BRIDGE.  On real inputs the kernel's entry — scale folded into the query weight, running softmax over the two
    halves of the key rows — is the reference's entry — scale after the contraction, two-pass softmax. -/
theorem kerEntry_eq_refEntry (X : Fin 2048 → Fin 768 → EReal) (Wk Wq Wv : Fin 768 → Fin 768 → EReal) (c0 : EReal)
    (hX : ∀ n e, ∃ r : ℝ, X n e = r) (hk : ∀ o e, ∃ r : ℝ, Wk o e = r) (hq : ∀ o e, ∃ r : ℝ, Wq o e = r)
    (hv : ∀ o e, ∃ r : ℝ, Wv o e = r) (hc : ∃ r : ℝ, c0 = r) (i : Fin 2048) (d : Fin 768) :
    kerEntry X Wk Wq Wv c0 i d = refEntry X Wk Wq Wv c0 i d := by
  choose xr hX using hX
  choose kr hk using hk
  choose qr hq using hq
  choose vr hv using hv
  obtain ⟨cr, hc⟩ := hc
  have hs : ∀ j, scoreK X Wk Wq c0 i j = score X Wk Wq c0 i j := fun j => by
    rw [scoreK_coe X Wk Wq c0 xr kr qr cr hX hk hq hc i j, score_coe X Wk Wq c0 xr kr qr cr hX hk hq hc i j,
      scale_real]
  unfold kerEntry refEntry
  simp only [hs]
  exact onePass_eq_twoPass (n := 1024) (by norm_num) (score X Wk Wq c0 i) (fun j => proj X Wv j d)
    (fun s => ⟨_, score_coe X Wk Wq c0 xr kr qr cr hX hk hq hc i s⟩)
    (fun s => ⟨_, proj_coe X Wv xr vr hX hv s d⟩)

/-- The same, with both sides written out (no definition of this file in the statement). -/
theorem bridge (X : Fin 2048 → Fin 768 → EReal) (Wk Wq Wv : Fin 768 → Fin 768 → EReal) (c0 : EReal)
    (hX : ∀ n e, ∃ r : ℝ, X n e = r) (hk : ∀ o e, ∃ r : ℝ, Wk o e = r) (hq : ∀ o e, ∃ r : ℝ, Wq o e = r)
    (hv : ∀ o e, ∃ r : ℝ, Wv o e = r) (hc : ∃ r : ℝ, c0 = r) (i : Fin 2048) (d : Fin 768) :
    onePass
        (fun j' : Fin 1024 => ∑ o : Fin 768, (∑ e : Fin 768, X i e * (Wq o e * c0))
          * (∑ e : Fin 768, X (Fin.castAdd 1024 j') e * Wk o e))
        (fun j' : Fin 1024 => ∑ e : Fin 768, X (Fin.castAdd 1024 j') e * Wv d e)
        (fun j' : Fin 1024 => ∑ o : Fin 768, (∑ e : Fin 768, X i e * (Wq o e * c0))
          * (∑ e : Fin 768, X (Fin.natAdd 1024 j') e * Wk o e))
        (fun j' : Fin 1024 => ∑ e : Fin 768, X (Fin.natAdd 1024 j') e * Wv d e)
      = twoPass (fun j : Fin 2048 => (∑ o : Fin 768, (∑ e : Fin 768, X i e * Wq o e) * (∑ e : Fin 768, X j e * Wk o e)) * c0)
          (fun j : Fin 2048 => ∑ e : Fin 768, X j e * Wv d e) :=
  kerEntry_eq_refEntry X Wk Wq Wv c0 hX hk hq hv hc i d

end Cert.Attn

end
-- ==== Proof.RefBridge.lean ====
/-
  The reference's result, in the kernel's form.

  On arrays of real numbers the reference's entry (b, i, d) — the two-pass attention formula — is the running
  (online) formula with the scale folded into the query weight: the reading of the reference at an index, the
  bridge between the two formulas on real data, and the fact that the scale is a real number, composed.
-/
import proofs.«178805_j14894946583181_2_alg».proof.Proof.RefSpec
import proofs.«178805_j14894946583181_2_alg».proof.Proof.AttnMath

noncomputable section

namespace Cert.ReferenceIdeal.RefValue

open Cert.ReferenceIdeal Cert.ReferenceIdeal.Gen Cert.ReferenceIdeal.Read Idealize.ShloMosaic Idealize.ShloMosaic.TcCoe
  Idealize.ShloMosaic.StableHlo Idealize.ShloMosaic.ValueIdx Finset

/-- On real arrays the reference's result at (b, i, d) is the kernel's formula over batch b's rows. -/
theorem ref_entry_eq_kerEntry (x0 : (⟨S8x2048x768, .f32⟩ : BufTy).Contents (Elt Ideal))
    (x1 x2 x3 : (⟨S768x768, .f32⟩ : BufTy).Contents (Elt Ideal))
    (h0 : ∀ j, ∃ r : ℝ, x0 j = r) (h1 : ∀ j, ∃ r : ℝ, x1 j = r) (h2 : ∀ j, ∃ r : ℝ, x2 j = r)
    (h3 : ∀ j, ∃ r : ℝ, x3 j = r) (b : Fin 8) (i : Fin 2048) (d : Fin 768) :
    val_main_v17 (F := Ideal) x0 x1 x2 x3 (ix3 b i d)
      = Cert.Attn.kerEntry (rowsOf x0 b) (matOf x1) (matOf x2) (matOf x3) c0 i d := by
  rw [ref_entry]
  exact (Cert.Attn.kerEntry_eq_refEntry (rowsOf x0 b) (matOf x1) (matOf x2) (matOf x3) c0
    (fun n e => h0 (ix3 b n e)) (fun o e => h1 (ix2 o e)) (fun o e => h2 (ix2 o e)) (fun o e => h3 (ix2 o e))
    c0_real i d).symm

end Cert.ReferenceIdeal.RefValue

end
-- ==== Proof.Finite.lean ====
/-
  From the finiteness precondition to "every input entry is a real number".

  The precondition is the conjunction, over the four argument arrays, of "every entry's absolute value is below
  +∞".  An extended real whose absolute value is below +∞ is neither −∞ nor +∞ (the absolute value of either is
  +∞, which is not below itself), so it is a real number.
-/
import proofs.«178805_j14894946583181_2_alg».proof.Proof.Gen.Pre_finite_inputs
import Idealize.ShloMosaic.Lib.ReduceAll
import Idealize.ShloMosaic.Lib.ValueIdx
import Idealize.ShloMosaic.PureOps.Ideal.Laws

noncomputable section

namespace Cert.Pre_finite_inputs.Finite

open Cert.Pre_finite_inputs Cert.Pre_finite_inputs.Gen Idealize.ShloMosaic Idealize.ShloMosaic.ValueIdx

/-- The result of a reduction over every axis has one index. -/
instance : Subsingleton S_.Idx := ⟨fun a b => funext fun d => d.elim0⟩

/-- The pattern of +∞ denotes the top element. -/
theorem posInf_eq_top : Ideal.ofBits .f32 0x7F800000#32 = (⊤ : EReal) := by
  simp [Ideal.ofBits, Ideal.ieee]

/-- An extended real whose absolute value compares below +∞ is a real number. -/
theorem real_of_abs_lt (x : EReal)
    (h : Ideal.cmp .olt (max x (-x)) (Ideal.ofBits .f32 0x7F800000#32) = 1#1) : ∃ r : ℝ, x = r := by
  rw [posInf_eq_top] at h
  induction x using EReal.rec with
  | bot => simp [Ideal.cmp] at h
  | top => simp [Ideal.cmp] at h
  | coe r => exact ⟨r, rfl⟩

/-- Under the precondition every entry of each of the four argument arrays is a real number. -/
theorem real_of_pre (a0 : FVec Ideal S8x2048x768 .f32) (a1 a2 a3 : FVec Ideal S768x768 .f32)
    (h : fn (F := Ideal) a0 a1 a2 a3 = fun _ => 1#1) :
    (∀ j, ∃ r : ℝ, a0 j = r) ∧ (∀ j, ∃ r : ℝ, a1 j = r) ∧ (∀ j, ∃ r : ℝ, a2 j = r)
      ∧ (∀ j, ∃ r : ℝ, a3 j = r) := by
  have h0 := congrFun h ix0
  dsimp only [fn, fn_part1] at h0
  obtain ⟨h012, h3⟩ := IntOp.andi_eq_one.1 h0
  obtain ⟨h01, h2⟩ := IntOp.andi_eq_one.1 h012
  obtain ⟨h0', h1⟩ := IntOp.andi_eq_one.1 h01
  refine ⟨fun j => ?_, fun j => ?_, fun j => ?_, fun j => ?_⟩
  · exact real_of_abs_lt _ (Host.reduce_andi_all _ _ _ _ _ h0' j)
  · exact real_of_abs_lt _ (Host.reduce_andi_all _ _ _ _ _ h1 j)
  · exact real_of_abs_lt _ (Host.reduce_andi_all _ _ _ _ _ h2 j)
  · exact real_of_abs_lt _ (Host.reduce_andi_all _ _ _ _ _ h3 j)

end Cert.Pre_finite_inputs.Finite

end
-- ==== Proof.FinitePre.lean ====
/-
  The finiteness facts, from the precondition exactly as the claims state it.

  The precondition of the idealized kernel says that the printed predicate, applied to the four argument arrays
  of a device in their order (input, then the key, query and value weights), is all ones.  Unfolded at a device it
  is the hypothesis of the array-level statement, whence every entry of each argument array is a real number.
-/
import proofs.«178805_j14894946583181_2_alg».proof.Defs
import proofs.«178805_j14894946583181_2_alg».proof.Proof.Finite

noncomputable section

namespace Cert.Pre_finite_inputs.Finite

open Cert.Pre_finite_inputs Cert.Pre_finite_inputs.Gen Idealize.ShloMosaic Idealize.SL.Sem

/-- Under the idealized kernel's precondition, on every device, every entry of each argument array is a real. -/
theorem real_of_Pre_KernelIdeal
    (m : (ℓ : Loc Cert.KernelIdeal.nD Cert.KernelIdeal.τ Cert.KernelIdeal.sig) → Buf (Elt Ideal) ℓ)
    (h : Cert.Pre_KernelIdeal m) (c : Dev Cert.KernelIdeal.nD) :
    (∀ j : S8x2048x768.Idx, ∃ r : ℝ, @Eq EReal
        (m ((c.tc : Thread Cert.KernelIdeal.nD Cert.KernelIdeal.τ).loc Cert.KernelIdeal.main_arg0) j) ((r : ℝ) : EReal))
      ∧ (∀ j : S768x768.Idx, ∃ r : ℝ, @Eq EReal
        (m ((c.tc : Thread Cert.KernelIdeal.nD Cert.KernelIdeal.τ).loc Cert.KernelIdeal.main_arg1) j) ((r : ℝ) : EReal))
      ∧ (∀ j : S768x768.Idx, ∃ r : ℝ, @Eq EReal
        (m ((c.tc : Thread Cert.KernelIdeal.nD Cert.KernelIdeal.τ).loc Cert.KernelIdeal.main_arg2) j) ((r : ℝ) : EReal))
      ∧ (∀ j : S768x768.Idx, ∃ r : ℝ, @Eq EReal
        (m ((c.tc : Thread Cert.KernelIdeal.nD Cert.KernelIdeal.τ).loc Cert.KernelIdeal.main_arg3) j) ((r : ℝ) : EReal)) :=
  real_of_pre _ _ _ _ (h c)

end Cert.Pre_finite_inputs.Finite

end
-- ==== Proof.lean ====
/-
  The certificate of a fused attention layer against its plain reference.

  The kernel program projects the input once on a fused weight matrix — the query weight transposed and scaled by
  the softmax scale, the key and value weights transposed, side by side — in a first region, tile of rows by tile of
  rows; cuts the product into queries, keys and values; and in a second region computes, for each batch and each tile
  of 1024 query rows, the softmax-weighted sum of the value rows by the running (online) softmax over the two tiles of
  1024 key rows: a running maximum, a running sum and an accumulator kept in scratch memory between the two tiles,
  the accumulator divided by the sum at the second. The reference projects three times, scales the scores after the
  contraction, and normalizes in two passes.

  Frames: each region's body is run at every grid point against the contents its windows hold there, and the whole
  program is the two stretches of host operations and the two regions in order; nothing writes an argument. The
  word-level program and its idealization are the same operations read at two float instances.
  Value, at the ideal level, where a float is an extended real and a change of format is the identity: the first
  region leaves the product of the reshaped input with the fused weights; the second leaves, entry by entry, the
  running softmax pooling of the value projections. On real (finite) inputs that is the reference's entry: the scale
  moves across the contraction by distributivity, and the running form over two halves is the two-pass softmax.
-/
import proofs.«178805_j14894946583181_2_alg».proof.Defs
import proofs.«178805_j14894946583181_2_alg».proof.Proof.Gen.Kernel
import proofs.«178805_j14894946583181_2_alg».proof.Proof.Gen.KernelIdeal
import proofs.«178805_j14894946583181_2_alg».proof.Proof.Gen.ReferenceIdeal
import proofs.«178805_j14894946583181_2_alg».proof.Proof.Gen.Pre_finite_inputs
import proofs.«178805_j14894946583181_2_alg».proof.Proof.Gen.ReferenceIdeal.Read
import proofs.«178805_j14894946583181_2_alg».proof.Proof.K.Run
import proofs.«178805_j14894946583181_2_alg».proof.Proof.I.Run
import proofs.«178805_j14894946583181_2_alg».proof.Proof.KernelValue
import proofs.«178805_j14894946583181_2_alg».proof.Proof.RefBridge
import proofs.«178805_j14894946583181_2_alg».proof.Proof.FinitePre
import Idealize.ShloMosaic.Adequacy
import Idealize.ShloMosaic.Init

noncomputable section

namespace Cert.Proof

open Idealize.ShloMosaic Idealize.SL.Sem

/-- The word-level kernel program runs to the end and leaves its arguments as launched. -/
theorem frame_p : Cert.frame_Kernel := fun m ρ _ => Cert.Kernel.Hand.frame (F := Bits) m ρ

/-- So does its idealization: the same text read on the extended reals. -/
theorem frame_pi : Cert.frame_KernelIdeal := fun m ρ _ => Cert.KernelIdeal.Hand.frame (F := Ideal) m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrites no operation: nothing to preserve beyond the program itself. -/
theorem preserves : Cert.preserves_Kernel_KernelIdeal := trivial

/-- On finite inputs the two idealized programs end with the same result: the attention region's output array,
    entry by entry the running softmax pooling, is the reference's two-pass softmax pooling. -/
theorem algebraic : Cert.algebraic_KernelIdeal_ReferenceIdeal := by
  intro m ρ m' ρ' hpre hagree
  refine ⟨fun c => (Cert.KernelIdeal.Hand.dat1 (F := Ideal) (Cert.KernelIdeal.Hand.V3 m ρ) c).arrAt 3 Cert.KernelIdeal.cfg1.N,
    Cert.KernelIdeal.Hand.run_main (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨r0, r1, r2, r3⟩ := Cert.Pre_finite_inputs.Finite.real_of_Pre_KernelIdeal m hpre c
  rw [(hagree c).1, (hagree c).2.1, (hagree c).2.2.1, (hagree c).2.2.2, Cert.ReferenceIdeal.Read.val_main_v17_eq]
  funext j
  rw [ValueIdx.eq_ix3 j]
  exact (Cert.ReferenceIdeal.RefValue.ref_entry_eq_kerEntry _ _ _ _ r0 r1 r2 r3 (j 0) (j 1) (j 2)).trans
    (Cert.KernelIdeal.HandValue.kernel_entry m ρ c (j 0) (j 1) (j 2)).symm

theorem claim : Cert.Claim := ⟨Cert.Kernel.Gen.facts, Cert.KernelIdeal.Gen.facts, Cert.ReferenceIdeal.Gen.facts, Cert.Pre_finite_inputs.Gen.facts,
  frame_p, frame_pi, frame_ri, preserves, algebraic⟩

end Cert.Proof

end
